-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v852) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x128x128x128 : Shape := ⟨5, ![16, 1, 128, 128, 128]⟩
abbrev S_ : Shape := ⟨0, ![]⟩

class Facts : Prop where
  bcast_S_S16x1x128x128x128 : S_.BroadcastsInDim S16x1x128x128x128 (![] : Fin 0 → Fin S16x1x128x128x128.rank)
  reducesTo_S16x1x128x128x128_S_d0_1_2_3_4 : S16x1x128x128x128.ReducesTo [0, 1, 2, 3, 4] S_
  h_S_ : 0 < S_.numel

variable [Facts]

def fn {F : FTy → Type} [FloatOps F] (main_arg0 : FVec F S16x1x128x128x128 .f32) (main_arg1 : FVec F S16x1x128x128x128 .f32) : IVec S_ 1 :=
  let main_v0 : FVec F S16x1x128x128x128 .f32 := Host.absf main_arg0
  let main_cst : FVec F S_ .f32 := constant S_ .f32 0x7F800000#32
  let main_v1 : FVec F S16x1x128x128x128 .f32 := broadcastInDim S16x1x128x128x128 ![] bcast_S_S16x1x128x128x128 main_cst
  let main_v2 : IVec S16x1x128x128x128 1 := cmpf .olt main_v0 main_v1
  let main_c : IVec S_ 1 := constantI S_ 1 1#1
  let main_v3 : IVec S_ 1 := (fun x v => Host.reduce IntOp.andi x v reducesTo_S16x1x128x128x128_S_d0_1_2_3_4 h_S_) main_v2 main_c
  let main_v4 : FVec F S16x1x128x128x128 .f32 := Host.absf main_arg1
  let main_cst_0 : FVec F S_ .f32 := constant S_ .f32 0x7F800000#32
  let main_v5 : FVec F S16x1x128x128x128 .f32 := broadcastInDim S16x1x128x128x128 ![] bcast_S_S16x1x128x128x128 main_cst_0
  let main_v6 : IVec S16x1x128x128x128 1 := cmpf .olt main_v4 main_v5
  let main_c_1 : IVec S_ 1 := constantI S_ 1 1#1
  let main_v7 : IVec S_ 1 := (fun x v => Host.reduce IntOp.andi x v reducesTo_S16x1x128x128x128_S_d0_1_2_3_4 h_S_) main_v6 main_c_1
  let main_v8 : IVec S_ 1 := andi main_v3 main_v7
  main_v8
-- ==== Kernel.lean ====
abbrev S16x1x128x128x128 : Shape := ⟨5, ![16, 1, 128, 128, 128]⟩
abbrev S16x128x128x128 : Shape := ⟨4, ![16, 128, 128, 128]⟩
abbrev S2x8x128 : Shape := ⟨3, ![2, 8, 128]⟩
abbrev S1x128x128x128 : Shape := ⟨4, ![1, 128, 128, 128]⟩
abbrev S1x8x128 : Shape := ⟨3, ![1, 8, 128]⟩
abbrev S8x128 : Shape := ⟨2, ![8, 128]⟩
abbrev S126x126 : Shape := ⟨2, ![126, 126]⟩
abbrev S1x11x128x128 : Shape := ⟨4, ![1, 11, 128, 128]⟩
abbrev S11x128x128 : Shape := ⟨3, ![11, 128, 128]⟩
abbrev S9x126x126 : Shape := ⟨3, ![9, 126, 126]⟩
abbrev S1x9x126x126 : Shape := ⟨4, ![1, 9, 126, 126]⟩
abbrev S126 : Shape := ⟨1, ![126]⟩
abbrev S126x1 : Shape := ⟨2, ![126, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 16
  | .vmem => 6
  | .smem => 0
  | _ => 0

abbrev bufTy : (tb : Table) → Fin (tcTables nBuf tb) → BufTy
  | .hbm, ⟨0, _⟩ => ⟨S16x1x128x128x128, .f32⟩
  | .hbm, ⟨1, _⟩ => ⟨S16x1x128x128x128, .f32⟩
  | .hbm, ⟨2, _⟩ => ⟨S16x128x128x128, .f32⟩
  | .hbm, ⟨3, _⟩ => ⟨S16x128x128x128, .f32⟩
  | .hbm, ⟨4, _⟩ => ⟨S2x8x128, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x128x128x128, .f32⟩
  | .local _ .vmem, ⟨1, _⟩ => ⟨S1x128x128x128, .f32⟩
  | .local _ .vmem, ⟨2, _⟩ => ⟨S1x128x128x128, .f32⟩
  | .local _ .vmem, ⟨3, _⟩ => ⟨S1x128x128x128, .f32⟩
  | .local _ .vmem, ⟨4, _⟩ => ⟨S1x8x128, .f32⟩
  | .local _ .vmem, ⟨5, _⟩ => ⟨S1x8x128, .f32⟩
  | _, _ => ⟨S16x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x1x128x128x128_S16x128x128x128 : S16x1x128x128x128.ShapeCasts S16x128x128x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x128x128x128_S1x11x128x128_0_0_0_0 : ∀ a, (![0, 0, 0, 0] : Fin 4 → Nat) a + S1x11x128x128.size a ≤ S1x128x128x128.size a
  h_S1x11x128x128 : 0 < S1x11x128x128.numel
  shapeCasts_S1x11x128x128_S11x128x128 : S1x11x128x128.ShapeCasts S11x128x128
  slices_S11x128x128_o1_1_1_S9x126x126 : S11x128x128.Slices ![1, 1, 1] S9x126x126
  slices_S11x128x128_o2_1_1_S9x126x126 : S11x128x128.Slices ![2, 1, 1] S9x126x126
  slices_S11x128x128_o0_1_1_S9x126x126 : S11x128x128.Slices ![0, 1, 1] S9x126x126
  slices_S11x128x128_o1_2_1_S9x126x126 : S11x128x128.Slices ![1, 2, 1] S9x126x126
  slices_S11x128x128_o1_0_1_S9x126x126 : S11x128x128.Slices ![1, 0, 1] S9x126x126
  slices_S11x128x128_o1_1_2_S9x126x126 : S11x128x128.Slices ![1, 1, 2] S9x126x126
  slices_S11x128x128_o1_1_0_S9x126x126 : S11x128x128.Slices ![1, 1, 0] S9x126x126
  inb_S1x128x128x128_S1x9x126x126_0_1_1_1 : ∀ a, (![0, 1, 1, 1] : Fin 4 → Nat) a + S1x9x126x126.size a ≤ S1x128x128x128.size a
  h_S1x9x126x126 : 0 < S1x9x126x126.numel
  shapeCasts_S1x9x126x126_S9x126x126 : S1x9x126x126.ShapeCasts S9x126x126
  reduces_S9x126x126_S126x126 : S9x126x126.Reduces [0] S126x126
  inb_S1x128x128x128_S1x11x128x128_0_9_0_0 : ∀ a, (![0, 9, 0, 0] : Fin 4 → Nat) a + S1x11x128x128.size a ≤ S1x128x128x128.size a
  inb_S1x128x128x128_S1x9x126x126_0_10_1_1 : ∀ a, (![0, 10, 1, 1] : Fin 4 → Nat) a + S1x9x126x126.size a ≤ S1x128x128x128.size a
  inb_S1x128x128x128_S1x11x128x128_0_18_0_0 : ∀ a, (![0, 18, 0, 0] : Fin 4 → Nat) a + S1x11x128x128.size a ≤ S1x128x128x128.size a
  inb_S1x128x128x128_S1x9x126x126_0_19_1_1 : ∀ a, (![0, 19, 1, 1] : Fin 4 → Nat) a + S1x9x126x126.size a ≤ S1x128x128x128.size a
  inb_S1x128x128x128_S1x11x128x128_0_27_0_0 : ∀ a, (![0, 27, 0, 0] : Fin 4 → Nat) a + S1x11x128x128.size a ≤ S1x128x128x128.size a
  inb_S1x128x128x128_S1x9x126x126_0_28_1_1 : ∀ a, (![0, 28, 1, 1] : Fin 4 → Nat) a + S1x9x126x126.size a ≤ S1x128x128x128.size a
  inb_S1x128x128x128_S1x11x128x128_0_36_0_0 : ∀ a, (![0, 36, 0, 0] : Fin 4 → Nat) a + S1x11x128x128.size a ≤ S1x128x128x128.size a
  inb_S1x128x128x128_S1x9x126x126_0_37_1_1 : ∀ a, (![0, 37, 1, 1] : Fin 4 → Nat) a + S1x9x126x126.size a ≤ S1x128x128x128.size a
  inb_S1x128x128x128_S1x11x128x128_0_45_0_0 : ∀ a, (![0, 45, 0, 0] : Fin 4 → Nat) a + S1x11x128x128.size a ≤ S1x128x128x128.size a
  inb_S1x128x128x128_S1x9x126x126_0_46_1_1 : ∀ a, (![0, 46, 1, 1] : Fin 4 → Nat) a + S1x9x126x126.size a ≤ S1x128x128x128.size a
  inb_S1x128x128x128_S1x11x128x128_0_54_0_0 : ∀ a, (![0, 54, 0, 0] : Fin 4 → Nat) a + S1x11x128x128.size a ≤ S1x128x128x128.size a
  inb_S1x128x128x128_S1x9x126x126_0_55_1_1 : ∀ a, (![0, 55, 1, 1] : Fin 4 → Nat) a + S1x9x126x126.size a ≤ S1x128x128x128.size a
  inb_S1x128x128x128_S1x11x128x128_0_63_0_0 : ∀ a, (![0, 63, 0, 0] : Fin 4 → Nat) a + S1x11x128x128.size a ≤ S1x128x128x128.size a
  inb_S1x128x128x128_S1x9x126x126_0_64_1_1 : ∀ a, (![0, 64, 1, 1] : Fin 4 → Nat) a + S1x9x126x126.size a ≤ S1x128x128x128.size a
  inb_S1x128x128x128_S1x11x128x128_0_72_0_0 : ∀ a, (![0, 72, 0, 0] : Fin 4 → Nat) a + S1x11x128x128.size a ≤ S1x128x128x128.size a
  inb_S1x128x128x128_S1x9x126x126_0_73_1_1 : ∀ a, (![0, 73, 1, 1] : Fin 4 → Nat) a + S1x9x126x126.size a ≤ S1x128x128x128.size a
  inb_S1x128x128x128_S1x11x128x128_0_81_0_0 : ∀ a, (![0, 81, 0, 0] : Fin 4 → Nat) a + S1x11x128x128.size a ≤ S1x128x128x128.size a
  inb_S1x128x128x128_S1x9x126x126_0_82_1_1 : ∀ a, (![0, 82, 1, 1] : Fin 4 → Nat) a + S1x9x126x126.size a ≤ S1x128x128x128.size a
  inb_S1x128x128x128_S1x11x128x128_0_90_0_0 : ∀ a, (![0, 90, 0, 0] : Fin 4 → Nat) a + S1x11x128x128.size a ≤ S1x128x128x128.size a
  inb_S1x128x128x128_S1x9x126x126_0_91_1_1 : ∀ a, (![0, 91, 1, 1] : Fin 4 → Nat) a + S1x9x126x126.size a ≤ S1x128x128x128.size a
  inb_S1x128x128x128_S1x11x128x128_0_99_0_0 : ∀ a, (![0, 99, 0, 0] : Fin 4 → Nat) a + S1x11x128x128.size a ≤ S1x128x128x128.size a
  inb_S1x128x128x128_S1x9x126x126_0_100_1_1 : ∀ a, (![0, 100, 1, 1] : Fin 4 → Nat) a + S1x9x126x126.size a ≤ S1x128x128x128.size a
  inb_S1x128x128x128_S1x11x128x128_0_108_0_0 : ∀ a, (![0, 108, 0, 0] : Fin 4 → Nat) a + S1x11x128x128.size a ≤ S1x128x128x128.size a
  inb_S1x128x128x128_S1x9x126x126_0_109_1_1 : ∀ a, (![0, 109, 1, 1] : Fin 4 → Nat) a + S1x9x126x126.size a ≤ S1x128x128x128.size a
  inb_S1x128x128x128_S1x11x128x128_0_117_0_0 : ∀ a, (![0, 117, 0, 0] : Fin 4 → Nat) a + S1x11x128x128.size a ≤ S1x128x128x128.size a
  inb_S1x128x128x128_S1x9x126x126_0_118_1_1 : ∀ a, (![0, 118, 1, 1] : Fin 4 → Nat) a + S1x9x126x126.size a ≤ S1x128x128x128.size a
  reduces_S126x126_S126 : S126x126.Reduces [1] S126
  shapeCasts_S126_S126x1 : S126.ShapeCasts S126x1
  reduces_S126x1_S1 : S126x1.Reduces [0] S1
  shapeCasts_S1_S1x1 : S1.ShapeCasts S1x1
  shapeCasts_S1x1_S1x1 : S1x1.ShapeCasts S1x1
  broadcasts_S1x1_S8x128 : S1x1.Broadcasts S8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S16x128x128x128.size a
  hwx0_0 : ∀ i : grid0.Coords, EltTy.bits .f32 = 32 ∨ (Rect.block (s := S16x128x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x128.size a ≤ S16x128x128x128.size a
  hwx0_1 : ∀ i : grid0.Coords, EltTy.bits .f32 = 32 ∨ (Rect.block (s := S16x128x128x128) S1x128x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1x128x128x128 : Shape := ⟨5, ![16, 1, 128, 128, 128]⟩
abbrev S16x128x128x128 : Shape := ⟨4, ![16, 128, 128, 128]⟩
abbrev S_ : Shape := ⟨0, ![]⟩
abbrev S16x126x126x126 : Shape := ⟨4, ![16, 126, 126, 126]⟩
abbrev S1 : Shape := ⟨1, ![1]⟩
abbrev S3 : Shape := ⟨1, ![3]⟩
abbrev S16x1x126x126 : Shape := ⟨4, ![16, 1, 126, 126]⟩
abbrev S16x126x126 : Shape := ⟨3, ![16, 126, 126]⟩
abbrev S16x126x1x126 : Shape := ⟨4, ![16, 126, 1, 126]⟩
abbrev S16x126x126x1 : Shape := ⟨4, ![16, 126, 126, 1]⟩
abbrev S16x1x1x1 : Shape := ⟨4, ![16, 1, 1, 1]⟩
abbrev S16 : Shape := ⟨1, ![16]⟩
abbrev S16x1x126x126x126 : Shape := ⟨5, ![16, 1, 126, 126, 126]⟩

abbrev nBuf : Space → Nat
  | .hbm => 1054
  | .vmem => 0
  | .smem => 0
  | _ => 0

abbrev hbmTy0_0 (i : Nat) : BufTy := match i % 128 with
  | 0 => ⟨S16x1x128x128x128, .f32⟩
  | 1 => ⟨S16x1x128x128x128, .f32⟩
  | 2 => ⟨S16x128x128x128, .f32⟩
  | 3 => ⟨S_, .f32⟩
  | 4 => ⟨S16x128x128x128, .f32⟩
  | 5 => ⟨S16x128x128x128, .f32⟩
  | 6 => ⟨S_, .f32⟩
  | 7 => ⟨S16x128x128x128, .f32⟩
  | 8 => ⟨S16x126x126x126, .f32⟩
  | 9 => ⟨S16x126x126x126, .f32⟩
  | 10 => ⟨S16x126x126x126, .f32⟩
  | 11 => ⟨S16x126x126x126, .f32⟩
  | 12 => ⟨S_, .f32⟩
  | 13 => ⟨S16x126x126x126, .f32⟩
  | 14 => ⟨S16x126x126x126, .f32⟩
  | 15 => ⟨S16x126x126x126, .f32⟩
  | 16 => ⟨S_, .f32⟩
  | 17 => ⟨S16x126x126x126, .f32⟩
  | 18 => ⟨S16x126x126x126, .f32⟩
  | 19 => ⟨S16x126x126x126, .f32⟩
  | 20 => ⟨S16x126x126x126, .f32⟩
  | 21 => ⟨S16x126x126x126, .f32⟩
  | 22 => ⟨S_, .f32⟩
  | 23 => ⟨S16x126x126x126, .f32⟩
  | 24 => ⟨S16x126x126x126, .f32⟩
  | 25 => ⟨S16x126x126x126, .f32⟩
  | 26 => ⟨S_, .f32⟩
  | 27 => ⟨S16x126x126x126, .f32⟩
  | 28 => ⟨S16x126x126x126, .f32⟩
  | 29 => ⟨S16x126x126x126, .f32⟩
  | 30 => ⟨S16x126x126x126, .f32⟩
  | 31 => ⟨S16x126x126x126, .f32⟩
  | 32 => ⟨S16x126x126x126, .f32⟩
  | 33 => ⟨S_, .f32⟩
  | 34 => ⟨S16x126x126x126, .f32⟩
  | 35 => ⟨S16x126x126x126, .f32⟩
  | 36 => ⟨S16x126x126x126, .f32⟩
  | 37 => ⟨S_, .f32⟩
  | 38 => ⟨S16x126x126x126, .f32⟩
  | 39 => ⟨S16x126x126x126, .f32⟩
  | 40 => ⟨S16x126x126x126, .f32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S3, .i32⟩
  | 48 => ⟨S16x128x128x128, .f32⟩
  | 49 => ⟨S16x1x126x126, .f32⟩
  | 50 => ⟨S16x126x126, .f32⟩
  | 51 => ⟨S16x1x126x126, .f32⟩
  | 52 => ⟨S16x126x126, .f32⟩
  | 53 => ⟨S16x1x126x126, .f32⟩
  | 54 => ⟨S16x126x126, .f32⟩
  | 55 => ⟨S16x1x126x126, .f32⟩
  | 56 => ⟨S16x126x126, .f32⟩
  | 57 => ⟨S_, .f32⟩
  | 58 => ⟨S16x126x126, .f32⟩
  | 59 => ⟨S16x126x126, .f32⟩
  | 60 => ⟨S_, .f32⟩
  | 61 => ⟨S16x126x126, .f32⟩
  | 62 => ⟨S16x126x126, .f32⟩
  | 63 => ⟨S16x126x126, .f32⟩
  | 64 => ⟨S_, .f32⟩
  | 65 => ⟨S16x126x126, .f32⟩
  | 66 => ⟨S16x126x126, .f32⟩
  | 67 => ⟨S16x126x126, .f32⟩
  | 68 => ⟨S16x126x126, .f32⟩
  | 69 => ⟨S_, .f32⟩
  | 70 => ⟨S16x126x126, .f32⟩
  | 71 => ⟨S16x126x126, .f32⟩
  | 72 => ⟨S16x1x126x126, .f32⟩
  | 73 => ⟨S16x126x126, .f32⟩
  | 74 => ⟨S16x1x126x126, .f32⟩
  | 75 => ⟨S16x126x126, .f32⟩
  | 76 => ⟨S_, .f32⟩
  | 77 => ⟨S16x126x126, .f32⟩
  | 78 => ⟨S16x126x126, .f32⟩
  | 79 => ⟨S16x126x126, .f32⟩
  | 80 => ⟨S16x1x126x126, .f32⟩
  | 81 => ⟨S16x126x126, .f32⟩
  | 82 => ⟨S16x126x126, .f32⟩
  | 83 => ⟨S_, .f32⟩
  | 84 => ⟨S16x126x126, .f32⟩
  | 85 => ⟨S16x126x126, .f32⟩
  | 86 => ⟨S16x126x126, .f32⟩
  | 87 => ⟨S16x1x126x126, .f32⟩
  | 88 => ⟨S16x126x126, .f32⟩
  | 89 => ⟨S16x1x126x126, .f32⟩
  | 90 => ⟨S16x126x126, .f32⟩
  | 91 => ⟨S_, .f32⟩
  | 92 => ⟨S16x126x126, .f32⟩
  | 93 => ⟨S16x126x126, .f32⟩
  | 94 => ⟨S16x126x126, .f32⟩
  | 95 => ⟨S16x1x126x126, .f32⟩
  | 96 => ⟨S16x126x126, .f32⟩
  | 97 => ⟨S16x126x126, .f32⟩
  | 98 => ⟨S_, .f32⟩
  | 99 => ⟨S16x126x126, .f32⟩
  | 100 => ⟨S16x126x126, .f32⟩
  | 101 => ⟨S16x126x126, .f32⟩
  | 102 => ⟨S_, .i32⟩
  | 103 => ⟨S1, .i32⟩
  | 104 => ⟨S_, .i32⟩
  | 105 => ⟨S1, .i32⟩
  | 106 => ⟨S_, .i32⟩
  | 107 => ⟨S1, .i32⟩
  | 108 => ⟨S3, .i32⟩
  | 109 => ⟨S16x128x128x128, .f32⟩
  | 110 => ⟨S16x1x126x126, .f32⟩
  | 111 => ⟨S16x126x126, .f32⟩
  | 112 => ⟨S16x1x126x126, .f32⟩
  | 113 => ⟨S16x126x126, .f32⟩
  | 114 => ⟨S16x1x126x126, .f32⟩
  | 115 => ⟨S16x126x126, .f32⟩
  | 116 => ⟨S16x1x126x126, .f32⟩
  | 117 => ⟨S16x126x126, .f32⟩
  | 118 => ⟨S_, .f32⟩
  | 119 => ⟨S16x126x126, .f32⟩
  | 120 => ⟨S16x126x126, .f32⟩
  | 121 => ⟨S_, .f32⟩
  | 122 => ⟨S16x126x126, .f32⟩
  | 123 => ⟨S16x126x126, .f32⟩
  | 124 => ⟨S16x126x126, .f32⟩
  | 125 => ⟨S_, .f32⟩
  | 126 => ⟨S16x126x126, .f32⟩
  | 127 => ⟨S16x126x126, .f32⟩
  | _ => ⟨S16x1x128x128x128, .f32⟩

abbrev hbmTy0_1 (i : Nat) : BufTy := match i % 128 with
  | 0 => ⟨S16x126x126, .f32⟩
  | 1 => ⟨S16x126x126, .f32⟩
  | 2 => ⟨S_, .f32⟩
  | 3 => ⟨S16x126x126, .f32⟩
  | 4 => ⟨S16x126x126, .f32⟩
  | 5 => ⟨S16x1x126x126, .f32⟩
  | 6 => ⟨S16x126x126, .f32⟩
  | 7 => ⟨S16x1x126x126, .f32⟩
  | 8 => ⟨S16x126x126, .f32⟩
  | 9 => ⟨S_, .f32⟩
  | 10 => ⟨S16x126x126, .f32⟩
  | 11 => ⟨S16x126x126, .f32⟩
  | 12 => ⟨S16x126x126, .f32⟩
  | 13 => ⟨S16x1x126x126, .f32⟩
  | 14 => ⟨S16x126x126, .f32⟩
  | 15 => ⟨S16x126x126, .f32⟩
  | 16 => ⟨S_, .f32⟩
  | 17 => ⟨S16x126x126, .f32⟩
  | 18 => ⟨S16x126x126, .f32⟩
  | 19 => ⟨S16x126x126, .f32⟩
  | 20 => ⟨S16x1x126x126, .f32⟩
  | 21 => ⟨S16x126x126, .f32⟩
  | 22 => ⟨S16x1x126x126, .f32⟩
  | 23 => ⟨S16x126x126, .f32⟩
  | 24 => ⟨S_, .f32⟩
  | 25 => ⟨S16x126x126, .f32⟩
  | 26 => ⟨S16x126x126, .f32⟩
  | 27 => ⟨S16x126x126, .f32⟩
  | 28 => ⟨S16x1x126x126, .f32⟩
  | 29 => ⟨S16x126x126, .f32⟩
  | 30 => ⟨S16x126x126, .f32⟩
  | 31 => ⟨S_, .f32⟩
  | 32 => ⟨S16x126x126, .f32⟩
  | 33 => ⟨S16x126x126, .f32⟩
  | 34 => ⟨S16x126x126, .f32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S3, .i32⟩
  | 42 => ⟨S16x128x128x128, .f32⟩
  | 43 => ⟨S16x126x1x126, .f32⟩
  | 44 => ⟨S16x126x126, .f32⟩
  | 45 => ⟨S16x126x1x126, .f32⟩
  | 46 => ⟨S16x126x126, .f32⟩
  | 47 => ⟨S_, .f32⟩
  | 48 => ⟨S16x126x126, .f32⟩
  | 49 => ⟨S16x126x126, .f32⟩
  | 50 => ⟨S16x126x126, .f32⟩
  | 51 => ⟨S16x126x1x126, .f32⟩
  | 52 => ⟨S16x126x126, .f32⟩
  | 53 => ⟨S16x126x126, .f32⟩
  | 54 => ⟨S_, .f32⟩
  | 55 => ⟨S16x126x126, .f32⟩
  | 56 => ⟨S16x126x126, .f32⟩
  | 57 => ⟨S16x126x1x126, .f32⟩
  | 58 => ⟨S16x126x126, .f32⟩
  | 59 => ⟨S16x126x1x126, .f32⟩
  | 60 => ⟨S16x126x126, .f32⟩
  | 61 => ⟨S16x126x1x126, .f32⟩
  | 62 => ⟨S16x126x126, .f32⟩
  | 63 => ⟨S16x126x1x126, .f32⟩
  | 64 => ⟨S16x126x126, .f32⟩
  | 65 => ⟨S_, .f32⟩
  | 66 => ⟨S16x126x126, .f32⟩
  | 67 => ⟨S16x126x126, .f32⟩
  | 68 => ⟨S_, .f32⟩
  | 69 => ⟨S16x126x126, .f32⟩
  | 70 => ⟨S16x126x126, .f32⟩
  | 71 => ⟨S16x126x126, .f32⟩
  | 72 => ⟨S_, .f32⟩
  | 73 => ⟨S16x126x126, .f32⟩
  | 74 => ⟨S16x126x126, .f32⟩
  | 75 => ⟨S16x126x126, .f32⟩
  | 76 => ⟨S16x126x126, .f32⟩
  | 77 => ⟨S_, .f32⟩
  | 78 => ⟨S16x126x126, .f32⟩
  | 79 => ⟨S16x126x126, .f32⟩
  | 80 => ⟨S16x126x126, .f32⟩
  | 81 => ⟨S16x126x1x126, .f32⟩
  | 82 => ⟨S16x126x126, .f32⟩
  | 83 => ⟨S16x126x1x126, .f32⟩
  | 84 => ⟨S16x126x126, .f32⟩
  | 85 => ⟨S_, .f32⟩
  | 86 => ⟨S16x126x126, .f32⟩
  | 87 => ⟨S16x126x126, .f32⟩
  | 88 => ⟨S16x126x126, .f32⟩
  | 89 => ⟨S16x126x1x126, .f32⟩
  | 90 => ⟨S16x126x126, .f32⟩
  | 91 => ⟨S16x126x126, .f32⟩
  | 92 => ⟨S_, .f32⟩
  | 93 => ⟨S16x126x126, .f32⟩
  | 94 => ⟨S16x126x126, .f32⟩
  | 95 => ⟨S16x126x126, .f32⟩
  | 96 => ⟨S_, .i32⟩
  | 97 => ⟨S1, .i32⟩
  | 98 => ⟨S_, .i32⟩
  | 99 => ⟨S1, .i32⟩
  | 100 => ⟨S_, .i32⟩
  | 101 => ⟨S1, .i32⟩
  | 102 => ⟨S3, .i32⟩
  | 103 => ⟨S16x128x128x128, .f32⟩
  | 104 => ⟨S16x126x1x126, .f32⟩
  | 105 => ⟨S16x126x126, .f32⟩
  | 106 => ⟨S16x126x1x126, .f32⟩
  | 107 => ⟨S16x126x126, .f32⟩
  | 108 => ⟨S_, .f32⟩
  | 109 => ⟨S16x126x126, .f32⟩
  | 110 => ⟨S16x126x126, .f32⟩
  | 111 => ⟨S16x126x126, .f32⟩
  | 112 => ⟨S16x126x1x126, .f32⟩
  | 113 => ⟨S16x126x126, .f32⟩
  | 114 => ⟨S16x126x126, .f32⟩
  | 115 => ⟨S_, .f32⟩
  | 116 => ⟨S16x126x126, .f32⟩
  | 117 => ⟨S16x126x126, .f32⟩
  | 118 => ⟨S16x126x1x126, .f32⟩
  | 119 => ⟨S16x126x126, .f32⟩
  | 120 => ⟨S16x126x1x126, .f32⟩
  | 121 => ⟨S16x126x126, .f32⟩
  | 122 => ⟨S16x126x1x126, .f32⟩
  | 123 => ⟨S16x126x126, .f32⟩
  | 124 => ⟨S16x126x1x126, .f32⟩
  | 125 => ⟨S16x126x126, .f32⟩
  | 126 => ⟨S_, .f32⟩
  | 127 => ⟨S16x126x126, .f32⟩
  | _ => ⟨S16x1x128x128x128, .f32⟩

abbrev hbmTy0_2 (i : Nat) : BufTy := match i % 128 with
  | 0 => ⟨S16x126x126, .f32⟩
  | 1 => ⟨S_, .f32⟩
  | 2 => ⟨S16x126x126, .f32⟩
  | 3 => ⟨S16x126x126, .f32⟩
  | 4 => ⟨S16x126x126, .f32⟩
  | 5 => ⟨S_, .f32⟩
  | 6 => ⟨S16x126x126, .f32⟩
  | 7 => ⟨S16x126x126, .f32⟩
  | 8 => ⟨S16x126x126, .f32⟩
  | 9 => ⟨S16x126x126, .f32⟩
  | 10 => ⟨S_, .f32⟩
  | 11 => ⟨S16x126x126, .f32⟩
  | 12 => ⟨S16x126x126, .f32⟩
  | 13 => ⟨S16x126x126, .f32⟩
  | 14 => ⟨S16x126x1x126, .f32⟩
  | 15 => ⟨S16x126x126, .f32⟩
  | 16 => ⟨S16x126x1x126, .f32⟩
  | 17 => ⟨S16x126x126, .f32⟩
  | 18 => ⟨S_, .f32⟩
  | 19 => ⟨S16x126x126, .f32⟩
  | 20 => ⟨S16x126x126, .f32⟩
  | 21 => ⟨S16x126x126, .f32⟩
  | 22 => ⟨S16x126x1x126, .f32⟩
  | 23 => ⟨S16x126x126, .f32⟩
  | 24 => ⟨S16x126x126, .f32⟩
  | 25 => ⟨S16x126x126, .f32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S3, .i32⟩
  | 33 => ⟨S16x128x128x128, .f32⟩
  | 34 => ⟨S16x126x126x1, .f32⟩
  | 35 => ⟨S16x126x126, .f32⟩
  | 36 => ⟨S16x126x126x1, .f32⟩
  | 37 => ⟨S16x126x126, .f32⟩
  | 38 => ⟨S_, .f32⟩
  | 39 => ⟨S16x126x126, .f32⟩
  | 40 => ⟨S16x126x126, .f32⟩
  | 41 => ⟨S16x126x126, .f32⟩
  | 42 => ⟨S16x126x126x1, .f32⟩
  | 43 => ⟨S16x126x126, .f32⟩
  | 44 => ⟨S16x126x126, .f32⟩
  | 45 => ⟨S_, .f32⟩
  | 46 => ⟨S16x126x126, .f32⟩
  | 47 => ⟨S16x126x126, .f32⟩
  | 48 => ⟨S16x126x126x1, .f32⟩
  | 49 => ⟨S16x126x126, .f32⟩
  | 50 => ⟨S16x126x126x1, .f32⟩
  | 51 => ⟨S16x126x126, .f32⟩
  | 52 => ⟨S_, .f32⟩
  | 53 => ⟨S16x126x126, .f32⟩
  | 54 => ⟨S16x126x126, .f32⟩
  | 55 => ⟨S16x126x126, .f32⟩
  | 56 => ⟨S16x126x126x1, .f32⟩
  | 57 => ⟨S16x126x126, .f32⟩
  | 58 => ⟨S16x126x126, .f32⟩
  | 59 => ⟨S_, .f32⟩
  | 60 => ⟨S16x126x126, .f32⟩
  | 61 => ⟨S16x126x126, .f32⟩
  | 62 => ⟨S16x126x126, .f32⟩
  | 63 => ⟨S16x126x126x1, .f32⟩
  | 64 => ⟨S16x126x126, .f32⟩
  | 65 => ⟨S16x126x126x1, .f32⟩
  | 66 => ⟨S16x126x126, .f32⟩
  | 67 => ⟨S16x126x126x1, .f32⟩
  | 68 => ⟨S16x126x126, .f32⟩
  | 69 => ⟨S16x126x126x1, .f32⟩
  | 70 => ⟨S16x126x126, .f32⟩
  | 71 => ⟨S_, .f32⟩
  | 72 => ⟨S16x126x126, .f32⟩
  | 73 => ⟨S16x126x126, .f32⟩
  | 74 => ⟨S_, .f32⟩
  | 75 => ⟨S16x126x126, .f32⟩
  | 76 => ⟨S16x126x126, .f32⟩
  | 77 => ⟨S16x126x126, .f32⟩
  | 78 => ⟨S_, .f32⟩
  | 79 => ⟨S16x126x126, .f32⟩
  | 80 => ⟨S16x126x126, .f32⟩
  | 81 => ⟨S16x126x126, .f32⟩
  | 82 => ⟨S16x126x126, .f32⟩
  | 83 => ⟨S_, .f32⟩
  | 84 => ⟨S16x126x126, .f32⟩
  | 85 => ⟨S16x126x126, .f32⟩
  | 86 => ⟨S16x126x126, .f32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S3, .i32⟩
  | 94 => ⟨S16x128x128x128, .f32⟩
  | 95 => ⟨S16x126x126x1, .f32⟩
  | 96 => ⟨S16x126x126, .f32⟩
  | 97 => ⟨S16x126x126x1, .f32⟩
  | 98 => ⟨S16x126x126, .f32⟩
  | 99 => ⟨S_, .f32⟩
  | 100 => ⟨S16x126x126, .f32⟩
  | 101 => ⟨S16x126x126, .f32⟩
  | 102 => ⟨S16x126x126, .f32⟩
  | 103 => ⟨S16x126x126x1, .f32⟩
  | 104 => ⟨S16x126x126, .f32⟩
  | 105 => ⟨S16x126x126, .f32⟩
  | 106 => ⟨S_, .f32⟩
  | 107 => ⟨S16x126x126, .f32⟩
  | 108 => ⟨S16x126x126, .f32⟩
  | 109 => ⟨S16x126x126x1, .f32⟩
  | 110 => ⟨S16x126x126, .f32⟩
  | 111 => ⟨S16x126x126x1, .f32⟩
  | 112 => ⟨S16x126x126, .f32⟩
  | 113 => ⟨S_, .f32⟩
  | 114 => ⟨S16x126x126, .f32⟩
  | 115 => ⟨S16x126x126, .f32⟩
  | 116 => ⟨S16x126x126, .f32⟩
  | 117 => ⟨S16x126x126x1, .f32⟩
  | 118 => ⟨S16x126x126, .f32⟩
  | 119 => ⟨S16x126x126, .f32⟩
  | 120 => ⟨S_, .f32⟩
  | 121 => ⟨S16x126x126, .f32⟩
  | 122 => ⟨S16x126x126, .f32⟩
  | 123 => ⟨S16x126x126, .f32⟩
  | 124 => ⟨S16x126x126x1, .f32⟩
  | 125 => ⟨S16x126x126, .f32⟩
  | 126 => ⟨S_, .f32⟩
  | 127 => ⟨S16x126x126, .f32⟩
  | _ => ⟨S16x1x128x128x128, .f32⟩

abbrev hbmTy0_3 (i : Nat) : BufTy := match i % 128 with
  | 0 => ⟨S16x126x126, .f32⟩
  | 1 => ⟨S16x126x126x1, .f32⟩
  | 2 => ⟨S16x126x126, .f32⟩
  | 3 => ⟨S_, .f32⟩
  | 4 => ⟨S16x126x126, .f32⟩
  | 5 => ⟨S16x126x126, .f32⟩
  | 6 => ⟨S16x126x126, .f32⟩
  | 7 => ⟨S16x126x126x1, .f32⟩
  | 8 => ⟨S16x126x126, .f32⟩
  | 9 => ⟨S_, .f32⟩
  | 10 => ⟨S16x126x126, .f32⟩
  | 11 => ⟨S16x126x126, .f32⟩
  | 12 => ⟨S16x126x126, .f32⟩
  | 13 => ⟨S16x126x126x1, .f32⟩
  | 14 => ⟨S16x126x126, .f32⟩
  | 15 => ⟨S16x126x126, .f32⟩
  | 16 => ⟨S16x126x126, .f32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S3, .i32⟩
  | 24 => ⟨S16x128x128x128, .f32⟩
  | 25 => ⟨S16x1x1x1, .f32⟩
  | 26 => ⟨S16, .f32⟩
  | 27 => ⟨S16x1x1x1, .f32⟩
  | 28 => ⟨S16, .f32⟩
  | 29 => ⟨S16x1x1x1, .f32⟩
  | 30 => ⟨S16, .f32⟩
  | 31 => ⟨S16x1x1x1, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S16, .f32⟩
  | 40 => ⟨S_, .f32⟩
  | 41 => ⟨S16, .f32⟩
  | 42 => ⟨S16, .f32⟩
  | 43 => ⟨S16, .f32⟩
  | 44 => ⟨S16, .f32⟩
  | 45 => ⟨S_, .f32⟩
  | 46 => ⟨S16, .f32⟩
  | 47 => ⟨S16, .f32⟩
  | 48 => ⟨S16x1x1x1, .f32⟩
  | 49 => ⟨S16, .f32⟩
  | 50 => ⟨S16x1x1x1, .f32⟩
  | 51 => ⟨S16, .f32⟩
  | 52 => ⟨S16x1x1x1, .f32⟩
  | 53 => ⟨S16, .f32⟩
  | 54 => ⟨S16x1x1x1, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S16, .f32⟩
  | 63 => ⟨S_, .f32⟩
  | 64 => ⟨S16, .f32⟩
  | 65 => ⟨S16, .f32⟩
  | 66 => ⟨S16, .f32⟩
  | 67 => ⟨S16, .f32⟩
  | 68 => ⟨S_, .f32⟩
  | 69 => ⟨S16, .f32⟩
  | 70 => ⟨S16, .f32⟩
  | 71 => ⟨S16, .f32⟩
  | 72 => ⟨S16x1x1x1, .f32⟩
  | 73 => ⟨S16, .f32⟩
  | 74 => ⟨S16x1x1x1, .f32⟩
  | 75 => ⟨S16, .f32⟩
  | 76 => ⟨S16x1x1x1, .f32⟩
  | 77 => ⟨S16, .f32⟩
  | 78 => ⟨S16x1x1x1, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S16, .f32⟩
  | 87 => ⟨S_, .f32⟩
  | 88 => ⟨S16, .f32⟩
  | 89 => ⟨S16, .f32⟩
  | 90 => ⟨S16, .f32⟩
  | 91 => ⟨S16, .f32⟩
  | 92 => ⟨S_, .f32⟩
  | 93 => ⟨S16, .f32⟩
  | 94 => ⟨S16, .f32⟩
  | 95 => ⟨S16, .f32⟩
  | 96 => ⟨S_, .i32⟩
  | 97 => ⟨S1, .i32⟩
  | 98 => ⟨S_, .i32⟩
  | 99 => ⟨S1, .i32⟩
  | 100 => ⟨S_, .i32⟩
  | 101 => ⟨S1, .i32⟩
  | 102 => ⟨S3, .i32⟩
  | 103 => ⟨S16x128x128x128, .f32⟩
  | 104 => ⟨S16x1x1x1, .f32⟩
  | 105 => ⟨S16, .f32⟩
  | 106 => ⟨S16x1x1x1, .f32⟩
  | 107 => ⟨S16, .f32⟩
  | 108 => ⟨S16x1x1x1, .f32⟩
  | 109 => ⟨S16, .f32⟩
  | 110 => ⟨S16x1x1x1, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S16, .f32⟩
  | 119 => ⟨S_, .f32⟩
  | 120 => ⟨S16, .f32⟩
  | 121 => ⟨S16, .f32⟩
  | 122 => ⟨S16, .f32⟩
  | 123 => ⟨S16, .f32⟩
  | 124 => ⟨S_, .f32⟩
  | 125 => ⟨S16, .f32⟩
  | 126 => ⟨S16, .f32⟩
  | 127 => ⟨S16x1x1x1, .f32⟩
  | _ => ⟨S16x1x128x128x128, .f32⟩

abbrev hbmTy0_4 (i : Nat) : BufTy := match i % 128 with
  | 0 => ⟨S16, .f32⟩
  | 1 => ⟨S16x1x1x1, .f32⟩
  | 2 => ⟨S16, .f32⟩
  | 3 => ⟨S16x1x1x1, .f32⟩
  | 4 => ⟨S16, .f32⟩
  | 5 => ⟨S16x1x1x1, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S16x1x1x1, .f32⟩
  | 24 => ⟨S16, .f32⟩
  | 25 => ⟨S16x1x1x1, .f32⟩
  | 26 => ⟨S16, .f32⟩
  | 27 => ⟨S16x1x1x1, .f32⟩
  | 28 => ⟨S16, .f32⟩
  | 29 => ⟨S16x1x1x1, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S16, .f32⟩
  | 38 => ⟨S_, .f32⟩
  | 39 => ⟨S16, .f32⟩
  | 40 => ⟨S16, .f32⟩
  | 41 => ⟨S16, .f32⟩
  | 42 => ⟨S16, .f32⟩
  | 43 => ⟨S_, .f32⟩
  | 44 => ⟨S16, .f32⟩
  | 45 => ⟨S16, .f32⟩
  | 46 => ⟨S16, .f32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S3, .i32⟩
  | 54 => ⟨S16x128x128x128, .f32⟩
  | 55 => ⟨S16x1x1x1, .f32⟩
  | 56 => ⟨S16, .f32⟩
  | 57 => ⟨S16x1x1x1, .f32⟩
  | 58 => ⟨S16, .f32⟩
  | 59 => ⟨S16x1x1x1, .f32⟩
  | 60 => ⟨S16, .f32⟩
  | 61 => ⟨S16x1x1x1, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S16, .f32⟩
  | 70 => ⟨S_, .f32⟩
  | 71 => ⟨S16, .f32⟩
  | 72 => ⟨S16, .f32⟩
  | 73 => ⟨S16, .f32⟩
  | 74 => ⟨S16, .f32⟩
  | 75 => ⟨S_, .f32⟩
  | 76 => ⟨S16, .f32⟩
  | 77 => ⟨S16, .f32⟩
  | 78 => ⟨S16x1x1x1, .f32⟩
  | 79 => ⟨S16, .f32⟩
  | 80 => ⟨S16x1x1x1, .f32⟩
  | 81 => ⟨S16, .f32⟩
  | 82 => ⟨S16x1x1x1, .f32⟩
  | 83 => ⟨S16, .f32⟩
  | 84 => ⟨S16x1x1x1, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16, .f32⟩
  | 93 => ⟨S_, .f32⟩
  | 94 => ⟨S16, .f32⟩
  | 95 => ⟨S16, .f32⟩
  | 96 => ⟨S16, .f32⟩
  | 97 => ⟨S16, .f32⟩
  | 98 => ⟨S_, .f32⟩
  | 99 => ⟨S16, .f32⟩
  | 100 => ⟨S16, .f32⟩
  | 101 => ⟨S16, .f32⟩
  | 102 => ⟨S16x1x1x1, .f32⟩
  | 103 => ⟨S16, .f32⟩
  | 104 => ⟨S16x1x1x1, .f32⟩
  | 105 => ⟨S16, .f32⟩
  | 106 => ⟨S16x1x1x1, .f32⟩
  | 107 => ⟨S16, .f32⟩
  | 108 => ⟨S16x1x1x1, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S16, .f32⟩
  | 117 => ⟨S_, .f32⟩
  | 118 => ⟨S16, .f32⟩
  | 119 => ⟨S16, .f32⟩
  | 120 => ⟨S16, .f32⟩
  | 121 => ⟨S16, .f32⟩
  | 122 => ⟨S_, .f32⟩
  | 123 => ⟨S16, .f32⟩
  | 124 => ⟨S16, .f32⟩
  | 125 => ⟨S16, .f32⟩
  | 126 => ⟨S_, .i32⟩
  | 127 => ⟨S1, .i32⟩
  | _ => ⟨S16x1x128x128x128, .f32⟩

abbrev hbmTy0_5 (i : Nat) : BufTy := match i % 128 with
  | 0 => ⟨S_, .i32⟩
  | 1 => ⟨S1, .i32⟩
  | 2 => ⟨S_, .i32⟩
  | 3 => ⟨S1, .i32⟩
  | 4 => ⟨S3, .i32⟩
  | 5 => ⟨S16x128x128x128, .f32⟩
  | 6 => ⟨S16x1x1x1, .f32⟩
  | 7 => ⟨S16, .f32⟩
  | 8 => ⟨S16x1x1x1, .f32⟩
  | 9 => ⟨S16, .f32⟩
  | 10 => ⟨S16x1x1x1, .f32⟩
  | 11 => ⟨S16, .f32⟩
  | 12 => ⟨S16x1x1x1, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S16, .f32⟩
  | 25 => ⟨S16, .f32⟩
  | 26 => ⟨S_, .f32⟩
  | 27 => ⟨S16, .f32⟩
  | 28 => ⟨S16, .f32⟩
  | 29 => ⟨S16x1x1x1, .f32⟩
  | 30 => ⟨S16, .f32⟩
  | 31 => ⟨S16x1x1x1, .f32⟩
  | 32 => ⟨S16, .f32⟩
  | 33 => ⟨S16x1x1x1, .f32⟩
  | 34 => ⟨S16, .f32⟩
  | 35 => ⟨S16x1x1x1, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S16, .f32⟩
  | 53 => ⟨S16x1x1x1, .f32⟩
  | 54 => ⟨S16, .f32⟩
  | 55 => ⟨S16x1x1x1, .f32⟩
  | 56 => ⟨S16, .f32⟩
  | 57 => ⟨S16x1x1x1, .f32⟩
  | 58 => ⟨S16, .f32⟩
  | 59 => ⟨S16x1x1x1, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S16, .f32⟩
  | 68 => ⟨S_, .f32⟩
  | 69 => ⟨S16, .f32⟩
  | 70 => ⟨S16, .f32⟩
  | 71 => ⟨S16, .f32⟩
  | 72 => ⟨S16, .f32⟩
  | 73 => ⟨S_, .f32⟩
  | 74 => ⟨S16, .f32⟩
  | 75 => ⟨S16, .f32⟩
  | 76 => ⟨S16, .f32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S3, .i32⟩
  | 84 => ⟨S16x128x128x128, .f32⟩
  | 85 => ⟨S16x1x1x1, .f32⟩
  | 86 => ⟨S16, .f32⟩
  | 87 => ⟨S16x1x1x1, .f32⟩
  | 88 => ⟨S16, .f32⟩
  | 89 => ⟨S16x1x1x1, .f32⟩
  | 90 => ⟨S16, .f32⟩
  | 91 => ⟨S16x1x1x1, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S16, .f32⟩
  | 100 => ⟨S_, .f32⟩
  | 101 => ⟨S16, .f32⟩
  | 102 => ⟨S16, .f32⟩
  | 103 => ⟨S16, .f32⟩
  | 104 => ⟨S16, .f32⟩
  | 105 => ⟨S_, .f32⟩
  | 106 => ⟨S16, .f32⟩
  | 107 => ⟨S16, .f32⟩
  | 108 => ⟨S16x1x1x1, .f32⟩
  | 109 => ⟨S16, .f32⟩
  | 110 => ⟨S16x1x1x1, .f32⟩
  | 111 => ⟨S16, .f32⟩
  | 112 => ⟨S16x1x1x1, .f32⟩
  | 113 => ⟨S16, .f32⟩
  | 114 => ⟨S16x1x1x1, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S16, .f32⟩
  | 123 => ⟨S_, .f32⟩
  | 124 => ⟨S16, .f32⟩
  | 125 => ⟨S16, .f32⟩
  | 126 => ⟨S16, .f32⟩
  | 127 => ⟨S16, .f32⟩
  | _ => ⟨S16x1x128x128x128, .f32⟩

abbrev hbmTy0_6 (i : Nat) : BufTy := match i % 128 with
  | 0 => ⟨S_, .f32⟩
  | 1 => ⟨S16, .f32⟩
  | 2 => ⟨S16, .f32⟩
  | 3 => ⟨S16, .f32⟩
  | 4 => ⟨S16x1x1x1, .f32⟩
  | 5 => ⟨S16, .f32⟩
  | 6 => ⟨S16x1x1x1, .f32⟩
  | 7 => ⟨S16, .f32⟩
  | 8 => ⟨S16x1x1x1, .f32⟩
  | 9 => ⟨S16, .f32⟩
  | 10 => ⟨S16x1x1x1, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .i32⟩
  | 29 => ⟨S1, .i32⟩
  | 30 => ⟨S_, .i32⟩
  | 31 => ⟨S1, .i32⟩
  | 32 => ⟨S_, .i32⟩
  | 33 => ⟨S1, .i32⟩
  | 34 => ⟨S3, .i32⟩
  | 35 => ⟨S16x128x128x128, .f32⟩
  | 36 => ⟨S16x1x1x1, .f32⟩
  | 37 => ⟨S16, .f32⟩
  | 38 => ⟨S16x1x1x1, .f32⟩
  | 39 => ⟨S16, .f32⟩
  | 40 => ⟨S16x1x1x1, .f32⟩
  | 41 => ⟨S16, .f32⟩
  | 42 => ⟨S16x1x1x1, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S16, .f32⟩
  | 51 => ⟨S_, .f32⟩
  | 52 => ⟨S16, .f32⟩
  | 53 => ⟨S16, .f32⟩
  | 54 => ⟨S16, .f32⟩
  | 55 => ⟨S16, .f32⟩
  | 56 => ⟨S_, .f32⟩
  | 57 => ⟨S16, .f32⟩
  | 58 => ⟨S16, .f32⟩
  | 59 => ⟨S16x1x1x1, .f32⟩
  | 60 => ⟨S16, .f32⟩
  | 61 => ⟨S16x1x1x1, .f32⟩
  | 62 => ⟨S16, .f32⟩
  | 63 => ⟨S16x1x1x1, .f32⟩
  | 64 => ⟨S16, .f32⟩
  | 65 => ⟨S16x1x1x1, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S16, .f32⟩
  | 74 => ⟨S_, .f32⟩
  | 75 => ⟨S16, .f32⟩
  | 76 => ⟨S16, .f32⟩
  | 77 => ⟨S16, .f32⟩
  | 78 => ⟨S16, .f32⟩
  | 79 => ⟨S_, .f32⟩
  | 80 => ⟨S16, .f32⟩
  | 81 => ⟨S16, .f32⟩
  | 82 => ⟨S16, .f32⟩
  | 83 => ⟨S16x1x1x1, .f32⟩
  | 84 => ⟨S16, .f32⟩
  | 85 => ⟨S16x1x1x1, .f32⟩
  | 86 => ⟨S16, .f32⟩
  | 87 => ⟨S16x1x1x1, .f32⟩
  | 88 => ⟨S16, .f32⟩
  | 89 => ⟨S16x1x1x1, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16, .f32⟩
  | 98 => ⟨S_, .f32⟩
  | 99 => ⟨S16, .f32⟩
  | 100 => ⟨S16, .f32⟩
  | 101 => ⟨S16, .f32⟩
  | 102 => ⟨S16, .f32⟩
  | 103 => ⟨S_, .f32⟩
  | 104 => ⟨S16, .f32⟩
  | 105 => ⟨S16, .f32⟩
  | 106 => ⟨S16, .f32⟩
  | 107 => ⟨S_, .i32⟩
  | 108 => ⟨S1, .i32⟩
  | 109 => ⟨S_, .i32⟩
  | 110 => ⟨S1, .i32⟩
  | 111 => ⟨S_, .i32⟩
  | 112 => ⟨S1, .i32⟩
  | 113 => ⟨S3, .i32⟩
  | 114 => ⟨S16x128x128x128, .f32⟩
  | 115 => ⟨S16x1x1x1, .f32⟩
  | 116 => ⟨S16, .f32⟩
  | 117 => ⟨S16x1x1x1, .f32⟩
  | 118 => ⟨S16, .f32⟩
  | 119 => ⟨S16x1x1x1, .f32⟩
  | 120 => ⟨S16, .f32⟩
  | 121 => ⟨S16x1x1x1, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S16x1x128x128x128, .f32⟩

abbrev hbmTy0_7 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S16, .f32⟩
  | 6 => ⟨S16, .f32⟩
  | 7 => ⟨S_, .f32⟩
  | 8 => ⟨S16, .f32⟩
  | 9 => ⟨S16, .f32⟩
  | 10 => ⟨S16x1x1x1, .f32⟩
  | 11 => ⟨S16, .f32⟩
  | 12 => ⟨S16x1x1x1, .f32⟩
  | 13 => ⟨S16, .f32⟩
  | 14 => ⟨S16x1x1x1, .f32⟩
  | 15 => ⟨S16, .f32⟩
  | 16 => ⟨S16x1x1x1, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16, .f32⟩
  | 25 => ⟨S_, .f32⟩
  | 26 => ⟨S16, .f32⟩
  | 27 => ⟨S16, .f32⟩
  | 28 => ⟨S16, .f32⟩
  | 29 => ⟨S16, .f32⟩
  | 30 => ⟨S_, .f32⟩
  | 31 => ⟨S16, .f32⟩
  | 32 => ⟨S16, .f32⟩
  | 33 => ⟨S16, .f32⟩
  | 34 => ⟨S16x1x1x1, .f32⟩
  | 35 => ⟨S16, .f32⟩
  | 36 => ⟨S16x1x1x1, .f32⟩
  | 37 => ⟨S16, .f32⟩
  | 38 => ⟨S16x1x1x1, .f32⟩
  | 39 => ⟨S16, .f32⟩
  | 40 => ⟨S16x1x1x1, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S16, .f32⟩
  | 58 => ⟨S_, .i32⟩
  | 59 => ⟨S1, .i32⟩
  | 60 => ⟨S_, .i32⟩
  | 61 => ⟨S1, .i32⟩
  | 62 => ⟨S_, .i32⟩
  | 63 => ⟨S1, .i32⟩
  | 64 => ⟨S3, .i32⟩
  | 65 => ⟨S16x128x128x128, .f32⟩
  | 66 => ⟨S16x1x1x1, .f32⟩
  | 67 => ⟨S16, .f32⟩
  | 68 => ⟨S16x1x1x1, .f32⟩
  | 69 => ⟨S16, .f32⟩
  | 70 => ⟨S16x1x1x1, .f32⟩
  | 71 => ⟨S16, .f32⟩
  | 72 => ⟨S16x1x1x1, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S16, .f32⟩
  | 86 => ⟨S_, .f32⟩
  | 87 => ⟨S16, .f32⟩
  | 88 => ⟨S16, .f32⟩
  | 89 => ⟨S16x1x1x1, .f32⟩
  | 90 => ⟨S16, .f32⟩
  | 91 => ⟨S16x1x1x1, .f32⟩
  | 92 => ⟨S16, .f32⟩
  | 93 => ⟨S16x1x1x1, .f32⟩
  | 94 => ⟨S16, .f32⟩
  | 95 => ⟨S16x1x1x1, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S16, .f32⟩
  | 104 => ⟨S_, .f32⟩
  | 105 => ⟨S16, .f32⟩
  | 106 => ⟨S16, .f32⟩
  | 107 => ⟨S16, .f32⟩
  | 108 => ⟨S16, .f32⟩
  | 109 => ⟨S_, .f32⟩
  | 110 => ⟨S16, .f32⟩
  | 111 => ⟨S16, .f32⟩
  | 112 => ⟨S16, .f32⟩
  | 113 => ⟨S16x1x1x1, .f32⟩
  | 114 => ⟨S16, .f32⟩
  | 115 => ⟨S16x1x1x1, .f32⟩
  | 116 => ⟨S16, .f32⟩
  | 117 => ⟨S16x1x1x1, .f32⟩
  | 118 => ⟨S16, .f32⟩
  | 119 => ⟨S16x1x1x1, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S16, .f32⟩
  | _ => ⟨S16x1x128x128x128, .f32⟩

abbrev hbmTy0_8 (i : Nat) : BufTy := match i % 128 with
  | 0 => ⟨S_, .f32⟩
  | 1 => ⟨S16, .f32⟩
  | 2 => ⟨S16, .f32⟩
  | 3 => ⟨S16, .f32⟩
  | 4 => ⟨S16, .f32⟩
  | 5 => ⟨S_, .f32⟩
  | 6 => ⟨S16, .f32⟩
  | 7 => ⟨S16, .f32⟩
  | 8 => ⟨S16, .f32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S3, .i32⟩
  | 16 => ⟨S16x128x128x128, .f32⟩
  | 17 => ⟨S16x126x126x126, .f32⟩
  | 18 => ⟨S16x1x126x126x126, .f32⟩
  | 19 => ⟨S16x126x126x126, .f32⟩
  | 20 => ⟨S16x126x126x126, .f32⟩
  | 21 => ⟨S16x126x126x126, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S16x1x128x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16x1x128x128x128, .f32⟩

abbrev bufTy : (tb : Table) → Fin (tcTables nBuf tb) → BufTy
  | .hbm, ⟨i, _⟩ => hbmTy i
  | _, _ => ⟨S16x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_c_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_16 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_17 : Ref sig .tc := ⟨.hbm, 102, rfl⟩
abbrev main_v81 : Ref sig .tc := ⟨.hbm, 103, rfl⟩
abbrev main_c_18 : Ref sig .tc := ⟨.hbm, 104, rfl⟩
abbrev main_v82 : Ref sig .tc := ⟨.hbm, 105, rfl⟩
abbrev main_c_19 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_20 : Ref sig .tc := ⟨.hbm, 118, rfl⟩
abbrev main_v94 : Ref sig .tc := ⟨.hbm, 119, rfl⟩
abbrev main_v95 : Ref sig .tc := ⟨.hbm, 120, rfl⟩
abbrev main_cst_21 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_22 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_23 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_24 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_25 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_26 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_27 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_c_28 : Ref sig .tc := ⟨.hbm, 163, rfl⟩
abbrev main_v131 : Ref sig .tc := ⟨.hbm, 164, rfl⟩
abbrev main_c_29 : Ref sig .tc := ⟨.hbm, 165, rfl⟩
abbrev main_v132 : Ref sig .tc := ⟨.hbm, 166, rfl⟩
abbrev main_c_30 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_31 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_32 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_33 : Ref sig .tc := ⟨.hbm, 193, rfl⟩
abbrev main_v156 : Ref sig .tc := ⟨.hbm, 194, rfl⟩
abbrev main_v157 : Ref sig .tc := ⟨.hbm, 195, rfl⟩
abbrev main_cst_34 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_35 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_36 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_37 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_38 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_c_39 : Ref sig .tc := ⟨.hbm, 224, rfl⟩
abbrev main_v181 : Ref sig .tc := ⟨.hbm, 225, rfl⟩
abbrev main_c_40 : Ref sig .tc := ⟨.hbm, 226, rfl⟩
abbrev main_v182 : Ref sig .tc := ⟨.hbm, 227, rfl⟩
abbrev main_c_41 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_42 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_cst_43 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_cst_44 : Ref sig .tc := ⟨.hbm, 254, rfl⟩
abbrev main_v206 : Ref sig .tc := ⟨.hbm, 255, rfl⟩
abbrev main_v207 : Ref sig .tc := ⟨.hbm, 256, rfl⟩
abbrev main_cst_45 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_cst_46 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_cst_47 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_cst_48 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_c_49 : Ref sig .tc := ⟨.hbm, 282, rfl⟩
abbrev main_v229 : Ref sig .tc := ⟨.hbm, 283, rfl⟩
abbrev main_c_50 : Ref sig .tc := ⟨.hbm, 284, rfl⟩
abbrev main_v230 : Ref sig .tc := ⟨.hbm, 285, rfl⟩
abbrev main_c_51 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_cst_52 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_cst_53 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_cst_54 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_cst_55 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_cst_56 : Ref sig .tc := ⟨.hbm, 327, rfl⟩
abbrev main_v267 : Ref sig .tc := ⟨.hbm, 328, rfl⟩
abbrev main_v268 : Ref sig .tc := ⟨.hbm, 329, rfl⟩
abbrev main_cst_57 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_cst_58 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_cst_59 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_c_60 : Ref sig .tc := ⟨.hbm, 343, rfl⟩
abbrev main_v279 : Ref sig .tc := ⟨.hbm, 344, rfl⟩
abbrev main_c_61 : Ref sig .tc := ⟨.hbm, 345, rfl⟩
abbrev main_v280 : Ref sig .tc := ⟨.hbm, 346, rfl⟩
abbrev main_c_62 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_cst_63 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_cst_64 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_cst_65 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_cst_66 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_cst_67 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_cst_68 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_cst_69 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_c_70 : Ref sig .tc := ⟨.hbm, 401, rfl⟩
abbrev main_v327 : Ref sig .tc := ⟨.hbm, 402, rfl⟩
abbrev main_c_71 : Ref sig .tc := ⟨.hbm, 403, rfl⟩
abbrev main_v328 : Ref sig .tc := ⟨.hbm, 404, rfl⟩
abbrev main_c_72 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_v333 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_cst_73 : Ref sig .tc := ⟨.hbm, 417, rfl⟩
abbrev main_v340 : Ref sig .tc := ⟨.hbm, 418, rfl⟩
abbrev main_v341 : Ref sig .tc := ⟨.hbm, 419, rfl⟩
abbrev main_cst_74 : Ref sig .tc := ⟨.hbm, 420, rfl⟩
abbrev main_v342 : Ref sig .tc := ⟨.hbm, 421, rfl⟩
abbrev main_v343 : Ref sig .tc := ⟨.hbm, 422, rfl⟩
abbrev main_v344 : Ref sig .tc := ⟨.hbm, 423, rfl⟩
abbrev main_cst_75 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_cst_76 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_cst_77 : Ref sig .tc := ⟨.hbm, 440, rfl⟩
abbrev main_v359 : Ref sig .tc := ⟨.hbm, 441, rfl⟩
abbrev main_v360 : Ref sig .tc := ⟨.hbm, 442, rfl⟩
abbrev main_cst_78 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_cst_79 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_v367 : Ref sig .tc := ⟨.hbm, 451, rfl⟩
abbrev main_cst_80 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_v372 : Ref sig .tc := ⟨.hbm, 457, rfl⟩
abbrev main_v373 : Ref sig .tc := ⟨.hbm, 458, rfl⟩
abbrev main_v374 : Ref sig .tc := ⟨.hbm, 459, rfl⟩
abbrev main_v375 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_cst_81 : Ref sig .tc := ⟨.hbm, 464, rfl⟩
abbrev main_v379 : Ref sig .tc := ⟨.hbm, 465, rfl⟩
abbrev main_v380 : Ref sig .tc := ⟨.hbm, 466, rfl⟩
abbrev main_cst_82 : Ref sig .tc := ⟨.hbm, 467, rfl⟩
abbrev main_v381 : Ref sig .tc := ⟨.hbm, 468, rfl⟩
abbrev main_v382 : Ref sig .tc := ⟨.hbm, 469, rfl⟩
abbrev main_v383 : Ref sig .tc := ⟨.hbm, 470, rfl⟩
abbrev main_cst_83 : Ref sig .tc := ⟨.hbm, 471, rfl⟩
abbrev main_v384 : Ref sig .tc := ⟨.hbm, 472, rfl⟩
abbrev main_v385 : Ref sig .tc := ⟨.hbm, 473, rfl⟩
abbrev main_v386 : Ref sig .tc := ⟨.hbm, 474, rfl⟩
abbrev main_v387 : Ref sig .tc := ⟨.hbm, 475, rfl⟩
abbrev main_cst_84 : Ref sig .tc := ⟨.hbm, 476, rfl⟩
abbrev main_v388 : Ref sig .tc := ⟨.hbm, 477, rfl⟩
abbrev main_v389 : Ref sig .tc := ⟨.hbm, 478, rfl⟩
abbrev main_v390 : Ref sig .tc := ⟨.hbm, 479, rfl⟩
abbrev main_c_85 : Ref sig .tc := ⟨.hbm, 480, rfl⟩
abbrev main_v391 : Ref sig .tc := ⟨.hbm, 481, rfl⟩
abbrev main_c_86 : Ref sig .tc := ⟨.hbm, 482, rfl⟩
abbrev main_v392 : Ref sig .tc := ⟨.hbm, 483, rfl⟩
abbrev main_c_87 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_cst_88 : Ref sig .tc := ⟨.hbm, 496, rfl⟩
abbrev main_v404 : Ref sig .tc := ⟨.hbm, 497, rfl⟩
abbrev main_v405 : Ref sig .tc := ⟨.hbm, 498, rfl⟩
abbrev main_cst_89 : Ref sig .tc := ⟨.hbm, 499, rfl⟩
abbrev main_v406 : Ref sig .tc := ⟨.hbm, 500, rfl⟩
abbrev main_v407 : Ref sig .tc := ⟨.hbm, 501, rfl⟩
abbrev main_v408 : Ref sig .tc := ⟨.hbm, 502, rfl⟩
abbrev main_cst_90 : Ref sig .tc := ⟨.hbm, 503, rfl⟩
abbrev main_v409 : Ref sig .tc := ⟨.hbm, 504, rfl⟩
abbrev main_v410 : Ref sig .tc := ⟨.hbm, 505, rfl⟩
abbrev main_v411 : Ref sig .tc := ⟨.hbm, 506, rfl⟩
abbrev main_v412 : Ref sig .tc := ⟨.hbm, 507, rfl⟩
abbrev main_cst_91 : Ref sig .tc := ⟨.hbm, 508, rfl⟩
abbrev main_v413 : Ref sig .tc := ⟨.hbm, 509, rfl⟩
abbrev main_v414 : Ref sig .tc := ⟨.hbm, 510, rfl⟩
abbrev main_v415 : Ref sig .tc := ⟨.hbm, 511, rfl⟩
abbrev main_v416 : Ref sig .tc := ⟨.hbm, 512, rfl⟩
abbrev main_v417 : Ref sig .tc := ⟨.hbm, 513, rfl⟩
abbrev main_v418 : Ref sig .tc := ⟨.hbm, 514, rfl⟩
abbrev main_v419 : Ref sig .tc := ⟨.hbm, 515, rfl⟩
abbrev main_v420 : Ref sig .tc := ⟨.hbm, 516, rfl⟩
abbrev main_v421 : Ref sig .tc := ⟨.hbm, 517, rfl⟩
abbrev main_v422 : Ref sig .tc := ⟨.hbm, 518, rfl⟩
abbrev main_cst_92 : Ref sig .tc := ⟨.hbm, 519, rfl⟩
abbrev main_v423 : Ref sig .tc := ⟨.hbm, 520, rfl⟩
abbrev main_v424 : Ref sig .tc := ⟨.hbm, 521, rfl⟩
abbrev main_cst_93 : Ref sig .tc := ⟨.hbm, 522, rfl⟩
abbrev main_v425 : Ref sig .tc := ⟨.hbm, 523, rfl⟩
abbrev main_v426 : Ref sig .tc := ⟨.hbm, 524, rfl⟩
abbrev main_v427 : Ref sig .tc := ⟨.hbm, 525, rfl⟩
abbrev main_cst_94 : Ref sig .tc := ⟨.hbm, 526, rfl⟩
abbrev main_v428 : Ref sig .tc := ⟨.hbm, 527, rfl⟩
abbrev main_v429 : Ref sig .tc := ⟨.hbm, 528, rfl⟩
abbrev main_v430 : Ref sig .tc := ⟨.hbm, 529, rfl⟩
abbrev main_v431 : Ref sig .tc := ⟨.hbm, 530, rfl⟩
abbrev main_cst_95 : Ref sig .tc := ⟨.hbm, 531, rfl⟩
abbrev main_v432 : Ref sig .tc := ⟨.hbm, 532, rfl⟩
abbrev main_v433 : Ref sig .tc := ⟨.hbm, 533, rfl⟩
abbrev main_v434 : Ref sig .tc := ⟨.hbm, 534, rfl⟩
abbrev main_v435 : Ref sig .tc := ⟨.hbm, 535, rfl⟩
abbrev main_v436 : Ref sig .tc := ⟨.hbm, 536, rfl⟩
abbrev main_v437 : Ref sig .tc := ⟨.hbm, 537, rfl⟩
abbrev main_v438 : Ref sig .tc := ⟨.hbm, 538, rfl⟩
abbrev main_v439 : Ref sig .tc := ⟨.hbm, 539, rfl⟩
abbrev main_v440 : Ref sig .tc := ⟨.hbm, 540, rfl⟩
abbrev main_v441 : Ref sig .tc := ⟨.hbm, 541, rfl⟩
abbrev main_v442 : Ref sig .tc := ⟨.hbm, 542, rfl⟩
abbrev main_cst_96 : Ref sig .tc := ⟨.hbm, 543, rfl⟩
abbrev main_v443 : Ref sig .tc := ⟨.hbm, 544, rfl⟩
abbrev main_v444 : Ref sig .tc := ⟨.hbm, 545, rfl⟩
abbrev main_cst_97 : Ref sig .tc := ⟨.hbm, 546, rfl⟩
abbrev main_v445 : Ref sig .tc := ⟨.hbm, 547, rfl⟩
abbrev main_v446 : Ref sig .tc := ⟨.hbm, 548, rfl⟩
abbrev main_v447 : Ref sig .tc := ⟨.hbm, 549, rfl⟩
abbrev main_cst_98 : Ref sig .tc := ⟨.hbm, 550, rfl⟩
abbrev main_v448 : Ref sig .tc := ⟨.hbm, 551, rfl⟩
abbrev main_v449 : Ref sig .tc := ⟨.hbm, 552, rfl⟩
abbrev main_v450 : Ref sig .tc := ⟨.hbm, 553, rfl⟩
abbrev main_v451 : Ref sig .tc := ⟨.hbm, 554, rfl⟩
abbrev main_cst_99 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_c_100 : Ref sig .tc := ⟨.hbm, 559, rfl⟩
abbrev main_v455 : Ref sig .tc := ⟨.hbm, 560, rfl⟩
abbrev main_c_101 : Ref sig .tc := ⟨.hbm, 561, rfl⟩
abbrev main_v456 : Ref sig .tc := ⟨.hbm, 562, rfl⟩
abbrev main_c_102 : Ref sig .tc := ⟨.hbm, 563, rfl⟩
abbrev main_v457 : Ref sig .tc := ⟨.hbm, 564, rfl⟩
abbrev main_v458 : Ref sig .tc := ⟨.hbm, 565, rfl⟩
abbrev main_v459 : Ref sig .tc := ⟨.hbm, 566, rfl⟩
abbrev main_v460 : Ref sig .tc := ⟨.hbm, 567, rfl⟩
abbrev main_v461 : Ref sig .tc := ⟨.hbm, 568, rfl⟩
abbrev main_v462 : Ref sig .tc := ⟨.hbm, 569, rfl⟩
abbrev main_v463 : Ref sig .tc := ⟨.hbm, 570, rfl⟩
abbrev main_v464 : Ref sig .tc := ⟨.hbm, 571, rfl⟩
abbrev main_v465 : Ref sig .tc := ⟨.hbm, 572, rfl⟩
abbrev main_v466 : Ref sig .tc := ⟨.hbm, 573, rfl⟩
abbrev main_v467 : Ref sig .tc := ⟨.hbm, 574, rfl⟩
abbrev main_cst_103 : Ref sig .tc := ⟨.hbm, 575, rfl⟩
abbrev main_v468 : Ref sig .tc := ⟨.hbm, 576, rfl⟩
abbrev main_v469 : Ref sig .tc := ⟨.hbm, 577, rfl⟩
abbrev main_cst_104 : Ref sig .tc := ⟨.hbm, 578, rfl⟩
abbrev main_v470 : Ref sig .tc := ⟨.hbm, 579, rfl⟩
abbrev main_v471 : Ref sig .tc := ⟨.hbm, 580, rfl⟩
abbrev main_v472 : Ref sig .tc := ⟨.hbm, 581, rfl⟩
abbrev main_cst_105 : Ref sig .tc := ⟨.hbm, 582, rfl⟩
abbrev main_v473 : Ref sig .tc := ⟨.hbm, 583, rfl⟩
abbrev main_v474 : Ref sig .tc := ⟨.hbm, 584, rfl⟩
abbrev main_v475 : Ref sig .tc := ⟨.hbm, 585, rfl⟩
abbrev main_v476 : Ref sig .tc := ⟨.hbm, 586, rfl⟩
abbrev main_cst_106 : Ref sig .tc := ⟨.hbm, 587, rfl⟩
abbrev main_v477 : Ref sig .tc := ⟨.hbm, 588, rfl⟩
abbrev main_v478 : Ref sig .tc := ⟨.hbm, 589, rfl⟩
abbrev main_v479 : Ref sig .tc := ⟨.hbm, 590, rfl⟩
abbrev main_v480 : Ref sig .tc := ⟨.hbm, 591, rfl⟩
abbrev main_v481 : Ref sig .tc := ⟨.hbm, 592, rfl⟩
abbrev main_v482 : Ref sig .tc := ⟨.hbm, 593, rfl⟩
abbrev main_v483 : Ref sig .tc := ⟨.hbm, 594, rfl⟩
abbrev main_v484 : Ref sig .tc := ⟨.hbm, 595, rfl⟩
abbrev main_v485 : Ref sig .tc := ⟨.hbm, 596, rfl⟩
abbrev main_v486 : Ref sig .tc := ⟨.hbm, 597, rfl⟩
abbrev main_cst_107 : Ref sig .tc := ⟨.hbm, 598, rfl⟩
abbrev main_v487 : Ref sig .tc := ⟨.hbm, 599, rfl⟩
abbrev main_v488 : Ref sig .tc := ⟨.hbm, 600, rfl⟩
abbrev main_cst_108 : Ref sig .tc := ⟨.hbm, 601, rfl⟩
abbrev main_v489 : Ref sig .tc := ⟨.hbm, 602, rfl⟩
abbrev main_v490 : Ref sig .tc := ⟨.hbm, 603, rfl⟩
abbrev main_v491 : Ref sig .tc := ⟨.hbm, 604, rfl⟩
abbrev main_cst_109 : Ref sig .tc := ⟨.hbm, 605, rfl⟩
abbrev main_v492 : Ref sig .tc := ⟨.hbm, 606, rfl⟩
abbrev main_v493 : Ref sig .tc := ⟨.hbm, 607, rfl⟩
abbrev main_v494 : Ref sig .tc := ⟨.hbm, 608, rfl⟩
abbrev main_v495 : Ref sig .tc := ⟨.hbm, 609, rfl⟩
abbrev main_cst_110 : Ref sig .tc := ⟨.hbm, 610, rfl⟩
abbrev main_v496 : Ref sig .tc := ⟨.hbm, 611, rfl⟩
abbrev main_v497 : Ref sig .tc := ⟨.hbm, 612, rfl⟩
abbrev main_v498 : Ref sig .tc := ⟨.hbm, 613, rfl⟩
abbrev main_v499 : Ref sig .tc := ⟨.hbm, 614, rfl⟩
abbrev main_v500 : Ref sig .tc := ⟨.hbm, 615, rfl⟩
abbrev main_v501 : Ref sig .tc := ⟨.hbm, 616, rfl⟩
abbrev main_v502 : Ref sig .tc := ⟨.hbm, 617, rfl⟩
abbrev main_v503 : Ref sig .tc := ⟨.hbm, 618, rfl⟩
abbrev main_v504 : Ref sig .tc := ⟨.hbm, 619, rfl⟩
abbrev main_v505 : Ref sig .tc := ⟨.hbm, 620, rfl⟩
abbrev main_v506 : Ref sig .tc := ⟨.hbm, 621, rfl⟩
abbrev main_cst_111 : Ref sig .tc := ⟨.hbm, 622, rfl⟩
abbrev main_v507 : Ref sig .tc := ⟨.hbm, 623, rfl⟩
abbrev main_v508 : Ref sig .tc := ⟨.hbm, 624, rfl⟩
abbrev main_cst_112 : Ref sig .tc := ⟨.hbm, 625, rfl⟩
abbrev main_v509 : Ref sig .tc := ⟨.hbm, 626, rfl⟩
abbrev main_v510 : Ref sig .tc := ⟨.hbm, 627, rfl⟩
abbrev main_v511 : Ref sig .tc := ⟨.hbm, 628, rfl⟩
abbrev main_cst_113 : Ref sig .tc := ⟨.hbm, 629, rfl⟩
abbrev main_v512 : Ref sig .tc := ⟨.hbm, 630, rfl⟩
abbrev main_v513 : Ref sig .tc := ⟨.hbm, 631, rfl⟩
abbrev main_v514 : Ref sig .tc := ⟨.hbm, 632, rfl⟩
abbrev main_v515 : Ref sig .tc := ⟨.hbm, 633, rfl⟩
abbrev main_cst_114 : Ref sig .tc := ⟨.hbm, 634, rfl⟩
abbrev main_v516 : Ref sig .tc := ⟨.hbm, 635, rfl⟩
abbrev main_v517 : Ref sig .tc := ⟨.hbm, 636, rfl⟩
abbrev main_v518 : Ref sig .tc := ⟨.hbm, 637, rfl⟩
abbrev main_c_115 : Ref sig .tc := ⟨.hbm, 638, rfl⟩
abbrev main_v519 : Ref sig .tc := ⟨.hbm, 639, rfl⟩
abbrev main_c_116 : Ref sig .tc := ⟨.hbm, 640, rfl⟩
abbrev main_v520 : Ref sig .tc := ⟨.hbm, 641, rfl⟩
abbrev main_c_117 : Ref sig .tc := ⟨.hbm, 642, rfl⟩
abbrev main_v521 : Ref sig .tc := ⟨.hbm, 643, rfl⟩
abbrev main_v522 : Ref sig .tc := ⟨.hbm, 644, rfl⟩
abbrev main_v523 : Ref sig .tc := ⟨.hbm, 645, rfl⟩
abbrev main_v524 : Ref sig .tc := ⟨.hbm, 646, rfl⟩
abbrev main_v525 : Ref sig .tc := ⟨.hbm, 647, rfl⟩
abbrev main_v526 : Ref sig .tc := ⟨.hbm, 648, rfl⟩
abbrev main_v527 : Ref sig .tc := ⟨.hbm, 649, rfl⟩
abbrev main_v528 : Ref sig .tc := ⟨.hbm, 650, rfl⟩
abbrev main_v529 : Ref sig .tc := ⟨.hbm, 651, rfl⟩
abbrev main_v530 : Ref sig .tc := ⟨.hbm, 652, rfl⟩
abbrev main_v531 : Ref sig .tc := ⟨.hbm, 653, rfl⟩
abbrev main_cst_118 : Ref sig .tc := ⟨.hbm, 654, rfl⟩
abbrev main_v532 : Ref sig .tc := ⟨.hbm, 655, rfl⟩
abbrev main_v533 : Ref sig .tc := ⟨.hbm, 656, rfl⟩
abbrev main_cst_119 : Ref sig .tc := ⟨.hbm, 657, rfl⟩
abbrev main_v534 : Ref sig .tc := ⟨.hbm, 658, rfl⟩
abbrev main_v535 : Ref sig .tc := ⟨.hbm, 659, rfl⟩
abbrev main_v536 : Ref sig .tc := ⟨.hbm, 660, rfl⟩
abbrev main_cst_120 : Ref sig .tc := ⟨.hbm, 661, rfl⟩
abbrev main_v537 : Ref sig .tc := ⟨.hbm, 662, rfl⟩
abbrev main_v538 : Ref sig .tc := ⟨.hbm, 663, rfl⟩
abbrev main_v539 : Ref sig .tc := ⟨.hbm, 664, rfl⟩
abbrev main_v540 : Ref sig .tc := ⟨.hbm, 665, rfl⟩
abbrev main_cst_121 : Ref sig .tc := ⟨.hbm, 666, rfl⟩
abbrev main_v541 : Ref sig .tc := ⟨.hbm, 667, rfl⟩
abbrev main_v542 : Ref sig .tc := ⟨.hbm, 668, rfl⟩
abbrev main_v543 : Ref sig .tc := ⟨.hbm, 669, rfl⟩
abbrev main_v544 : Ref sig .tc := ⟨.hbm, 670, rfl⟩
abbrev main_v545 : Ref sig .tc := ⟨.hbm, 671, rfl⟩
abbrev main_v546 : Ref sig .tc := ⟨.hbm, 672, rfl⟩
abbrev main_v547 : Ref sig .tc := ⟨.hbm, 673, rfl⟩
abbrev main_v548 : Ref sig .tc := ⟨.hbm, 674, rfl⟩
abbrev main_v549 : Ref sig .tc := ⟨.hbm, 675, rfl⟩
abbrev main_v550 : Ref sig .tc := ⟨.hbm, 676, rfl⟩
abbrev main_cst_122 : Ref sig .tc := ⟨.hbm, 677, rfl⟩
abbrev main_v551 : Ref sig .tc := ⟨.hbm, 678, rfl⟩
abbrev main_v552 : Ref sig .tc := ⟨.hbm, 679, rfl⟩
abbrev main_cst_123 : Ref sig .tc := ⟨.hbm, 680, rfl⟩
abbrev main_v553 : Ref sig .tc := ⟨.hbm, 681, rfl⟩
abbrev main_v554 : Ref sig .tc := ⟨.hbm, 682, rfl⟩
abbrev main_v555 : Ref sig .tc := ⟨.hbm, 683, rfl⟩
abbrev main_cst_124 : Ref sig .tc := ⟨.hbm, 684, rfl⟩
abbrev main_v556 : Ref sig .tc := ⟨.hbm, 685, rfl⟩
abbrev main_v557 : Ref sig .tc := ⟨.hbm, 686, rfl⟩
abbrev main_v558 : Ref sig .tc := ⟨.hbm, 687, rfl⟩
abbrev main_v559 : Ref sig .tc := ⟨.hbm, 688, rfl⟩
abbrev main_cst_125 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_v563 : Ref sig .tc := ⟨.hbm, 693, rfl⟩
abbrev main_v564 : Ref sig .tc := ⟨.hbm, 694, rfl⟩
abbrev main_v565 : Ref sig .tc := ⟨.hbm, 695, rfl⟩
abbrev main_v566 : Ref sig .tc := ⟨.hbm, 696, rfl⟩
abbrev main_v567 : Ref sig .tc := ⟨.hbm, 697, rfl⟩
abbrev main_v568 : Ref sig .tc := ⟨.hbm, 698, rfl⟩
abbrev main_v569 : Ref sig .tc := ⟨.hbm, 699, rfl⟩
abbrev main_v570 : Ref sig .tc := ⟨.hbm, 700, rfl⟩
abbrev main_cst_126 : Ref sig .tc := ⟨.hbm, 701, rfl⟩
abbrev main_v571 : Ref sig .tc := ⟨.hbm, 702, rfl⟩
abbrev main_v572 : Ref sig .tc := ⟨.hbm, 703, rfl⟩
abbrev main_cst_127 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_cst_128 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_cst_129 : Ref sig .tc := ⟨.hbm, 713, rfl⟩
abbrev main_v580 : Ref sig .tc := ⟨.hbm, 714, rfl⟩
abbrev main_v581 : Ref sig .tc := ⟨.hbm, 715, rfl⟩
abbrev main_v582 : Ref sig .tc := ⟨.hbm, 716, rfl⟩
abbrev main_c_130 : Ref sig .tc := ⟨.hbm, 717, rfl⟩
abbrev main_v583 : Ref sig .tc := ⟨.hbm, 718, rfl⟩
abbrev main_c_131 : Ref sig .tc := ⟨.hbm, 719, rfl⟩
abbrev main_v584 : Ref sig .tc := ⟨.hbm, 720, rfl⟩
abbrev main_c_132 : Ref sig .tc := ⟨.hbm, 721, rfl⟩
abbrev main_v585 : Ref sig .tc := ⟨.hbm, 722, rfl⟩
abbrev main_v586 : Ref sig .tc := ⟨.hbm, 723, rfl⟩
abbrev main_v587 : Ref sig .tc := ⟨.hbm, 724, rfl⟩
abbrev main_v588 : Ref sig .tc := ⟨.hbm, 725, rfl⟩
abbrev main_v589 : Ref sig .tc := ⟨.hbm, 726, rfl⟩
abbrev main_v590 : Ref sig .tc := ⟨.hbm, 727, rfl⟩
abbrev main_v591 : Ref sig .tc := ⟨.hbm, 728, rfl⟩
abbrev main_v592 : Ref sig .tc := ⟨.hbm, 729, rfl⟩
abbrev main_v593 : Ref sig .tc := ⟨.hbm, 730, rfl⟩
abbrev main_v594 : Ref sig .tc := ⟨.hbm, 731, rfl⟩
abbrev main_v595 : Ref sig .tc := ⟨.hbm, 732, rfl⟩
abbrev main_cst_133 : Ref sig .tc := ⟨.hbm, 733, rfl⟩
abbrev main_v596 : Ref sig .tc := ⟨.hbm, 734, rfl⟩
abbrev main_v597 : Ref sig .tc := ⟨.hbm, 735, rfl⟩
abbrev main_cst_134 : Ref sig .tc := ⟨.hbm, 736, rfl⟩
abbrev main_v598 : Ref sig .tc := ⟨.hbm, 737, rfl⟩
abbrev main_v599 : Ref sig .tc := ⟨.hbm, 738, rfl⟩
abbrev main_v600 : Ref sig .tc := ⟨.hbm, 739, rfl⟩
abbrev main_cst_135 : Ref sig .tc := ⟨.hbm, 740, rfl⟩
abbrev main_v601 : Ref sig .tc := ⟨.hbm, 741, rfl⟩
abbrev main_v602 : Ref sig .tc := ⟨.hbm, 742, rfl⟩
abbrev main_v603 : Ref sig .tc := ⟨.hbm, 743, rfl⟩
abbrev main_v604 : Ref sig .tc := ⟨.hbm, 744, rfl⟩
abbrev main_cst_136 : Ref sig .tc := ⟨.hbm, 745, rfl⟩
abbrev main_v605 : Ref sig .tc := ⟨.hbm, 746, rfl⟩
abbrev main_v606 : Ref sig .tc := ⟨.hbm, 747, rfl⟩
abbrev main_v607 : Ref sig .tc := ⟨.hbm, 748, rfl⟩
abbrev main_v608 : Ref sig .tc := ⟨.hbm, 749, rfl⟩
abbrev main_v609 : Ref sig .tc := ⟨.hbm, 750, rfl⟩
abbrev main_v610 : Ref sig .tc := ⟨.hbm, 751, rfl⟩
abbrev main_v611 : Ref sig .tc := ⟨.hbm, 752, rfl⟩
abbrev main_v612 : Ref sig .tc := ⟨.hbm, 753, rfl⟩
abbrev main_v613 : Ref sig .tc := ⟨.hbm, 754, rfl⟩
abbrev main_v614 : Ref sig .tc := ⟨.hbm, 755, rfl⟩
abbrev main_cst_137 : Ref sig .tc := ⟨.hbm, 756, rfl⟩
abbrev main_v615 : Ref sig .tc := ⟨.hbm, 757, rfl⟩
abbrev main_v616 : Ref sig .tc := ⟨.hbm, 758, rfl⟩
abbrev main_cst_138 : Ref sig .tc := ⟨.hbm, 759, rfl⟩
abbrev main_v617 : Ref sig .tc := ⟨.hbm, 760, rfl⟩
abbrev main_v618 : Ref sig .tc := ⟨.hbm, 761, rfl⟩
abbrev main_v619 : Ref sig .tc := ⟨.hbm, 762, rfl⟩
abbrev main_cst_139 : Ref sig .tc := ⟨.hbm, 763, rfl⟩
abbrev main_v620 : Ref sig .tc := ⟨.hbm, 764, rfl⟩
abbrev main_v621 : Ref sig .tc := ⟨.hbm, 765, rfl⟩
abbrev main_v622 : Ref sig .tc := ⟨.hbm, 766, rfl⟩
abbrev main_v623 : Ref sig .tc := ⟨.hbm, 767, rfl⟩
abbrev main_cst_140 : Ref sig .tc := ⟨.hbm, 768, rfl⟩
abbrev main_v624 : Ref sig .tc := ⟨.hbm, 769, rfl⟩
abbrev main_v625 : Ref sig .tc := ⟨.hbm, 770, rfl⟩
abbrev main_v626 : Ref sig .tc := ⟨.hbm, 771, rfl⟩
abbrev main_v627 : Ref sig .tc := ⟨.hbm, 772, rfl⟩
abbrev main_v628 : Ref sig .tc := ⟨.hbm, 773, rfl⟩
abbrev main_v629 : Ref sig .tc := ⟨.hbm, 774, rfl⟩
abbrev main_v630 : Ref sig .tc := ⟨.hbm, 775, rfl⟩
abbrev main_v631 : Ref sig .tc := ⟨.hbm, 776, rfl⟩
abbrev main_v632 : Ref sig .tc := ⟨.hbm, 777, rfl⟩
abbrev main_v633 : Ref sig .tc := ⟨.hbm, 778, rfl⟩
abbrev main_v634 : Ref sig .tc := ⟨.hbm, 779, rfl⟩
abbrev main_cst_141 : Ref sig .tc := ⟨.hbm, 780, rfl⟩
abbrev main_v635 : Ref sig .tc := ⟨.hbm, 781, rfl⟩
abbrev main_v636 : Ref sig .tc := ⟨.hbm, 782, rfl⟩
abbrev main_cst_142 : Ref sig .tc := ⟨.hbm, 783, rfl⟩
abbrev main_v637 : Ref sig .tc := ⟨.hbm, 784, rfl⟩
abbrev main_v638 : Ref sig .tc := ⟨.hbm, 785, rfl⟩
abbrev main_v639 : Ref sig .tc := ⟨.hbm, 786, rfl⟩
abbrev main_cst_143 : Ref sig .tc := ⟨.hbm, 787, rfl⟩
abbrev main_v640 : Ref sig .tc := ⟨.hbm, 788, rfl⟩
abbrev main_v641 : Ref sig .tc := ⟨.hbm, 789, rfl⟩
abbrev main_v642 : Ref sig .tc := ⟨.hbm, 790, rfl⟩
abbrev main_v643 : Ref sig .tc := ⟨.hbm, 791, rfl⟩
abbrev main_cst_144 : Ref sig .tc := ⟨.hbm, 792, rfl⟩
abbrev main_v644 : Ref sig .tc := ⟨.hbm, 793, rfl⟩
abbrev main_v645 : Ref sig .tc := ⟨.hbm, 794, rfl⟩
abbrev main_v646 : Ref sig .tc := ⟨.hbm, 795, rfl⟩
abbrev main_c_145 : Ref sig .tc := ⟨.hbm, 796, rfl⟩
abbrev main_v647 : Ref sig .tc := ⟨.hbm, 797, rfl⟩
abbrev main_c_146 : Ref sig .tc := ⟨.hbm, 798, rfl⟩
abbrev main_v648 : Ref sig .tc := ⟨.hbm, 799, rfl⟩
abbrev main_c_147 : Ref sig .tc := ⟨.hbm, 800, rfl⟩
abbrev main_v649 : Ref sig .tc := ⟨.hbm, 801, rfl⟩
abbrev main_v650 : Ref sig .tc := ⟨.hbm, 802, rfl⟩
abbrev main_v651 : Ref sig .tc := ⟨.hbm, 803, rfl⟩
abbrev main_v652 : Ref sig .tc := ⟨.hbm, 804, rfl⟩
abbrev main_v653 : Ref sig .tc := ⟨.hbm, 805, rfl⟩
abbrev main_v654 : Ref sig .tc := ⟨.hbm, 806, rfl⟩
abbrev main_v655 : Ref sig .tc := ⟨.hbm, 807, rfl⟩
abbrev main_v656 : Ref sig .tc := ⟨.hbm, 808, rfl⟩
abbrev main_v657 : Ref sig .tc := ⟨.hbm, 809, rfl⟩
abbrev main_v658 : Ref sig .tc := ⟨.hbm, 810, rfl⟩
abbrev main_v659 : Ref sig .tc := ⟨.hbm, 811, rfl⟩
abbrev main_cst_148 : Ref sig .tc := ⟨.hbm, 812, rfl⟩
abbrev main_v660 : Ref sig .tc := ⟨.hbm, 813, rfl⟩
abbrev main_v661 : Ref sig .tc := ⟨.hbm, 814, rfl⟩
abbrev main_cst_149 : Ref sig .tc := ⟨.hbm, 815, rfl⟩
abbrev main_v662 : Ref sig .tc := ⟨.hbm, 816, rfl⟩
abbrev main_v663 : Ref sig .tc := ⟨.hbm, 817, rfl⟩
abbrev main_v664 : Ref sig .tc := ⟨.hbm, 818, rfl⟩
abbrev main_cst_150 : Ref sig .tc := ⟨.hbm, 819, rfl⟩
abbrev main_v665 : Ref sig .tc := ⟨.hbm, 820, rfl⟩
abbrev main_v666 : Ref sig .tc := ⟨.hbm, 821, rfl⟩
abbrev main_v667 : Ref sig .tc := ⟨.hbm, 822, rfl⟩
abbrev main_v668 : Ref sig .tc := ⟨.hbm, 823, rfl⟩
abbrev main_cst_151 : Ref sig .tc := ⟨.hbm, 824, rfl⟩
abbrev main_v669 : Ref sig .tc := ⟨.hbm, 825, rfl⟩
abbrev main_v670 : Ref sig .tc := ⟨.hbm, 826, rfl⟩
abbrev main_v671 : Ref sig .tc := ⟨.hbm, 827, rfl⟩
abbrev main_v672 : Ref sig .tc := ⟨.hbm, 828, rfl⟩
abbrev main_v673 : Ref sig .tc := ⟨.hbm, 829, rfl⟩
abbrev main_v674 : Ref sig .tc := ⟨.hbm, 830, rfl⟩
abbrev main_v675 : Ref sig .tc := ⟨.hbm, 831, rfl⟩
abbrev main_v676 : Ref sig .tc := ⟨.hbm, 832, rfl⟩
abbrev main_v677 : Ref sig .tc := ⟨.hbm, 833, rfl⟩
abbrev main_v678 : Ref sig .tc := ⟨.hbm, 834, rfl⟩
abbrev main_cst_152 : Ref sig .tc := ⟨.hbm, 835, rfl⟩
abbrev main_v679 : Ref sig .tc := ⟨.hbm, 836, rfl⟩
abbrev main_v680 : Ref sig .tc := ⟨.hbm, 837, rfl⟩
abbrev main_cst_153 : Ref sig .tc := ⟨.hbm, 838, rfl⟩
abbrev main_v681 : Ref sig .tc := ⟨.hbm, 839, rfl⟩
abbrev main_v682 : Ref sig .tc := ⟨.hbm, 840, rfl⟩
abbrev main_v683 : Ref sig .tc := ⟨.hbm, 841, rfl⟩
abbrev main_cst_154 : Ref sig .tc := ⟨.hbm, 842, rfl⟩
abbrev main_v684 : Ref sig .tc := ⟨.hbm, 843, rfl⟩
abbrev main_v685 : Ref sig .tc := ⟨.hbm, 844, rfl⟩
abbrev main_v686 : Ref sig .tc := ⟨.hbm, 845, rfl⟩
abbrev main_v687 : Ref sig .tc := ⟨.hbm, 846, rfl⟩
abbrev main_cst_155 : Ref sig .tc := ⟨.hbm, 847, rfl⟩
abbrev main_v688 : Ref sig .tc := ⟨.hbm, 848, rfl⟩
abbrev main_v689 : Ref sig .tc := ⟨.hbm, 849, rfl⟩
abbrev main_v690 : Ref sig .tc := ⟨.hbm, 850, rfl⟩
abbrev main_v691 : Ref sig .tc := ⟨.hbm, 851, rfl⟩
abbrev main_v692 : Ref sig .tc := ⟨.hbm, 852, rfl⟩
abbrev main_v693 : Ref sig .tc := ⟨.hbm, 853, rfl⟩
abbrev main_v694 : Ref sig .tc := ⟨.hbm, 854, rfl⟩
abbrev main_v695 : Ref sig .tc := ⟨.hbm, 855, rfl⟩
abbrev main_v696 : Ref sig .tc := ⟨.hbm, 856, rfl⟩
abbrev main_v697 : Ref sig .tc := ⟨.hbm, 857, rfl⟩
abbrev main_v698 : Ref sig .tc := ⟨.hbm, 858, rfl⟩
abbrev main_cst_156 : Ref sig .tc := ⟨.hbm, 859, rfl⟩
abbrev main_v699 : Ref sig .tc := ⟨.hbm, 860, rfl⟩
abbrev main_v700 : Ref sig .tc := ⟨.hbm, 861, rfl⟩
abbrev main_cst_157 : Ref sig .tc := ⟨.hbm, 862, rfl⟩
abbrev main_v701 : Ref sig .tc := ⟨.hbm, 863, rfl⟩
abbrev main_v702 : Ref sig .tc := ⟨.hbm, 864, rfl⟩
abbrev main_v703 : Ref sig .tc := ⟨.hbm, 865, rfl⟩
abbrev main_cst_158 : Ref sig .tc := ⟨.hbm, 866, rfl⟩
abbrev main_v704 : Ref sig .tc := ⟨.hbm, 867, rfl⟩
abbrev main_v705 : Ref sig .tc := ⟨.hbm, 868, rfl⟩
abbrev main_v706 : Ref sig .tc := ⟨.hbm, 869, rfl⟩
abbrev main_v707 : Ref sig .tc := ⟨.hbm, 870, rfl⟩
abbrev main_cst_159 : Ref sig .tc := ⟨.hbm, 871, rfl⟩
abbrev main_v708 : Ref sig .tc := ⟨.hbm, 872, rfl⟩
abbrev main_v709 : Ref sig .tc := ⟨.hbm, 873, rfl⟩
abbrev main_v710 : Ref sig .tc := ⟨.hbm, 874, rfl⟩
abbrev main_c_160 : Ref sig .tc := ⟨.hbm, 875, rfl⟩
abbrev main_v711 : Ref sig .tc := ⟨.hbm, 876, rfl⟩
abbrev main_c_161 : Ref sig .tc := ⟨.hbm, 877, rfl⟩
abbrev main_v712 : Ref sig .tc := ⟨.hbm, 878, rfl⟩
abbrev main_c_162 : Ref sig .tc := ⟨.hbm, 879, rfl⟩
abbrev main_v713 : Ref sig .tc := ⟨.hbm, 880, rfl⟩
abbrev main_v714 : Ref sig .tc := ⟨.hbm, 881, rfl⟩
abbrev main_v715 : Ref sig .tc := ⟨.hbm, 882, rfl⟩
abbrev main_v716 : Ref sig .tc := ⟨.hbm, 883, rfl⟩
abbrev main_v717 : Ref sig .tc := ⟨.hbm, 884, rfl⟩
abbrev main_v718 : Ref sig .tc := ⟨.hbm, 885, rfl⟩
abbrev main_v719 : Ref sig .tc := ⟨.hbm, 886, rfl⟩
abbrev main_v720 : Ref sig .tc := ⟨.hbm, 887, rfl⟩
abbrev main_v721 : Ref sig .tc := ⟨.hbm, 888, rfl⟩
abbrev main_v722 : Ref sig .tc := ⟨.hbm, 889, rfl⟩
abbrev main_v723 : Ref sig .tc := ⟨.hbm, 890, rfl⟩
abbrev main_cst_163 : Ref sig .tc := ⟨.hbm, 891, rfl⟩
abbrev main_v724 : Ref sig .tc := ⟨.hbm, 892, rfl⟩
abbrev main_v725 : Ref sig .tc := ⟨.hbm, 893, rfl⟩
abbrev main_cst_164 : Ref sig .tc := ⟨.hbm, 894, rfl⟩
abbrev main_v726 : Ref sig .tc := ⟨.hbm, 895, rfl⟩
abbrev main_v727 : Ref sig .tc := ⟨.hbm, 896, rfl⟩
abbrev main_v728 : Ref sig .tc := ⟨.hbm, 897, rfl⟩
abbrev main_cst_165 : Ref sig .tc := ⟨.hbm, 898, rfl⟩
abbrev main_v729 : Ref sig .tc := ⟨.hbm, 899, rfl⟩
abbrev main_v730 : Ref sig .tc := ⟨.hbm, 900, rfl⟩
abbrev main_v731 : Ref sig .tc := ⟨.hbm, 901, rfl⟩
abbrev main_v732 : Ref sig .tc := ⟨.hbm, 902, rfl⟩
abbrev main_cst_166 : Ref sig .tc := ⟨.hbm, 903, rfl⟩
abbrev main_v733 : Ref sig .tc := ⟨.hbm, 904, rfl⟩
abbrev main_v734 : Ref sig .tc := ⟨.hbm, 905, rfl⟩
abbrev main_v735 : Ref sig .tc := ⟨.hbm, 906, rfl⟩
abbrev main_v736 : Ref sig .tc := ⟨.hbm, 907, rfl⟩
abbrev main_v737 : Ref sig .tc := ⟨.hbm, 908, rfl⟩
abbrev main_v738 : Ref sig .tc := ⟨.hbm, 909, rfl⟩
abbrev main_v739 : Ref sig .tc := ⟨.hbm, 910, rfl⟩
abbrev main_v740 : Ref sig .tc := ⟨.hbm, 911, rfl⟩
abbrev main_v741 : Ref sig .tc := ⟨.hbm, 912, rfl⟩
abbrev main_v742 : Ref sig .tc := ⟨.hbm, 913, rfl⟩
abbrev main_cst_167 : Ref sig .tc := ⟨.hbm, 914, rfl⟩
abbrev main_v743 : Ref sig .tc := ⟨.hbm, 915, rfl⟩
abbrev main_v744 : Ref sig .tc := ⟨.hbm, 916, rfl⟩
abbrev main_cst_168 : Ref sig .tc := ⟨.hbm, 917, rfl⟩
abbrev main_v745 : Ref sig .tc := ⟨.hbm, 918, rfl⟩
abbrev main_v746 : Ref sig .tc := ⟨.hbm, 919, rfl⟩
abbrev main_v747 : Ref sig .tc := ⟨.hbm, 920, rfl⟩
abbrev main_cst_169 : Ref sig .tc := ⟨.hbm, 921, rfl⟩
abbrev main_v748 : Ref sig .tc := ⟨.hbm, 922, rfl⟩
abbrev main_v749 : Ref sig .tc := ⟨.hbm, 923, rfl⟩
abbrev main_v750 : Ref sig .tc := ⟨.hbm, 924, rfl⟩
abbrev main_v751 : Ref sig .tc := ⟨.hbm, 925, rfl⟩
abbrev main_cst_170 : Ref sig .tc := ⟨.hbm, 926, rfl⟩
abbrev main_v752 : Ref sig .tc := ⟨.hbm, 927, rfl⟩
abbrev main_v753 : Ref sig .tc := ⟨.hbm, 928, rfl⟩
abbrev main_v754 : Ref sig .tc := ⟨.hbm, 929, rfl⟩
abbrev main_v755 : Ref sig .tc := ⟨.hbm, 930, rfl⟩
abbrev main_v756 : Ref sig .tc := ⟨.hbm, 931, rfl⟩
abbrev main_v757 : Ref sig .tc := ⟨.hbm, 932, rfl⟩
abbrev main_v758 : Ref sig .tc := ⟨.hbm, 933, rfl⟩
abbrev main_v759 : Ref sig .tc := ⟨.hbm, 934, rfl⟩
abbrev main_v760 : Ref sig .tc := ⟨.hbm, 935, rfl⟩
abbrev main_v761 : Ref sig .tc := ⟨.hbm, 936, rfl⟩
abbrev main_v762 : Ref sig .tc := ⟨.hbm, 937, rfl⟩
abbrev main_cst_171 : Ref sig .tc := ⟨.hbm, 938, rfl⟩
abbrev main_v763 : Ref sig .tc := ⟨.hbm, 939, rfl⟩
abbrev main_v764 : Ref sig .tc := ⟨.hbm, 940, rfl⟩
abbrev main_cst_172 : Ref sig .tc := ⟨.hbm, 941, rfl⟩
abbrev main_v765 : Ref sig .tc := ⟨.hbm, 942, rfl⟩
abbrev main_v766 : Ref sig .tc := ⟨.hbm, 943, rfl⟩
abbrev main_v767 : Ref sig .tc := ⟨.hbm, 944, rfl⟩
abbrev main_cst_173 : Ref sig .tc := ⟨.hbm, 945, rfl⟩
abbrev main_v768 : Ref sig .tc := ⟨.hbm, 946, rfl⟩
abbrev main_v769 : Ref sig .tc := ⟨.hbm, 947, rfl⟩
abbrev main_v770 : Ref sig .tc := ⟨.hbm, 948, rfl⟩
abbrev main_v771 : Ref sig .tc := ⟨.hbm, 949, rfl⟩
abbrev main_cst_174 : Ref sig .tc := ⟨.hbm, 950, rfl⟩
abbrev main_v772 : Ref sig .tc := ⟨.hbm, 951, rfl⟩
abbrev main_v773 : Ref sig .tc := ⟨.hbm, 952, rfl⟩
abbrev main_v774 : Ref sig .tc := ⟨.hbm, 953, rfl⟩
abbrev main_c_175 : Ref sig .tc := ⟨.hbm, 954, rfl⟩
abbrev main_v775 : Ref sig .tc := ⟨.hbm, 955, rfl⟩
abbrev main_c_176 : Ref sig .tc := ⟨.hbm, 956, rfl⟩
abbrev main_v776 : Ref sig .tc := ⟨.hbm, 957, rfl⟩
abbrev main_c_177 : Ref sig .tc := ⟨.hbm, 958, rfl⟩
abbrev main_v777 : Ref sig .tc := ⟨.hbm, 959, rfl⟩
abbrev main_v778 : Ref sig .tc := ⟨.hbm, 960, rfl⟩
abbrev main_v779 : Ref sig .tc := ⟨.hbm, 961, rfl⟩
abbrev main_v780 : Ref sig .tc := ⟨.hbm, 962, rfl⟩
abbrev main_v781 : Ref sig .tc := ⟨.hbm, 963, rfl⟩
abbrev main_v782 : Ref sig .tc := ⟨.hbm, 964, rfl⟩
abbrev main_v783 : Ref sig .tc := ⟨.hbm, 965, rfl⟩
abbrev main_v784 : Ref sig .tc := ⟨.hbm, 966, rfl⟩
abbrev main_v785 : Ref sig .tc := ⟨.hbm, 967, rfl⟩
abbrev main_v786 : Ref sig .tc := ⟨.hbm, 968, rfl⟩
abbrev main_v787 : Ref sig .tc := ⟨.hbm, 969, rfl⟩
abbrev main_cst_178 : Ref sig .tc := ⟨.hbm, 970, rfl⟩
abbrev main_v788 : Ref sig .tc := ⟨.hbm, 971, rfl⟩
abbrev main_v789 : Ref sig .tc := ⟨.hbm, 972, rfl⟩
abbrev main_cst_179 : Ref sig .tc := ⟨.hbm, 973, rfl⟩
abbrev main_v790 : Ref sig .tc := ⟨.hbm, 974, rfl⟩
abbrev main_v791 : Ref sig .tc := ⟨.hbm, 975, rfl⟩
abbrev main_v792 : Ref sig .tc := ⟨.hbm, 976, rfl⟩
abbrev main_cst_180 : Ref sig .tc := ⟨.hbm, 977, rfl⟩
abbrev main_v793 : Ref sig .tc := ⟨.hbm, 978, rfl⟩
abbrev main_v794 : Ref sig .tc := ⟨.hbm, 979, rfl⟩
abbrev main_v795 : Ref sig .tc := ⟨.hbm, 980, rfl⟩
abbrev main_v796 : Ref sig .tc := ⟨.hbm, 981, rfl⟩
abbrev main_cst_181 : Ref sig .tc := ⟨.hbm, 982, rfl⟩
abbrev main_v797 : Ref sig .tc := ⟨.hbm, 983, rfl⟩
abbrev main_v798 : Ref sig .tc := ⟨.hbm, 984, rfl⟩
abbrev main_v799 : Ref sig .tc := ⟨.hbm, 985, rfl⟩
abbrev main_v800 : Ref sig .tc := ⟨.hbm, 986, rfl⟩
abbrev main_v801 : Ref sig .tc := ⟨.hbm, 987, rfl⟩
abbrev main_v802 : Ref sig .tc := ⟨.hbm, 988, rfl⟩
abbrev main_v803 : Ref sig .tc := ⟨.hbm, 989, rfl⟩
abbrev main_v804 : Ref sig .tc := ⟨.hbm, 990, rfl⟩
abbrev main_v805 : Ref sig .tc := ⟨.hbm, 991, rfl⟩
abbrev main_v806 : Ref sig .tc := ⟨.hbm, 992, rfl⟩
abbrev main_cst_182 : Ref sig .tc := ⟨.hbm, 993, rfl⟩
abbrev main_v807 : Ref sig .tc := ⟨.hbm, 994, rfl⟩
abbrev main_v808 : Ref sig .tc := ⟨.hbm, 995, rfl⟩
abbrev main_cst_183 : Ref sig .tc := ⟨.hbm, 996, rfl⟩
abbrev main_v809 : Ref sig .tc := ⟨.hbm, 997, rfl⟩
abbrev main_v810 : Ref sig .tc := ⟨.hbm, 998, rfl⟩
abbrev main_v811 : Ref sig .tc := ⟨.hbm, 999, rfl⟩
abbrev main_cst_184 : Ref sig .tc := ⟨.hbm, 1000, rfl⟩
abbrev main_v812 : Ref sig .tc := ⟨.hbm, 1001, rfl⟩
abbrev main_v813 : Ref sig .tc := ⟨.hbm, 1002, rfl⟩
abbrev main_v814 : Ref sig .tc := ⟨.hbm, 1003, rfl⟩
abbrev main_v815 : Ref sig .tc := ⟨.hbm, 1004, rfl⟩
abbrev main_cst_185 : Ref sig .tc := ⟨.hbm, 1005, rfl⟩
abbrev main_v816 : Ref sig .tc := ⟨.hbm, 1006, rfl⟩
abbrev main_v817 : Ref sig .tc := ⟨.hbm, 1007, rfl⟩
abbrev main_v818 : Ref sig .tc := ⟨.hbm, 1008, rfl⟩
abbrev main_v819 : Ref sig .tc := ⟨.hbm, 1009, rfl⟩
abbrev main_v820 : Ref sig .tc := ⟨.hbm, 1010, rfl⟩
abbrev main_v821 : Ref sig .tc := ⟨.hbm, 1011, rfl⟩
abbrev main_v822 : Ref sig .tc := ⟨.hbm, 1012, rfl⟩
abbrev main_v823 : Ref sig .tc := ⟨.hbm, 1013, rfl⟩
abbrev main_v824 : Ref sig .tc := ⟨.hbm, 1014, rfl⟩
abbrev main_v825 : Ref sig .tc := ⟨.hbm, 1015, rfl⟩
abbrev main_v826 : Ref sig .tc := ⟨.hbm, 1016, rfl⟩
abbrev main_cst_186 : Ref sig .tc := ⟨.hbm, 1017, rfl⟩
abbrev main_v827 : Ref sig .tc := ⟨.hbm, 1018, rfl⟩
abbrev main_v828 : Ref sig .tc := ⟨.hbm, 1019, rfl⟩
abbrev main_cst_187 : Ref sig .tc := ⟨.hbm, 1020, rfl⟩
abbrev main_v829 : Ref sig .tc := ⟨.hbm, 1021, rfl⟩
abbrev main_v830 : Ref sig .tc := ⟨.hbm, 1022, rfl⟩
abbrev main_v831 : Ref sig .tc := ⟨.hbm, 1023, rfl⟩
abbrev main_cst_188 : Ref sig .tc := ⟨.hbm, 1024, rfl⟩
abbrev main_v832 : Ref sig .tc := ⟨.hbm, 1025, rfl⟩
abbrev main_v833 : Ref sig .tc := ⟨.hbm, 1026, rfl⟩
abbrev main_v834 : Ref sig .tc := ⟨.hbm, 1027, rfl⟩
abbrev main_v835 : Ref sig .tc := ⟨.hbm, 1028, rfl⟩
abbrev main_cst_189 : Ref sig .tc := ⟨.hbm, 1029, rfl⟩
abbrev main_v836 : Ref sig .tc := ⟨.hbm, 1030, rfl⟩
abbrev main_v837 : Ref sig .tc := ⟨.hbm, 1031, rfl⟩
abbrev main_v838 : Ref sig .tc := ⟨.hbm, 1032, rfl⟩
abbrev main_c_190 : Ref sig .tc := ⟨.hbm, 1033, rfl⟩
abbrev main_v839 : Ref sig .tc := ⟨.hbm, 1034, rfl⟩
abbrev main_c_191 : Ref sig .tc := ⟨.hbm, 1035, rfl⟩
abbrev main_v840 : Ref sig .tc := ⟨.hbm, 1036, rfl⟩
abbrev main_c_192 : Ref sig .tc := ⟨.hbm, 1037, rfl⟩
abbrev main_v841 : Ref sig .tc := ⟨.hbm, 1038, rfl⟩
abbrev main_v842 : Ref sig .tc := ⟨.hbm, 1039, rfl⟩
abbrev main_v843 : Ref sig .tc := ⟨.hbm, 1040, rfl⟩
abbrev main_v844 : Ref sig .tc := ⟨.hbm, 1041, rfl⟩
abbrev main_v845 : Ref sig .tc := ⟨.hbm, 1042, rfl⟩
abbrev main_v846 : Ref sig .tc := ⟨.hbm, 1043, rfl⟩
abbrev main_v847 : Ref sig .tc := ⟨.hbm, 1044, rfl⟩
abbrev main_v848 : Ref sig .tc := ⟨.hbm, 1045, rfl⟩
abbrev main_cst_193 : Ref sig .tc := ⟨.hbm, 1046, rfl⟩
abbrev main_v849 : Ref sig .tc := ⟨.hbm, 1047, rfl⟩
abbrev main_cst_194 : Ref sig .tc := ⟨.hbm, 1048, rfl⟩
abbrev main_v850 : Ref sig .tc := ⟨.hbm, 1049, rfl⟩
abbrev main_cst_195 : Ref sig .tc := ⟨.hbm, 1050, rfl⟩
abbrev main_v851 : Ref sig .tc := ⟨.hbm, 1051, rfl⟩
abbrev main_cst_196 : Ref sig .tc := ⟨.hbm, 1052, rfl⟩
abbrev main_v852 : Ref sig .tc := ⟨.hbm, 1053, rfl⟩

abbrev nD : Nat := 1
abbrev τ : Topo := Topo.v7x

variable {F : FTy → Type} [FloatOps F]

class Facts₀ : Prop where
  shapeCasts_S16x1x128x128x128_S16x128x128x128 : S16x1x128x128x128.ShapeCasts S16x128x128x128
  bcast_S_S16x128x128x128 : S_.BroadcastsInDim S16x128x128x128 (![] : Fin 0 → Fin S16x128x128x128.rank)
  slices_S16x128x128x128_S16x126x126x126_0_1_1_1 : S16x128x128x128.Slices ![0, 1, 1, 1] S16x126x126x126
  slices_S16x128x128x128_S16x126x126x126_0_2_1_1 : S16x128x128x128.Slices ![0, 2, 1, 1] S16x126x126x126
  slices_S16x128x128x128_S16x126x126x126_0_0_1_1 : S16x128x128x128.Slices ![0, 0, 1, 1] S16x126x126x126
  bcast_S_S16x126x126x126 : S_.BroadcastsInDim S16x126x126x126 (![] : Fin 0 → Fin S16x126x126x126.rank)
  slices_S16x128x128x128_S16x126x126x126_0_1_2_1 : S16x128x128x128.Slices ![0, 1, 2, 1] S16x126x126x126
  slices_S16x128x128x128_S16x126x126x126_0_1_0_1 : S16x128x128x128.Slices ![0, 1, 0, 1] S16x126x126x126
  slices_S16x128x128x128_S16x126x126x126_0_1_1_2 : S16x128x128x128.Slices ![0, 1, 1, 2] S16x126x126x126
  slices_S16x128x128x128_S16x126x126x126_0_1_1_0 : S16x128x128x128.Slices ![0, 1, 1, 0] S16x126x126x126
  bcast_S_S1 : S_.BroadcastsInDim S1 (![] : Fin 0 → Fin S1.rank)
  concatenates_S1_S1_S1_S3_d0 : Shape.Concatenates [S1, S1, S1] S3 0
  slices_S16x128x128x128_S16x1x126x126_0_0_1_1 : S16x128x128x128.Slices ![0, 0, 1, 1] S16x1x126x126
  shapeCasts_S16x1x126x126_S16x126x126 : S16x1x126x126.ShapeCasts S16x126x126
  slices_S16x128x128x128_S16x1x126x126_0_1_1_1 : S16x128x128x128.Slices ![0, 1, 1, 1] S16x1x126x126
  slices_S16x128x128x128_S16x1x126x126_0_2_1_1 : S16x128x128x128.Slices ![0, 2, 1, 1] S16x1x126x126
  slices_S16x128x128x128_S16x1x126x126_0_3_1_1 : S16x128x128x128.Slices ![0, 3, 1, 1] S16x1x126x126
  bcast_S_S16x126x126 : S_.BroadcastsInDim S16x126x126 (![] : Fin 0 → Fin S16x126x126.rank)
  slices_S16x128x128x128_S16x1x126x126_0_0_2_1 : S16x128x128x128.Slices ![0, 0, 2, 1] S16x1x126x126
  slices_S16x128x128x128_S16x1x126x126_0_0_0_1 : S16x128x128x128.Slices ![0, 0, 0, 1] S16x1x126x126
  slices_S16x128x128x128_S16x1x126x126_0_0_1_2 : S16x128x128x128.Slices ![0, 0, 1, 2] S16x1x126x126
  slices_S16x128x128x128_S16x1x126x126_0_0_1_0 : S16x128x128x128.Slices ![0, 0, 1, 0] S16x1x126x126
  slices_S16x128x128x128_S16x1x126x126_0_127_1_1 : S16x128x128x128.Slices ![0, 127, 1, 1] S16x1x126x126
  slices_S16x128x128x128_S16x1x126x126_0_126_1_1 : S16x128x128x128.Slices ![0, 126, 1, 1] S16x1x126x126
  slices_S16x128x128x128_S16x1x126x126_0_125_1_1 : S16x128x128x128.Slices ![0, 125, 1, 1] S16x1x126x126
  slices_S16x128x128x128_S16x1x126x126_0_124_1_1 : S16x128x128x128.Slices ![0, 124, 1, 1] S16x1x126x126
  slices_S16x128x128x128_S16x1x126x126_0_127_2_1 : S16x128x128x128.Slices ![0, 127, 2, 1] S16x1x126x126
  slices_S16x128x128x128_S16x1x126x126_0_127_0_1 : S16x128x128x128.Slices ![0, 127, 0, 1] S16x1x126x126
  slices_S16x128x128x128_S16x1x126x126_0_127_1_2 : S16x128x128x128.Slices ![0, 127, 1, 2] S16x1x126x126
  slices_S16x128x128x128_S16x1x126x126_0_127_1_0 : S16x128x128x128.Slices ![0, 127, 1, 0] S16x1x126x126
  slices_S16x128x128x128_S16x126x1x126_0_2_0_1 : S16x128x128x128.Slices ![0, 2, 0, 1] S16x126x1x126
  shapeCasts_S16x126x1x126_S16x126x126 : S16x126x1x126.ShapeCasts S16x126x126
  slices_S16x128x128x128_S16x126x1x126_0_1_0_1 : S16x128x128x128.Slices ![0, 1, 0, 1] S16x126x1x126
  slices_S16x128x128x128_S16x126x1x126_0_0_0_1 : S16x128x128x128.Slices ![0, 0, 0, 1] S16x126x1x126
  slices_S16x128x128x128_S16x126x1x126_0_1_1_1 : S16x128x128x128.Slices ![0, 1, 1, 1] S16x126x1x126
  slices_S16x128x128x128_S16x126x1x126_0_1_2_1 : S16x128x128x128.Slices ![0, 1, 2, 1] S16x126x1x126
  slices_S16x128x128x128_S16x126x1x126_0_1_3_1 : S16x128x128x128.Slices ![0, 1, 3, 1] S16x126x1x126
  slices_S16x128x128x128_S16x126x1x126_0_1_0_2 : S16x128x128x128.Slices ![0, 1, 0, 2] S16x126x1x126
  slices_S16x128x128x128_S16x126x1x126_0_1_0_0 : S16x128x128x128.Slices ![0, 1, 0, 0] S16x126x1x126
  slices_S16x128x128x128_S16x126x1x126_0_2_127_1 : S16x128x128x128.Slices ![0, 2, 127, 1] S16x126x1x126
  slices_S16x128x128x128_S16x126x1x126_0_1_127_1 : S16x128x128x128.Slices ![0, 1, 127, 1] S16x126x1x126
  slices_S16x128x128x128_S16x126x1x126_0_0_127_1 : S16x128x128x128.Slices ![0, 0, 127, 1] S16x126x1x126
  slices_S16x128x128x128_S16x126x1x126_0_1_126_1 : S16x128x128x128.Slices ![0, 1, 126, 1] S16x126x1x126
  slices_S16x128x128x128_S16x126x1x126_0_1_125_1 : S16x128x128x128.Slices ![0, 1, 125, 1] S16x126x1x126
  slices_S16x128x128x128_S16x126x1x126_0_1_124_1 : S16x128x128x128.Slices ![0, 1, 124, 1] S16x126x1x126
  slices_S16x128x128x128_S16x126x1x126_0_1_127_2 : S16x128x128x128.Slices ![0, 1, 127, 2] S16x126x1x126
  slices_S16x128x128x128_S16x126x1x126_0_1_127_0 : S16x128x128x128.Slices ![0, 1, 127, 0] S16x126x1x126
  slices_S16x128x128x128_S16x126x126x1_0_2_1_0 : S16x128x128x128.Slices ![0, 2, 1, 0] S16x126x126x1
  shapeCasts_S16x126x126x1_S16x126x126 : S16x126x126x1.ShapeCasts S16x126x126
  slices_S16x128x128x128_S16x126x126x1_0_1_1_0 : S16x128x128x128.Slices ![0, 1, 1, 0] S16x126x126x1
  slices_S16x128x128x128_S16x126x126x1_0_0_1_0 : S16x128x128x128.Slices ![0, 0, 1, 0] S16x126x126x1
  slices_S16x128x128x128_S16x126x126x1_0_1_2_0 : S16x128x128x128.Slices ![0, 1, 2, 0] S16x126x126x1
  slices_S16x128x128x128_S16x126x126x1_0_1_0_0 : S16x128x128x128.Slices ![0, 1, 0, 0] S16x126x126x1
  slices_S16x128x128x128_S16x126x126x1_0_1_1_1 : S16x128x128x128.Slices ![0, 1, 1, 1] S16x126x126x1
  slices_S16x128x128x128_S16x126x126x1_0_1_1_2 : S16x128x128x128.Slices ![0, 1, 1, 2] S16x126x126x1
  slices_S16x128x128x128_S16x126x126x1_0_1_1_3 : S16x128x128x128.Slices ![0, 1, 1, 3] S16x126x126x1
  slices_S16x128x128x128_S16x126x126x1_0_2_1_127 : S16x128x128x128.Slices ![0, 2, 1, 127] S16x126x126x1
  slices_S16x128x128x128_S16x126x126x1_0_1_1_127 : S16x128x128x128.Slices ![0, 1, 1, 127] S16x126x126x1
  slices_S16x128x128x128_S16x126x126x1_0_0_1_127 : S16x128x128x128.Slices ![0, 0, 1, 127] S16x126x126x1
  slices_S16x128x128x128_S16x126x126x1_0_1_2_127 : S16x128x128x128.Slices ![0, 1, 2, 127] S16x126x126x1
  slices_S16x128x128x128_S16x126x126x1_0_1_0_127 : S16x128x128x128.Slices ![0, 1, 0, 127] S16x126x126x1
  slices_S16x128x128x128_S16x126x126x1_0_1_1_126 : S16x128x128x128.Slices ![0, 1, 1, 126] S16x126x126x1
  slices_S16x128x128x128_S16x126x126x1_0_1_1_125 : S16x128x128x128.Slices ![0, 1, 1, 125] S16x126x126x1
  slices_S16x128x128x128_S16x126x126x1_0_1_1_124 : S16x128x128x128.Slices ![0, 1, 1, 124] S16x126x126x1
  slices_S16x128x128x128_S16x1x1x1_0_0_0_0 : S16x128x128x128.Slices ![0, 0, 0, 0] S16x1x1x1
  shapeCasts_S16x1x1x1_S16 : S16x1x1x1.ShapeCasts S16
  slices_S16x128x128x128_S16x1x1x1_0_1_0_0 : S16x128x128x128.Slices ![0, 1, 0, 0] S16x1x1x1
  slices_S16x128x128x128_S16x1x1x1_0_2_0_0 : S16x128x128x128.Slices ![0, 2, 0, 0] S16x1x1x1
  slices_S16x128x128x128_S16x1x1x1_0_3_0_0 : S16x128x128x128.Slices ![0, 3, 0, 0] S16x1x1x1
  bcast_S_S16 : S_.BroadcastsInDim S16 (![] : Fin 0 → Fin S16.rank)
  slices_S16x128x128x128_S16x1x1x1_0_0_1_0 : S16x128x128x128.Slices ![0, 0, 1, 0] S16x1x1x1
  slices_S16x128x128x128_S16x1x1x1_0_0_2_0 : S16x128x128x128.Slices ![0, 0, 2, 0] S16x1x1x1
  slices_S16x128x128x128_S16x1x1x1_0_0_3_0 : S16x128x128x128.Slices ![0, 0, 3, 0] S16x1x1x1
  slices_S16x128x128x128_S16x1x1x1_0_0_0_1 : S16x128x128x128.Slices ![0, 0, 0, 1] S16x1x1x1
  slices_S16x128x128x128_S16x1x1x1_0_0_0_2 : S16x128x128x128.Slices ![0, 0, 0, 2] S16x1x1x1
  slices_S16x128x128x128_S16x1x1x1_0_0_0_3 : S16x128x128x128.Slices ![0, 0, 0, 3] S16x1x1x1
  slices_S16x128x128x128_S16x1x1x1_0_0_0_127 : S16x128x128x128.Slices ![0, 0, 0, 127] S16x1x1x1
  slices_S16x128x128x128_S16x1x1x1_0_1_0_127 : S16x128x128x128.Slices ![0, 1, 0, 127] S16x1x1x1
  slices_S16x128x128x128_S16x1x1x1_0_2_0_127 : S16x128x128x128.Slices ![0, 2, 0, 127] S16x1x1x1
  slices_S16x128x128x128_S16x1x1x1_0_3_0_127 : S16x128x128x128.Slices ![0, 3, 0, 127] S16x1x1x1
  slices_S16x128x128x128_S16x1x1x1_0_0_1_127 : S16x128x128x128.Slices ![0, 0, 1, 127] S16x1x1x1
  slices_S16x128x128x128_S16x1x1x1_0_0_2_127 : S16x128x128x128.Slices ![0, 0, 2, 127] S16x1x1x1
  slices_S16x128x128x128_S16x1x1x1_0_0_3_127 : S16x128x128x128.Slices ![0, 0, 3, 127] S16x1x1x1
  slices_S16x128x128x128_S16x1x1x1_0_0_0_126 : S16x128x128x128.Slices ![0, 0, 0, 126] S16x1x1x1
  slices_S16x128x128x128_S16x1x1x1_0_0_0_125 : S16x128x128x128.Slices ![0, 0, 0, 125] S16x1x1x1
  slices_S16x128x128x128_S16x1x1x1_0_0_0_124 : S16x128x128x128.Slices ![0, 0, 0, 124] S16x1x1x1
  slices_S16x128x128x128_S16x1x1x1_0_0_127_0 : S16x128x128x128.Slices ![0, 0, 127, 0] S16x1x1x1
  slices_S16x128x128x128_S16x1x1x1_0_1_127_0 : S16x128x128x128.Slices ![0, 1, 127, 0] S16x1x1x1
  slices_S16x128x128x128_S16x1x1x1_0_2_127_0 : S16x128x128x128.Slices ![0, 2, 127, 0] S16x1x1x1
  slices_S16x128x128x128_S16x1x1x1_0_3_127_0 : S16x128x128x128.Slices ![0, 3, 127, 0] S16x1x1x1
  slices_S16x128x128x128_S16x1x1x1_0_0_126_0 : S16x128x128x128.Slices ![0, 0, 126, 0] S16x1x1x1
  slices_S16x128x128x128_S16x1x1x1_0_0_125_0 : S16x128x128x128.Slices ![0, 0, 125, 0] S16x1x1x1
  slices_S16x128x128x128_S16x1x1x1_0_0_124_0 : S16x128x128x128.Slices ![0, 0, 124, 0] S16x1x1x1
  slices_S16x128x128x128_S16x1x1x1_0_0_127_1 : S16x128x128x128.Slices ![0, 0, 127, 1] S16x1x1x1
  slices_S16x128x128x128_S16x1x1x1_0_0_127_2 : S16x128x128x128.Slices ![0, 0, 127, 2] S16x1x1x1
  slices_S16x128x128x128_S16x1x1x1_0_0_127_3 : S16x128x128x128.Slices ![0, 0, 127, 3] S16x1x1x1
  slices_S16x128x128x128_S16x1x1x1_0_0_127_127 : S16x128x128x128.Slices ![0, 0, 127, 127] S16x1x1x1
  slices_S16x128x128x128_S16x1x1x1_0_1_127_127 : S16x128x128x128.Slices ![0, 1, 127, 127] S16x1x1x1
  slices_S16x128x128x128_S16x1x1x1_0_2_127_127 : S16x128x128x128.Slices ![0, 2, 127, 127] S16x1x1x1
  slices_S16x128x128x128_S16x1x1x1_0_3_127_127 : S16x128x128x128.Slices ![0, 3, 127, 127] S16x1x1x1
  slices_S16x128x128x128_S16x1x1x1_0_0_126_127 : S16x128x128x128.Slices ![0, 0, 126, 127] S16x1x1x1
  slices_S16x128x128x128_S16x1x1x1_0_0_125_127 : S16x128x128x128.Slices ![0, 0, 125, 127] S16x1x1x1
  slices_S16x128x128x128_S16x1x1x1_0_0_124_127 : S16x128x128x128.Slices ![0, 0, 124, 127] S16x1x1x1
  slices_S16x128x128x128_S16x1x1x1_0_0_127_126 : S16x128x128x128.Slices ![0, 0, 127, 126] S16x1x1x1
  slices_S16x128x128x128_S16x1x1x1_0_0_127_125 : S16x128x128x128.Slices ![0, 0, 127, 125] S16x1x1x1
  slices_S16x128x128x128_S16x1x1x1_0_0_127_124 : S16x128x128x128.Slices ![0, 0, 127, 124] S16x1x1x1
  slices_S16x128x128x128_S16x1x1x1_0_127_0_0 : S16x128x128x128.Slices ![0, 127, 0, 0] S16x1x1x1
  slices_S16x128x128x128_S16x1x1x1_0_126_0_0 : S16x128x128x128.Slices ![0, 126, 0, 0] S16x1x1x1
  slices_S16x128x128x128_S16x1x1x1_0_125_0_0 : S16x128x128x128.Slices ![0, 125, 0, 0] S16x1x1x1
  slices_S16x128x128x128_S16x1x1x1_0_124_0_0 : S16x128x128x128.Slices ![0, 124, 0, 0] S16x1x1x1
  slices_S16x128x128x128_S16x1x1x1_0_127_1_0 : S16x128x128x128.Slices ![0, 127, 1, 0] S16x1x1x1
  slices_S16x128x128x128_S16x1x1x1_0_127_2_0 : S16x128x128x128.Slices ![0, 127, 2, 0] S16x1x1x1
  slices_S16x128x128x128_S16x1x1x1_0_127_3_0 : S16x128x128x128.Slices ![0, 127, 3, 0] S16x1x1x1
  slices_S16x128x128x128_S16x1x1x1_0_127_0_1 : S16x128x128x128.Slices ![0, 127, 0, 1] S16x1x1x1
  slices_S16x128x128x128_S16x1x1x1_0_127_0_2 : S16x128x128x128.Slices ![0, 127, 0, 2] S16x1x1x1
  slices_S16x128x128x128_S16x1x1x1_0_127_0_3 : S16x128x128x128.Slices ![0, 127, 0, 3] S16x1x1x1
  slices_S16x128x128x128_S16x1x1x1_0_127_0_127 : S16x128x128x128.Slices ![0, 127, 0, 127] S16x1x1x1
  slices_S16x128x128x128_S16x1x1x1_0_126_0_127 : S16x128x128x128.Slices ![0, 126, 0, 127] S16x1x1x1
  slices_S16x128x128x128_S16x1x1x1_0_125_0_127 : S16x128x128x128.Slices ![0, 125, 0, 127] S16x1x1x1
  slices_S16x128x128x128_S16x1x1x1_0_124_0_127 : S16x128x128x128.Slices ![0, 124, 0, 127] S16x1x1x1
  slices_S16x128x128x128_S16x1x1x1_0_127_1_127 : S16x128x128x128.Slices ![0, 127, 1, 127] S16x1x1x1
  slices_S16x128x128x128_S16x1x1x1_0_127_2_127 : S16x128x128x128.Slices ![0, 127, 2, 127] S16x1x1x1
  slices_S16x128x128x128_S16x1x1x1_0_127_3_127 : S16x128x128x128.Slices ![0, 127, 3, 127] S16x1x1x1
  slices_S16x128x128x128_S16x1x1x1_0_127_0_126 : S16x128x128x128.Slices ![0, 127, 0, 126] S16x1x1x1
  slices_S16x128x128x128_S16x1x1x1_0_127_0_125 : S16x128x128x128.Slices ![0, 127, 0, 125] S16x1x1x1
  slices_S16x128x128x128_S16x1x1x1_0_127_0_124 : S16x128x128x128.Slices ![0, 127, 0, 124] S16x1x1x1
  slices_S16x128x128x128_S16x1x1x1_0_127_127_0 : S16x128x128x128.Slices ![0, 127, 127, 0] S16x1x1x1
  slices_S16x128x128x128_S16x1x1x1_0_126_127_0 : S16x128x128x128.Slices ![0, 126, 127, 0] S16x1x1x1
  slices_S16x128x128x128_S16x1x1x1_0_125_127_0 : S16x128x128x128.Slices ![0, 125, 127, 0] S16x1x1x1
  slices_S16x128x128x128_S16x1x1x1_0_124_127_0 : S16x128x128x128.Slices ![0, 124, 127, 0] S16x1x1x1
  slices_S16x128x128x128_S16x1x1x1_0_127_126_0 : S16x128x128x128.Slices ![0, 127, 126, 0] S16x1x1x1
  slices_S16x128x128x128_S16x1x1x1_0_127_125_0 : S16x128x128x128.Slices ![0, 127, 125, 0] S16x1x1x1
  slices_S16x128x128x128_S16x1x1x1_0_127_124_0 : S16x128x128x128.Slices ![0, 127, 124, 0] S16x1x1x1
  slices_S16x128x128x128_S16x1x1x1_0_127_127_1 : S16x128x128x128.Slices ![0, 127, 127, 1] S16x1x1x1
  slices_S16x128x128x128_S16x1x1x1_0_127_127_2 : S16x128x128x128.Slices ![0, 127, 127, 2] S16x1x1x1
  slices_S16x128x128x128_S16x1x1x1_0_127_127_3 : S16x128x128x128.Slices ![0, 127, 127, 3] S16x1x1x1
  slices_S16x128x128x128_S16x1x1x1_0_127_127_127 : S16x128x128x128.Slices ![0, 127, 127, 127] S16x1x1x1
  slices_S16x128x128x128_S16x1x1x1_0_126_127_127 : S16x128x128x128.Slices ![0, 126, 127, 127] S16x1x1x1
  slices_S16x128x128x128_S16x1x1x1_0_125_127_127 : S16x128x128x128.Slices ![0, 125, 127, 127] S16x1x1x1
  slices_S16x128x128x128_S16x1x1x1_0_124_127_127 : S16x128x128x128.Slices ![0, 124, 127, 127] S16x1x1x1
  slices_S16x128x128x128_S16x1x1x1_0_127_126_127 : S16x128x128x128.Slices ![0, 127, 126, 127] S16x1x1x1
  slices_S16x128x128x128_S16x1x1x1_0_127_125_127 : S16x128x128x128.Slices ![0, 127, 125, 127] S16x1x1x1
  slices_S16x128x128x128_S16x1x1x1_0_127_124_127 : S16x128x128x128.Slices ![0, 127, 124, 127] S16x1x1x1
  slices_S16x128x128x128_S16x1x1x1_0_127_127_126 : S16x128x128x128.Slices ![0, 127, 127, 126] S16x1x1x1
  slices_S16x128x128x128_S16x1x1x1_0_127_127_125 : S16x128x128x128.Slices ![0, 127, 127, 125] S16x1x1x1
  slices_S16x128x128x128_S16x1x1x1_0_127_127_124 : S16x128x128x128.Slices ![0, 127, 127, 124] S16x1x1x1
  slices_S16x1x128x128x128_S16x1x126x126x126_0_0_1_1_1 : S16x1x128x128x128.Slices ![0, 0, 1, 1, 1] S16x1x126x126x126
  shapeCasts_S16x1x126x126x126_S16x126x126x126 : S16x1x126x126x126.ShapeCasts S16x126x126x126
  reducesTo_S16x126x126x126_S_d0_1_2_3 : S16x126x126x126.ReducesTo [0, 1, 2, 3] S_
  h_S_ : 0 < S_.numel
  scatter_S16x128x128x128_S3_S16x126x126x126_0123_n_123_0_wf : ScatterDims.WF S16x128x128x128 S3 S16x126x126x126 [0, 1, 2, 3] [] [1, 2, 3] 0
  scatter_S16x128x128x128_S3_S16x126x126_012_1_123_0_wf : ScatterDims.WF S16x128x128x128 S3 S16x126x126 [0, 1, 2] [1] [1, 2, 3] 0
  scatter_S16x128x128x128_S3_S16x126x126_012_2_123_0_wf : ScatterDims.WF S16x128x128x128 S3 S16x126x126 [0, 1, 2] [2] [1, 2, 3] 0
  scatter_S16x128x128x128_S3_S16x126x126_012_3_123_0_wf : ScatterDims.WF S16x128x128x128 S3 S16x126x126 [0, 1, 2] [3] [1, 2, 3] 0
  scatter_S16x128x128x128_S3_S16_0_123_123_0_wf : ScatterDims.WF S16x128x128x128 S3 S16 [0] [1, 2, 3] [1, 2, 3] 0

variable [Facts₀]

def scatter_S16x128x128x128_S3_S16x126x126x126_0123_n_123_0 : ScatterDims S16x128x128x128 S3 S16x126x126x126 where
  updateWindowDims := [0, 1, 2, 3]
  insertedWindowDims := []
  scatterDimsToOperandDims := [1, 2, 3]
  indexVectorDim := 0
  wf := scatter_S16x128x128x128_S3_S16x126x126x126_0123_n_123_0_wf
def scatter_S16x128x128x128_S3_S16x126x126_012_1_123_0 : ScatterDims S16x128x128x128 S3 S16x126x126 where
  updateWindowDims := [0, 1, 2]
  insertedWindowDims := [1]
  scatterDimsToOperandDims := [1, 2, 3]
  indexVectorDim := 0
  wf := scatter_S16x128x128x128_S3_S16x126x126_012_1_123_0_wf
def scatter_S16x128x128x128_S3_S16x126x126_012_2_123_0 : ScatterDims S16x128x128x128 S3 S16x126x126 where
  updateWindowDims := [0, 1, 2]
  insertedWindowDims := [2]
  scatterDimsToOperandDims := [1, 2, 3]
  indexVectorDim := 0
  wf := scatter_S16x128x128x128_S3_S16x126x126_012_2_123_0_wf
def scatter_S16x128x128x128_S3_S16x126x126_012_3_123_0 : ScatterDims S16x128x128x128 S3 S16x126x126 where
  updateWindowDims := [0, 1, 2]
  insertedWindowDims := [3]
  scatterDimsToOperandDims := [1, 2, 3]
  indexVectorDim := 0
  wf := scatter_S16x128x128x128_S3_S16x126x126_012_3_123_0_wf
def scatter_S16x128x128x128_S3_S16_0_123_123_0 : ScatterDims S16x128x128x128 S3 S16 where
  updateWindowDims := [0]
  insertedWindowDims := [1, 2, 3]
  scatterDimsToOperandDims := [1, 2, 3]
  indexVectorDim := 0
  wf := scatter_S16x128x128x128_S3_S16_0_123_123_0_wf

class Facts : Prop extends Facts₀ where

variable [Facts]
-- ==== Proof.Stencil.lean ====
/-
  The squared residual of the seven-point Laplacian on the interior of a 128 x 128 x 128 grid, as a function on the
  extended reals, in the two arrangements the programs compute it in, and the two totals built from it.

  Both arrangements take a field `x` and data `d` over [16, 1, 128, 128, 128] and an interior point
  (b; p, q, r), p q r < 126, standing for the grid point (p + 1, q + 1, r + 1) of batch b.  With s = 16384:

    fused arrangement     (s * ((six neighbours summed) - 6 * centre) + d)^2
    per-axis arrangement  ((n₊ + n₋ - 2 c) * s  +  (e₊ + e₋ - 2 c) * s  +  (u₊ + u₋ - 2 c) * s  +  d)^2, every field
                          value first divided by 1.

  On real values the two agree by distributivity; on the extended reals they need not, which is where the finiteness of
  the inputs is used.
-/
import Idealize.ShloMosaic.PureOps.Ideal
import Idealize.ShloMosaic.Lib.ValueIdx

noncomputable section

open scoped BigOperators

namespace Cert.Stencil

open Idealize.ShloMosaic Idealize.ShloMosaic.ValueIdx

/-- The shape of both argument arrays. -/
abbrev Field : Shape := ⟨5, ![16, 1, 128, 128, 128]⟩
/-- The interior points of all batches. -/
abbrev Inner : Shape := ⟨4, ![16, 126, 126, 126]⟩

/-- An interior coordinate's lower neighbour, itself, and its upper neighbour, as grid coordinates. -/
def lo (p : Fin 126) : Fin 128 := ⟨p.val, by omega⟩
def mid (p : Fin 126) : Fin 128 := ⟨p.val + 1, by omega⟩
def hi (p : Fin 126) : Fin 128 := ⟨p.val + 2, by omega⟩

/-- An array's value at batch `b`, grid point (i, j, k). -/
def at5 (x : Field.Idx → EReal) (b : Fin 16) (i j k : Fin 128) : EReal := x (ix5 b (0 : Fin 1) i j k)

/-- The literals of the two programs, as the extended reals their words denote. -/
def scale : EReal := Ideal.ofBits .f32 0x46800000#32    -- 16384
def six : EReal := Ideal.ofBits .f32 0x40C00000#32      -- 6
def two : EReal := Ideal.ofBits .f32 0x40000000#32      -- 2
def one : EReal := Ideal.ofBits .f32 0x3F800000#32      -- 1
def count : EReal := Ideal.ofBits .f32 0x4BF42FC0#32    -- 16 * 126^3 = 32006016
def weight : EReal := Ideal.ofBits .f32 0x3E4CCCCD#32   -- the float nearest 0.2

/-- The fused arrangement of the squared residual at an interior point. -/
def fusedSq (x d : Field.Idx → EReal) (b : Fin 16) (p q r : Fin 126) : EReal :=
  (scale * ((((((at5 x b (hi p) (mid q) (mid r) + at5 x b (lo p) (mid q) (mid r)) + at5 x b (mid p) (hi q) (mid r))
      + at5 x b (mid p) (lo q) (mid r)) + at5 x b (mid p) (mid q) (hi r)) + at5 x b (mid p) (mid q) (lo r))
      - six * at5 x b (mid p) (mid q) (mid r)) + at5 d b (mid p) (mid q) (mid r))
  * (scale * ((((((at5 x b (hi p) (mid q) (mid r) + at5 x b (lo p) (mid q) (mid r)) + at5 x b (mid p) (hi q) (mid r))
      + at5 x b (mid p) (lo q) (mid r)) + at5 x b (mid p) (mid q) (hi r)) + at5 x b (mid p) (mid q) (lo r))
      - six * at5 x b (mid p) (mid q) (mid r)) + at5 d b (mid p) (mid q) (mid r))

/-- A field value divided by one, as the per-axis arrangement reads it. -/
def over1 (x : Field.Idx → EReal) (b : Fin 16) (i j k : Fin 128) : EReal := Ideal.div (at5 x b i j k) one

/-- The per-axis Laplacian plus the data at an interior point. -/
def axisResidual (x d : Field.Idx → EReal) (b : Fin 16) (p q r : Fin 126) : EReal :=
  ((((over1 x b (hi p) (mid q) (mid r) + over1 x b (lo p) (mid q) (mid r)) - two * over1 x b (mid p) (mid q) (mid r)) * scale
    + ((over1 x b (mid p) (hi q) (mid r) + over1 x b (mid p) (lo q) (mid r)) - two * over1 x b (mid p) (mid q) (mid r)) * scale)
    + ((over1 x b (mid p) (mid q) (hi r) + over1 x b (mid p) (mid q) (lo r)) - two * over1 x b (mid p) (mid q) (mid r)) * scale)
  + at5 d b (mid p) (mid q) (mid r)

/-- The per-axis arrangement of the squared residual at an interior point. -/
def axisSq (x d : Field.Idx → EReal) (b : Fin 16) (p q r : Fin 126) : EReal :=
  axisResidual x d b p q r * axisResidual x d b p q r

/-- The planes of one batch are taken nine at a time: plane `p'` of group `c`. -/
def plane (c : Fin 14) (p' : Fin 9) : Fin 126 := ⟨9 * c.val + p'.val, by omega⟩

/-- One batch's sum of fused squared residuals, in the order it is accumulated: for each (q, r) over the fourteen
    groups of nine planes, then over r, then over q. -/
def batchSum (x d : Field.Idx → EReal) (b : Fin 16) : EReal :=
  ∑ q : Fin 126, ∑ r : Fin 126, ∑ c : Fin 14, ∑ p' : Fin 9, fusedSq x d b (plane c p') q r

/-- Batch `j` of half `g` of the sixteen batches. -/
def batchOf (g : Fin 2) (j : Fin 8) : Fin 16 := ⟨8 * g.val + j.val, by omega⟩

/-- The loss as the fused program forms it: the two halves' sums of batch sums added, divided by the number of interior
    points, times one, times the weight. -/
def fusedLoss (x d : Field.Idx → EReal) : EReal :=
  (one * Ideal.div ((∑ j : Fin 8, batchSum x d (batchOf 0 j)) + (∑ j : Fin 8, batchSum x d (batchOf 1 j))) count) * weight

/-- The loss as the per-axis program forms it: zero plus the sum over every interior point of every batch, divided by
    the number of interior points, times one, times the weight. -/
def axisLoss (x d : Field.Idx → EReal) : EReal :=
  (one * Ideal.div (0 + ∑ i : Inner.Idx, axisSq x d (i 0) (i 1) (i 2) (i 3)) count) * weight

end Cert.Stencil

end
-- ==== Proof.KernelChunk.lean ====
/-
  One group of nine planes.  The body takes the planes of a batch nine at a time: it loads eleven consecutive planes
  of the field (the nine and one on either side) and the nine planes of the data cut to their interior, forms the
  residual s * ((six neighbours) - 6 * centre) + data at each of the 9 x 126 x 126 interior points, squares it, and
  sums the squares over the nine planes.  Here that value is one function of the two loaded arrays, read at an index.
-/
import proofs.«112707_j27608049779003_2_alg».proof.Proof.Gen.KernelIdeal.Skeleton
import proofs.«112707_j27608049779003_2_alg».proof.Proof.Stencil
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Fused

open Idealize.ShloMosaic Idealize.ShloMosaic.ValueIdx Cert.KernelIdeal Cert.KernelIdeal.Gen

variable {F : FTy → Type} [FloatOps F]

/-- The residual at each interior point of nine planes, from the eleven loaded planes `v` and the nine data planes `w`. -/
def residual (v : Vec F S1x11x128x128 .f32) (w : Vec F S1x9x126x126 .f32) : FVec F S9x126x126 .f32 :=
  addf
    (mulf (broadcast S9x126x126 (Scalar.ofBits .f32 0x46800000#32))
      (subf
        (addf (addf (addf (addf (addf
          (extractStridedSlice S9x126x126 ![2, 1, 1] (shapeCast S11x128x128 v shapeCasts_S1x11x128x128_S11x128x128) slices_S11x128x128_o2_1_1_S9x126x126)
          (extractStridedSlice S9x126x126 ![0, 1, 1] (shapeCast S11x128x128 v shapeCasts_S1x11x128x128_S11x128x128) slices_S11x128x128_o0_1_1_S9x126x126))
          (extractStridedSlice S9x126x126 ![1, 2, 1] (shapeCast S11x128x128 v shapeCasts_S1x11x128x128_S11x128x128) slices_S11x128x128_o1_2_1_S9x126x126))
          (extractStridedSlice S9x126x126 ![1, 0, 1] (shapeCast S11x128x128 v shapeCasts_S1x11x128x128_S11x128x128) slices_S11x128x128_o1_0_1_S9x126x126))
          (extractStridedSlice S9x126x126 ![1, 1, 2] (shapeCast S11x128x128 v shapeCasts_S1x11x128x128_S11x128x128) slices_S11x128x128_o1_1_2_S9x126x126))
          (extractStridedSlice S9x126x126 ![1, 1, 0] (shapeCast S11x128x128 v shapeCasts_S1x11x128x128_S11x128x128) slices_S11x128x128_o1_1_0_S9x126x126))
        (mulf (broadcast S9x126x126 (Scalar.ofBits .f32 0x40C00000#32))
          (extractStridedSlice S9x126x126 ![1, 1, 1] (shapeCast S11x128x128 v shapeCasts_S1x11x128x128_S11x128x128) slices_S11x128x128_o1_1_1_S9x126x126))))
    (shapeCast S9x126x126 w shapeCasts_S1x9x126x126_S9x126x126)

/-- The squared residuals summed over the nine planes: a [126, 126] array. -/
def planesSum (v : Vec F S1x11x128x128 .f32) (w : Vec F S1x9x126x126 .f32) : FVec F S126x126 .f32 :=
  multiReduction .add [0] S126x126 (mulf (residual v w) (residual v w)) 0x00000000#32 reduces_S9x126x126_S126x126 (.inl rfl) rfl

/-- A unit-stride cut of a rank-3 array read at an index given by coordinates: the source at the offsets plus the
    coordinates. -/
theorem slice3_apply {α : Type} {n0 n1 n2 m0 m1 m2 : ℕ} (o0 o1 o2 : ℕ) (X : (⟨3, ![n0, n1, n2]⟩ : Shape).Idx → α)
    (h : (⟨3, ![n0, n1, n2]⟩ : Shape).Slices ![o0, o1, o2] ⟨3, ![m0, m1, m2]⟩) (a : Fin m0) (b : Fin m1) (c : Fin m2)
    (ha : o0 + a.val < n0) (hb : o1 + b.val < n1) (hc : o2 + c.val < n2) :
    extractStridedSlice ⟨3, ![m0, m1, m2]⟩ ![o0, o1, o2] X h (ix3 a b c) = X (ix3 ⟨o0 + a.val, ha⟩ ⟨o1 + b.val, hb⟩ ⟨o2 + c.val, hc⟩) :=
  extractStridedSlice_apply _ X h _ _ (fun d => match d with | ⟨0, _⟩ => rfl | ⟨1, _⟩ => rfl | ⟨2, _⟩ => rfl)

/-- The residual at plane `p'`, row `q`, column `r` of the group, on the extended reals. -/
theorem residual_apply (v : Vec Ideal S1x11x128x128 .f32) (w : Vec Ideal S1x9x126x126 .f32) (p' : Fin 9) (q r : Fin 126) :
    residual v w (ix3 p' q r)
      = Cert.Stencil.scale
          * ((((((v (ix4 (0 : Fin 1) (⟨2 + p'.val, by omega⟩ : Fin 11) (⟨1 + q.val, by omega⟩ : Fin 128) (⟨1 + r.val, by omega⟩ : Fin 128))
              + v (ix4 (0 : Fin 1) (⟨0 + p'.val, by omega⟩ : Fin 11) (⟨1 + q.val, by omega⟩ : Fin 128) (⟨1 + r.val, by omega⟩ : Fin 128)))
              + v (ix4 (0 : Fin 1) (⟨1 + p'.val, by omega⟩ : Fin 11) (⟨2 + q.val, by omega⟩ : Fin 128) (⟨1 + r.val, by omega⟩ : Fin 128)))
              + v (ix4 (0 : Fin 1) (⟨1 + p'.val, by omega⟩ : Fin 11) (⟨0 + q.val, by omega⟩ : Fin 128) (⟨1 + r.val, by omega⟩ : Fin 128)))
              + v (ix4 (0 : Fin 1) (⟨1 + p'.val, by omega⟩ : Fin 11) (⟨1 + q.val, by omega⟩ : Fin 128) (⟨2 + r.val, by omega⟩ : Fin 128)))
              + v (ix4 (0 : Fin 1) (⟨1 + p'.val, by omega⟩ : Fin 11) (⟨1 + q.val, by omega⟩ : Fin 128) (⟨0 + r.val, by omega⟩ : Fin 128)))
            - Cert.Stencil.six * v (ix4 (0 : Fin 1) (⟨1 + p'.val, by omega⟩ : Fin 11) (⟨1 + q.val, by omega⟩ : Fin 128) (⟨1 + r.val, by omega⟩ : Fin 128)))
        + w (ix4 (0 : Fin 1) p' q r) := by
  unfold residual
  simp only [addf_apply, mulf_apply, subf_apply, broadcast_apply]
  rw [slice3_apply 2 1 1 _ _ p' q r (by omega) (by omega) (by omega),
    slice3_apply 0 1 1 _ _ p' q r (by omega) (by omega) (by omega),
    slice3_apply 1 2 1 _ _ p' q r (by omega) (by omega) (by omega),
    slice3_apply 1 0 1 _ _ p' q r (by omega) (by omega) (by omega),
    slice3_apply 1 1 2 _ _ p' q r (by omega) (by omega) (by omega),
    slice3_apply 1 1 0 _ _ p' q r (by omega) (by omega) (by omega),
    slice3_apply 1 1 1 _ _ p' q r (by omega) (by omega) (by omega)]
  simp only [shapeCast_1abc_abc_apply]
  rfl

/-- The index a sum over the planes inserts: plane `k` above row `q`, column `r`. -/
theorem planes_lift (q r : Fin 126) (k : Fin 9) :
    reduces_S9x126x126_S126x126.lift (ix2 q r) k = ix3 k q r := by
  funext a
  match a with
  | ⟨0, _⟩ => exact Fin.ext rfl
  | ⟨1, _⟩ => exact Fin.ext rfl
  | ⟨2, _⟩ => exact Fin.ext rfl

/-- The nine planes' sum at row `q`, column `r`: the sum over the planes of the squared residual. -/
theorem planesSum_apply (v : Vec Ideal S1x11x128x128 .f32) (w : Vec Ideal S1x9x126x126 .f32) (q r : Fin 126) :
    planesSum v w (ix2 q r) = ∑ p' : Fin 9, residual v w (ix3 p' q r) * residual v w (ix3 p' q r) := by
  unfold planesSum
  refine (Ideal.multiReduction_add_single (mulf (residual v w) (residual v w)) 0x00000000#32
    reduces_S9x126x126_S126x126 _ _ (ix2 q r)).trans ?_
  refine Finset.sum_congr rfl fun (k : Fin 9) _ => ?_
  exact congrArg (fun i => residual v w i * residual v w i) (planes_lift q r k)

end Cert.KernelIdeal.Fused

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.KernelStep.lean ====
/-
  What one grid step leaves in the output block.  After the fourteen groups of planes the body holds a [126, 126]
  array `acc` of per-(row, column) sums; it adds up each row, then the row sums, and adds the resulting total to
  every entry of the [8, 128] output block it found.  Here that is one function of the block found and of `acc`,
  read at an index: the entry found plus the sum of all entries of `acc`.
-/
import proofs.«112707_j27608049779003_2_alg».proof.Proof.Gen.KernelIdeal.Skeleton
import proofs.«112707_j27608049779003_2_alg».proof.Proof.LibColumnCast
import proofs.«112707_j27608049779003_2_alg».proof.Proof.LibLaneSum
import proofs.«112707_j27608049779003_2_alg».proof.Proof.LibColumnSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Fused

open Idealize.ShloMosaic Idealize.ShloMosaic.ValueIdx Cert.KernelIdeal Cert.KernelIdeal.Gen

variable {F : FTy → Type} [FloatOps F]

/-- The total of a [126, 126] array as the body forms it: row sums, cast to a column, summed, cast to [1, 1]. -/
def grandTotal (acc : FVec F S126x126 .f32) : FVec F S1x1 .f32 :=
  shapeCast S1x1
    (shapeCast S1x1
      (multiReduction .add [0] S1
        (shapeCast S126x1 (multiReduction .add [1] S126 acc 0x00000000#32 reduces_S126x126_S126 (.inl rfl) rfl) shapeCasts_S126_S126x1)
        0x00000000#32 reduces_S126x1_S1 (.inl rfl) rfl)
      shapeCasts_S1_S1x1)
    shapeCasts_S1x1_S1x1

/-- The output block after the step: the block found, every entry increased by the total. -/
def stepOut (xo : Vec F S1x8x128 .f32) (acc : FVec F S126x126 .f32) : FVec F S1x8x128 .f32 :=
  shapeCast S1x8x128
    (addf (shapeCast S8x128 xo shapeCasts_S1x8x128_S8x128) (broadcastTo S8x128 (grandTotal acc) broadcasts_S1x1_S8x128))
    shapeCasts_S8x128_S1x8x128

/-- The total, on the extended reals, is the double sum over rows and columns. -/
theorem grandTotal_apply (acc : FVec Ideal S126x126 .f32) (u u' : Fin 1) :
    grandTotal acc (ix2 u u') = ∑ q : Fin 126, ∑ r : Fin 126, acc (ix2 q r) := by
  unfold grandTotal
  rw [shapeCast_self, shapeCast_a_a1_apply]
  refine (multiReduction_add_cols_apply _ 0x00000000#32 reduces_S126x1_S1 _ _ u).trans ?_
  refine Finset.sum_congr rfl fun q _ => ?_
  rw [shapeCast_a_a1_apply]
  exact multiReduction_add_rows_apply _ 0x00000000#32 reduces_S126x126_S126 _ _ q

/-- The block after the step at an entry: the entry found plus the double sum. -/
theorem stepOut_apply (xo : Vec Ideal S1x8x128 .f32) (acc : FVec Ideal S126x126 .f32) (u : Fin 1) (a : Fin 8) (b : Fin 128) :
    stepOut xo acc (ix3 u a b) = xo (ix3 (0 : Fin 1) a b) + ∑ q : Fin 126, ∑ r : Fin 126, acc (ix2 q r) := by
  unfold stepOut
  rw [shapeCast_ab_1ab_apply, addf_apply, shapeCast_1ab_ab_apply,
    broadcastTo_apply (grandTotal acc) broadcasts_S1x1_S8x128 (ix2 a b) (ix2 (0 : Fin 1) (0 : Fin 1))
      (fun d => match d with | ⟨0, _⟩ => rfl | ⟨1, _⟩ => rfl),
    grandTotal_apply]

end Cert.KernelIdeal.Fused

end
-- ==== Proof.KernelBody.lean ====
/-
  What the body leaves in the output block, in both of its cases, as one function of the two input blocks.

  A block of the field is one batch, [1, 128, 128, 128]; the body walks its 126 interior planes in fourteen groups
  of nine.  Group c loads planes 9c .. 9c + 10 of the field and the interior of planes 9c + 1 .. 9c + 9 of the data,
  and adds its [126, 126] array of per-(row, column) sums of squared residuals to a running array that starts at
  zero.  The step then adds the total of the running array to every entry of the output block: to the block the
  previous step left, or — at the first step of each half — to the zero block it has just stored.
  At an index, the running array is the double sum over groups and planes of the squared residual at that row and column.
-/
import proofs.«112707_j27608049779003_2_alg».proof.Proof.Gen.KernelIdeal.Frame
import proofs.«112707_j27608049779003_2_alg».proof.Proof.KernelChunk
import proofs.«112707_j27608049779003_2_alg».proof.Proof.KernelStep
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Fused

open Idealize.ShloMosaic.ValueIdx Cert.KernelIdeal Cert.KernelIdeal.Gen

variable {F : FTy → Type} [FloatOps F]

theorem zero3 : (![0, 0, 0] : Fin 3 → Nat) = fun _ => 0 := funext fun a => by fin_cases a <;> rfl

/-- One group's [126, 126] sums: the planes from `o` of the field block and the interior of the planes from `o'` of
    the data block. -/
def group (x0 x1 : Vec F S1x128x128x128 .f32) (o o' : ℕ)
    (h : ∀ a, (![0, o, 0, 0] : Fin 4 → ℕ) a + (![1, 11, 128, 128] : Fin 4 → ℕ) a ≤ S1x128x128x128.size a)
    (h' : ∀ a, (![0, o', 1, 1] : Fin 4 → ℕ) a + (![1, 9, 126, 126] : Fin 4 → ℕ) a ≤ S1x128x128x128.size a) :
    FVec F S126x126 .f32 :=
  planesSum (View.ld x0 (Rect.unit ![0, o, 0, 0] ![1, 11, 128, 128] h)) (View.ld x1 (Rect.unit ![0, o', 1, 1] ![1, 9, 126, 126] h'))

/-- The running array after the fourteen groups. -/
def running (x0 x1 : Vec F S1x128x128x128 .f32) : FVec F S126x126 .f32 :=
  addf (addf (addf (addf (addf (addf (addf (addf (addf (addf (addf (addf (addf (addf (broadcast S126x126 (Scalar.ofBits .f32 0x00000000#32))
      (group x0 x1 0 1 inb_S1x128x128x128_S1x11x128x128_0_0_0_0 inb_S1x128x128x128_S1x9x126x126_0_1_1_1))
      (group x0 x1 9 10 inb_S1x128x128x128_S1x11x128x128_0_9_0_0 inb_S1x128x128x128_S1x9x126x126_0_10_1_1))
      (group x0 x1 18 19 inb_S1x128x128x128_S1x11x128x128_0_18_0_0 inb_S1x128x128x128_S1x9x126x126_0_19_1_1))
      (group x0 x1 27 28 inb_S1x128x128x128_S1x11x128x128_0_27_0_0 inb_S1x128x128x128_S1x9x126x126_0_28_1_1))
      (group x0 x1 36 37 inb_S1x128x128x128_S1x11x128x128_0_36_0_0 inb_S1x128x128x128_S1x9x126x126_0_37_1_1))
      (group x0 x1 45 46 inb_S1x128x128x128_S1x11x128x128_0_45_0_0 inb_S1x128x128x128_S1x9x126x126_0_46_1_1))
      (group x0 x1 54 55 inb_S1x128x128x128_S1x11x128x128_0_54_0_0 inb_S1x128x128x128_S1x9x126x126_0_55_1_1))
      (group x0 x1 63 64 inb_S1x128x128x128_S1x11x128x128_0_63_0_0 inb_S1x128x128x128_S1x9x126x126_0_64_1_1))
      (group x0 x1 72 73 inb_S1x128x128x128_S1x11x128x128_0_72_0_0 inb_S1x128x128x128_S1x9x126x126_0_73_1_1))
      (group x0 x1 81 82 inb_S1x128x128x128_S1x11x128x128_0_81_0_0 inb_S1x128x128x128_S1x9x126x126_0_82_1_1))
      (group x0 x1 90 91 inb_S1x128x128x128_S1x11x128x128_0_90_0_0 inb_S1x128x128x128_S1x9x126x126_0_91_1_1))
      (group x0 x1 99 100 inb_S1x128x128x128_S1x11x128x128_0_99_0_0 inb_S1x128x128x128_S1x9x126x126_0_100_1_1))
      (group x0 x1 108 109 inb_S1x128x128x128_S1x11x128x128_0_108_0_0 inb_S1x128x128x128_S1x9x126x126_0_109_1_1))
      (group x0 x1 117 118 inb_S1x128x128x128_S1x11x128x128_0_117_0_0 inb_S1x128x128x128_S1x9x126x126_0_118_1_1)

/-- A step that finds the block `xo` leaves it with the total of the running array added to every entry. -/
theorem out_later (c : Dev nD) (i : grid0.Coords) (arg2 : Memref sig .tc .vmem S1x128x128x128 .f32) (harg2 : arg2.IsWhole)
    (arg3 : Memref sig .tc .vmem S1x128x128x128 .f32) (harg3 : arg3.IsWhole) (arg4 : Memref sig .tc .vmem S1x8x128 .f32)
    (harg4 : arg4.IsWhole) (hc0 : ¬cond0_0 i) (x0 x1 : Vec F S1x128x128x128 .f32) (xo2 : Vec F S1x8x128 .f32) :
    out0_B_2 c i arg2 harg2 arg3 harg3 arg4 harg4 hc0 x0 x1 xo2 = stepOut xo2 (running x0 x1) := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero zero3]
  simp only [View.readAt_eq_ld, harg2.read_unread, harg3.read_unread, harg4.read_unread, View.ld_unit_zero (S := S1x8x128) zero3]
  rfl

/-- The first step of a half stores the zero block and leaves it with the total added. -/
theorem out_first (c : Dev nD) (i : grid0.Coords) (arg2 : Memref sig .tc .vmem S1x128x128x128 .f32) (harg2 : arg2.IsWhole)
    (arg3 : Memref sig .tc .vmem S1x128x128x128 .f32) (harg3 : arg3.IsWhole) (arg4 : Memref sig .tc .vmem S1x8x128 .f32)
    (harg4 : arg4.IsWhole) (hc0 : cond0_0 i) (x0 x1 : Vec F S1x128x128x128 .f32) :
    out0_A_2 c i arg2 harg2 arg3 harg3 arg4 harg4 hc0 x0 x1 = stepOut k0_pay2 (running x0 x1) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x8x128) zero3, View.readCov_unit_zero (S := S1x8x128) _ zero3]
  simp only [View.readAt_eq_ld, harg2.read_unread, harg3.read_unread, harg4.read_unread, View.ld_unit_zero (S := S1x8x128) zero3]
  rfl

/-- The zero block, on the extended reals, is zero at every entry. -/
theorem zeroBlock_apply (y : S1x8x128.Idx) : (k0_pay2 : FVec Ideal S1x8x128 .f32) y = 0 := by
  obtain ⟨u, a, b, rfl⟩ : ∃ (u : Fin 1) (a : Fin 8) (b : Fin 128), y = ix3 u a b := ⟨y 0, y 1, y 2, eq_ix3 y⟩
  unfold k0_pay2
  rw [shapeCast_ab_1ab_apply, broadcast_apply]
  exact Ideal.ofBits_zero_f32

/-- A coordinate inside a unit-stride rectangle that fits the array, moved by the rectangle's offset, is inside the array. -/
theorem moved_lt {n0 n1 n2 n3 m0 m1 m2 m3 o0 o1 o2 o3 : ℕ}
    (inb : ∀ a, (![o0, o1, o2, o3] : Fin 4 → ℕ) a + (![m0, m1, m2, m3] : Fin 4 → ℕ) a ≤ (⟨4, ![n0, n1, n2, n3]⟩ : Shape).size a) :
    (∀ a : Fin m0, a.val + o0 < n0) ∧ (∀ b : Fin m1, b.val + o1 < n1) ∧ (∀ c : Fin m2, c.val + o2 < n2) ∧ (∀ d : Fin m3, d.val + o3 < n3) := by
  have h0 : o0 + m0 ≤ n0 := inb 0
  have h1 : o1 + m1 ≤ n1 := inb 1
  have h2 : o2 + m2 ≤ n2 := inb 2
  have h3 : o3 + m3 ≤ n3 := inb 3
  exact ⟨fun a => by have := a.isLt; omega, fun b => by have := b.isLt; omega, fun c => by have := c.isLt; omega,
    fun d => by have := d.isLt; omega⟩

/-- A load of a rank-4 array through a unit-stride rectangle, read at an index given by coordinates: the array at the
    coordinates moved by the offsets. -/
theorem ld_unit4_apply {Val : EltTy → Type} {e : EltTy} {n0 n1 n2 n3 m0 m1 m2 m3 : ℕ}
    (X : (⟨4, ![n0, n1, n2, n3]⟩ : Shape).Idx → Val e) (o0 o1 o2 o3 : ℕ)
    (inb : ∀ a, (![o0, o1, o2, o3] : Fin 4 → ℕ) a + (![m0, m1, m2, m3] : Fin 4 → ℕ) a ≤ (⟨4, ![n0, n1, n2, n3]⟩ : Shape).size a)
    (a : Fin m0) (b : Fin m1) (c : Fin m2) (d : Fin m3) :
    View.ld X (Rect.unit ![o0, o1, o2, o3] ![m0, m1, m2, m3] inb) (ix4 a b c d)
      = X (ix4 ⟨a.val + o0, (moved_lt inb).1 a⟩ ⟨b.val + o1, (moved_lt inb).2.1 b⟩ ⟨c.val + o2, (moved_lt inb).2.2.1 c⟩
          ⟨d.val + o3, (moved_lt inb).2.2.2 d⟩) := by
  show X _ = X _
  refine congrArg X (funext fun k => Fin.ext ?_)
  match k with
  | ⟨0, _⟩ => show o0 + 1 * a.val = a.val + o0; omega
  | ⟨1, _⟩ => show o1 + 1 * b.val = b.val + o1; omega
  | ⟨2, _⟩ => show o2 + 1 * c.val = c.val + o2; omega
  | ⟨3, _⟩ => show o3 + 1 * d.val = d.val + o3; omega

/-- The squared residual at an interior point, over a field `X` and data `D` given by grid coordinates. -/
def pointSq (X D : Fin 128 → Fin 128 → Fin 128 → EReal) (p q r : Fin 126) : EReal :=
  (Cert.Stencil.scale * ((((((X (Cert.Stencil.hi p) (Cert.Stencil.mid q) (Cert.Stencil.mid r) + X (Cert.Stencil.lo p) (Cert.Stencil.mid q) (Cert.Stencil.mid r))
      + X (Cert.Stencil.mid p) (Cert.Stencil.hi q) (Cert.Stencil.mid r)) + X (Cert.Stencil.mid p) (Cert.Stencil.lo q) (Cert.Stencil.mid r))
      + X (Cert.Stencil.mid p) (Cert.Stencil.mid q) (Cert.Stencil.hi r)) + X (Cert.Stencil.mid p) (Cert.Stencil.mid q) (Cert.Stencil.lo r))
      - Cert.Stencil.six * X (Cert.Stencil.mid p) (Cert.Stencil.mid q) (Cert.Stencil.mid r)) + D (Cert.Stencil.mid p) (Cert.Stencil.mid q) (Cert.Stencil.mid r))
  * (Cert.Stencil.scale * ((((((X (Cert.Stencil.hi p) (Cert.Stencil.mid q) (Cert.Stencil.mid r) + X (Cert.Stencil.lo p) (Cert.Stencil.mid q) (Cert.Stencil.mid r))
      + X (Cert.Stencil.mid p) (Cert.Stencil.hi q) (Cert.Stencil.mid r)) + X (Cert.Stencil.mid p) (Cert.Stencil.lo q) (Cert.Stencil.mid r))
      + X (Cert.Stencil.mid p) (Cert.Stencil.mid q) (Cert.Stencil.hi r)) + X (Cert.Stencil.mid p) (Cert.Stencil.mid q) (Cert.Stencil.lo r))
      - Cert.Stencil.six * X (Cert.Stencil.mid p) (Cert.Stencil.mid q) (Cert.Stencil.mid r)) + D (Cert.Stencil.mid p) (Cert.Stencil.mid q) (Cert.Stencil.mid r))

/-- A block read by grid coordinates. -/
def blockAt (x : Vec Ideal S1x128x128x128 .f32) (i j k : Fin 128) : EReal := x (ix4 (0 : Fin 1) i j k)

/-- The residual of group `c` at plane `p'`, row `q`, column `r`, in the blocks' grid coordinates. -/
theorem group_residual (x0 x1 : Vec Ideal S1x128x128x128 .f32) (o o' : ℕ)
    (h : ∀ a, (![0, o, 0, 0] : Fin 4 → ℕ) a + (![1, 11, 128, 128] : Fin 4 → ℕ) a ≤ S1x128x128x128.size a)
    (h' : ∀ a, (![0, o', 1, 1] : Fin 4 → ℕ) a + (![1, 9, 126, 126] : Fin 4 → ℕ) a ≤ S1x128x128x128.size a)
    (c : Fin 14) (ho : o = 9 * c.val) (ho' : o' = 9 * c.val + 1) (p' : Fin 9) (q r : Fin 126) :
    residual (View.ld x0 (Rect.unit ![0, o, 0, 0] ![1, 11, 128, 128] h)) (View.ld x1 (Rect.unit ![0, o', 1, 1] ![1, 9, 126, 126] h')) (ix3 p' q r)
      * residual (View.ld x0 (Rect.unit ![0, o, 0, 0] ![1, 11, 128, 128] h)) (View.ld x1 (Rect.unit ![0, o', 1, 1] ![1, 9, 126, 126] h')) (ix3 p' q r)
      = pointSq (blockAt x0) (blockAt x1) (Cert.Stencil.plane c p') q r := by
  subst ho ho'
  have hp := p'.isLt; have hq := q.isLt; have hr := r.isLt; have hc := c.isLt
  rw [residual_apply]
  iterate 7 rw [ld_unit4_apply (Val := Elt Ideal) (e := EltTy.f32) x0 0 (9 * c.val) 0 0 h]
  rw [ld_unit4_apply (Val := Elt Ideal) (e := EltTy.f32) x1 0 (9 * c.val + 1) 1 1 h']
  unfold pointSq blockAt
  have e2 : ∀ hh, (⟨2 + p'.val + 9 * c.val, hh⟩ : Fin 128) = Cert.Stencil.hi (Cert.Stencil.plane c p') := fun _ => Fin.ext (by simp only [Cert.Stencil.hi, Cert.Stencil.plane]; omega)
  have e1 : ∀ hh, (⟨1 + p'.val + 9 * c.val, hh⟩ : Fin 128) = Cert.Stencil.mid (Cert.Stencil.plane c p') := fun _ => Fin.ext (by simp only [Cert.Stencil.mid, Cert.Stencil.plane]; omega)
  have e0 : ∀ hh, (⟨0 + p'.val + 9 * c.val, hh⟩ : Fin 128) = Cert.Stencil.lo (Cert.Stencil.plane c p') := fun _ => Fin.ext (by simp only [Cert.Stencil.lo, Cert.Stencil.plane]; omega)
  have ed : ∀ hh, (⟨p'.val + (9 * c.val + 1), hh⟩ : Fin 128) = Cert.Stencil.mid (Cert.Stencil.plane c p') := fun _ => Fin.ext (by simp only [Cert.Stencil.mid, Cert.Stencil.plane]; omega)
  have q2 : ∀ hh, (⟨2 + q.val + 0, hh⟩ : Fin 128) = Cert.Stencil.hi q := fun _ => Fin.ext (by simp only [Cert.Stencil.hi]; omega)
  have q1 : ∀ hh, (⟨1 + q.val + 0, hh⟩ : Fin 128) = Cert.Stencil.mid q := fun _ => Fin.ext (by simp only [Cert.Stencil.mid]; omega)
  have q0 : ∀ hh, (⟨0 + q.val + 0, hh⟩ : Fin 128) = Cert.Stencil.lo q := fun _ => Fin.ext (by simp only [Cert.Stencil.lo]; omega)
  have qd : ∀ hh, (⟨q.val + 1, hh⟩ : Fin 128) = Cert.Stencil.mid q := fun _ => rfl
  have r2 : ∀ hh, (⟨2 + r.val + 0, hh⟩ : Fin 128) = Cert.Stencil.hi r := fun _ => Fin.ext (by simp only [Cert.Stencil.hi]; omega)
  have r1 : ∀ hh, (⟨1 + r.val + 0, hh⟩ : Fin 128) = Cert.Stencil.mid r := fun _ => Fin.ext (by simp only [Cert.Stencil.mid]; omega)
  have r0 : ∀ hh, (⟨0 + r.val + 0, hh⟩ : Fin 128) = Cert.Stencil.lo r := fun _ => Fin.ext (by simp only [Cert.Stencil.lo]; omega)
  have rd : ∀ hh, (⟨r.val + 1, hh⟩ : Fin 128) = Cert.Stencil.mid r := fun _ => rfl
  have u0 : ∀ hh, (⟨(0 : Fin 1).val + 0, hh⟩ : Fin 1) = 0 := fun _ => rfl
  simp only [e2, e1, e0, ed, q2, q1, q0, qd, r2, r1, r0, rd, u0]

/-- One group's sums at row `q`, column `r`: the sum over its nine planes of the squared residual. -/
theorem group_apply (x0 x1 : Vec Ideal S1x128x128x128 .f32) (o o' : ℕ)
    (h : ∀ a, (![0, o, 0, 0] : Fin 4 → ℕ) a + (![1, 11, 128, 128] : Fin 4 → ℕ) a ≤ S1x128x128x128.size a)
    (h' : ∀ a, (![0, o', 1, 1] : Fin 4 → ℕ) a + (![1, 9, 126, 126] : Fin 4 → ℕ) a ≤ S1x128x128x128.size a)
    (c : Fin 14) (ho : o = 9 * c.val) (ho' : o' = 9 * c.val + 1) (q r : Fin 126) :
    group x0 x1 o o' h h' (ix2 q r) = ∑ p' : Fin 9, pointSq (blockAt x0) (blockAt x1) (Cert.Stencil.plane c p') q r := by
  unfold group
  rw [planesSum_apply]
  exact Finset.sum_congr rfl fun p' _ => group_residual x0 x1 o o' h h' c ho ho' p' q r

/-- The running array at row `q`, column `r`: the sum over the fourteen groups and their nine planes. -/
theorem running_apply (x0 x1 : Vec Ideal S1x128x128x128 .f32) (q r : Fin 126) :
    running x0 x1 (ix2 q r) = ∑ c : Fin 14, ∑ p' : Fin 9, pointSq (blockAt x0) (blockAt x1) (Cert.Stencil.plane c p') q r := by
  unfold running
  simp only [addf_apply, broadcast_apply]
  rw [group_apply x0 x1 0 1 _ _ (0 : Fin 14) rfl rfl q r,
    group_apply x0 x1 9 10 _ _ (1 : Fin 14) rfl rfl q r,
    group_apply x0 x1 18 19 _ _ (2 : Fin 14) rfl rfl q r,
    group_apply x0 x1 27 28 _ _ (3 : Fin 14) rfl rfl q r,
    group_apply x0 x1 36 37 _ _ (4 : Fin 14) rfl rfl q r,
    group_apply x0 x1 45 46 _ _ (5 : Fin 14) rfl rfl q r,
    group_apply x0 x1 54 55 _ _ (6 : Fin 14) rfl rfl q r,
    group_apply x0 x1 63 64 _ _ (7 : Fin 14) rfl rfl q r,
    group_apply x0 x1 72 73 _ _ (8 : Fin 14) rfl rfl q r,
    group_apply x0 x1 81 82 _ _ (9 : Fin 14) rfl rfl q r,
    group_apply x0 x1 90 91 _ _ (10 : Fin 14) rfl rfl q r,
    group_apply x0 x1 99 100 _ _ (11 : Fin 14) rfl rfl q r,
    group_apply x0 x1 108 109 _ _ (12 : Fin 14) rfl rfl q r,
    group_apply x0 x1 117 118 _ _ (13 : Fin 14) rfl rfl q r]
  rw [show (Scalar.ofBits .f32 0x00000000#32 : Ideal .f32) = 0 from Ideal.ofBits_zero_f32]
  simp only [Fin.sum_univ_castSucc, Fin.sum_univ_zero]
  rfl

end Cert.KernelIdeal.Fused

end
-- ==== Proof.KernelAccum.lean ====
/-
  The output array after the run.  The grid has sixteen points, point t handling batch t; the output has one
  [8, 128] block per half of the batches, and points 8g .. 8g + 7 all work on block g, which is written back once,
  after point 8g + 7.  Every entry of the block holds the same number: after point t of half g, zero plus the sums of
  the batches 8g .. t, added in that order.  So the array ends with every entry of block g at the eight batch sums of
  half g added from the left.
-/
import proofs.«112707_j27608049779003_2_alg».proof.Proof.KernelBody
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Fused

open Idealize.ShloMosaic.ValueIdx Cert.KernelIdeal Cert.KernelIdeal.Gen

variable (m : (ℓ : Loc nD τ sig) → Buf (Elt Ideal) ℓ) (ρ : Dev nD → PrngReg)

/-- The number one step adds to every entry: the total of the running array of its two blocks. -/
def blockTotal (x0 x1 : Vec Ideal S1x128x128x128 .f32) : EReal :=
  ∑ q : Fin 126, ∑ r : Fin 126, running x0 x1 (ix2 q r)

/-- A step on a block whose entries all hold `v` leaves every entry at `v` plus the blocks' total. -/
theorem step_entry (x0 x1 : Vec Ideal S1x128x128x128 .f32) (xo : Vec Ideal S1x8x128 .f32) (v : EReal) (hxo : ∀ y, xo y = v)
    (y : S1x8x128.Idx) : stepOut xo (running x0 x1) y = v + blockTotal x0 x1 := by
  obtain ⟨u, a, b, rfl⟩ : ∃ (u : Fin 1) (a : Fin 8) (b : Fin 128), y = ix3 u a b := ⟨y 0, y 1, y 2, eq_ix3 y⟩
  rw [stepOut_apply, hxo]
  rfl

/-- The total point `t` adds: that of the blocks the two input windows hold at `t`. -/
def pointTotal (c : Dev nD) (t : Fin cfg0.N) : EReal :=
  blockTotal (iblk m c 0 t : Vec Ideal S1x128x128x128 .f32) (iblk m c 1 t : Vec Ideal S1x128x128x128 .f32)

/-- What every entry of the output block holds after point `n`: restarted from zero at the first point of a half. -/
def held (c : Dev nD) : (n : ℕ) → n < cfg0.N → EReal
  | 0, h => 0 + pointTotal m c ⟨0, h⟩
  | n + 1, h => if (n + 1) % 8 = 0 then 0 + pointTotal m c ⟨n + 1, h⟩
      else held c n (Nat.lt_of_succ_lt h) + pointTotal m c ⟨n + 1, h⟩

theorem held_congr (c : Dev nD) {n n' : ℕ} (e : n = n') (h : n < cfg0.N) (h' : n' < cfg0.N) : held m c n h = held m c n' h' := by
  subst e; rfl

/-- The output block after point `n`, as the run leaves it, holds that number at every entry: by induction on the point. -/
theorem outsAt_eq (c : Dev nD) : ∀ (n : ℕ) (h : n < cfg0.N) (y : S1x8x128.Idx), outsAt0 m c n h y = held m c n h
  | 0, h, y => by
    rw [outsAt0_A m c ⟨0, h⟩ rfl]
    refine (congrFun (out_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (iblk m c 0 ⟨0, h⟩) (iblk m c 1 ⟨0, h⟩)) y).trans ?_
    exact step_entry _ _ _ 0 zeroBlock_apply y
  | n + 1, h, y => by
    by_cases h0 : (n + 1) % 8 = 0
    · rw [outsAt0_A m c ⟨n + 1, h⟩ h0]
      refine (congrFun (out_first (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) ((hcond0_0 ⟨n + 1, h⟩).mpr h0) (iblk m c 0 ⟨n + 1, h⟩)
        (iblk m c 1 ⟨n + 1, h⟩)) y).trans ?_
      refine (step_entry _ _ _ 0 zeroBlock_apply y).trans ?_
      rw [held, if_pos h0]
      rfl
    · rw [outsAt0_B m c ⟨n + 1, h⟩ h0]
      refine (congrFun (out_later (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => h0 ((hcond0_0 ⟨n + 1, h⟩).mp hh)) (iblk m c 0 ⟨n + 1, h⟩)
        (iblk m c 1 ⟨n + 1, h⟩) (outsAt0 m c n (Nat.lt_of_succ_lt h))) y).trans ?_
      refine (step_entry _ _ _ (held m c n (Nat.lt_of_succ_lt h)) (fun y' => outsAt_eq c n (Nat.lt_of_succ_lt h) y') y).trans ?_
      rw [held, if_neg h0]
      rfl

/-- The number block `g` ends with: what is held after the last point of half `g`. -/
def halfHeld (c : Dev nD) (g : ℕ) (hg : g < 2) : EReal :=
  held m c (8 * g + 7) (by rw [show cfg0.N = 16 from N_0]; omega)

/-- The output array after the run: every entry of block `g` at that number. -/
def finalArray (c : Dev nD) : Buf (Elt Ideal) ((c : Thread nD τ).loc main_v2) :=
  fun i => halfHeld m c (i 0).val (i 0).isLt

/-- The output window's block index at point `t`, decided over the grid: block t / 8 on the leading axis. -/
theorem out_index : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- What a writing-back point writes back is its block of that array. -/
theorem flushed_eq (c : Dev nD) (t : Fin cfg0.N) (hf : (cfg0.win 2).flush t = true) :
    (dats m 0 c).flushed 2 t = ((cfg0.win 2).blk t).view.read (Elt Ideal) (finalArray m c) := by
  show (cfg0.win 2).cut (grid0.coords t) ((dats m 0 c).after 2 t) = _
  rw [after0_2]
  funext y
  show outsAt0 m c t.val t.isLt y = finalArray m c (((cfg0.win 2).blk t).view.emb y)
  rw [outsAt_eq]
  have h7 : t.val % 8 = 7 := (flush0_2 t).mp hf
  obtain ⟨e0, -, -⟩ := out_index t
  unfold finalArray halfHeld
  refine held_congr m c ?_ _ _
  show t.val = 8 * (win0_2.index t (0 : Fin 3) * 1 + 1 * (y 0).val) + 7
  have hy : (y 0).val < 1 := (y 0).isLt
  rw [e0]
  omega

/-- Every index of the array is in the block of the point that writes its half back. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  obtain ⟨t, ht⟩ : ∃ t : Fin cfg0.N, t.val = 8 * (i 0).val + 7 :=
    ⟨⟨8 * (i 0).val + 7, by rw [show cfg0.N = 16 from N_0]; omega⟩, rfl⟩
  refine ⟨t, (flush0_2 t).mpr (by omega), ?_⟩
  obtain ⟨e0, e1, e2⟩ := out_index t
  show i ∈ ((View.whole main_v2).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 8 ≤ (i 1).val ∧ (i 1).val < win0_2.index t (1 : Fin 3) * 8 + 8
    rw [e1]; omega
  | ⟨2, _⟩ =>
    show win0_2.index t (2 : Fin 3) * 128 ≤ (i 2).val ∧ (i 2).val < win0_2.index t (2 : Fin 3) * 128 + 128
    rw [e2]; omega

/-- So the output array ends holding it. -/
theorem arrAt_out (c : Dev nD) : (dats m 0 c).arrAt 2 cfg0.N = finalArray m c :=
  (dats m 0 c).arrAt_eq_of_cover 2 (finalArray m c) (flushed_eq m c) (covered c)

end Cert.KernelIdeal.Fused

end
-- ==== Proof.KernelLoss.lean ====
/-
  The loss the fused program returns.  Each grid point handles one batch: its two input blocks are the batch's
  planes of the two arguments (the unit channel axis dropped before the launch), so the number it adds is the batch's
  sum of squared residuals.  The output array therefore ends with block g at the sum of the eight batch sums of half
  g, and the operations after the launch read one entry of each block, add the two, divide by the number of interior
  points, and multiply by one and by the weight.
-/
import proofs.«112707_j27608049779003_2_alg».proof.Proof.KernelAccum
import proofs.«112707_j27608049779003_2_alg».proof.Proof.Stencil

set_option maxRecDepth 16384

noncomputable section

open scoped BigOperators

open Idealize.ShloMosaic Idealize.ShloMosaic.TcCoe Idealize.SL.Sem
open Idealize.ShloMosaic.Pipeline (Dat)

namespace Cert.KernelIdeal.Fused

open Idealize.ShloMosaic.ValueIdx Cert.KernelIdeal Cert.KernelIdeal.Gen

variable (m : (ℓ : Loc nD τ sig) → Buf (Elt Ideal) ℓ) (ρ : Dev nD → PrngReg)
/-- The field window's array as the region finds it: the first argument with its unit axis dropped. -/
theorem V_field (c : Dev nD) : (V m c main_v0 : S16x128x128x128.Idx → EReal)
    = shapeCast S16x128x128x128 (m ((c : Thread nD τ).loc main_arg0)) shapeCasts_S16x1x128x128x128_S16x128x128x128 := by
  show StableHlo.after hostOps0 (fun b => m (c, b)) (Proc.devRef .tc main_v0) = _
  after_results
  rfl

theorem V_data (c : Dev nD) : (V m c main_v1 : S16x128x128x128.Idx → EReal)
    = shapeCast S16x128x128x128 (m ((c : Thread nD τ).loc main_arg1)) shapeCasts_S16x1x128x128x128_S16x128x128x128 := by
  show StableHlo.after hostOps0 (fun b => m (c, b)) (Proc.devRef .tc main_v1) = _
  after_results
  rfl

/-- Dropping the unit axis of a [16, 1, 128, 128, 128] array: entry (b, i, j, k) is entry (b, 0, i, j, k). -/
theorem dropChannel_apply (x : S16x1x128x128x128.Idx → EReal) (b : Fin 16) (i j k : Fin 128) :
    shapeCast S16x128x128x128 x shapeCasts_S16x1x128x128x128_S16x128x128x128 (ix4 b i j k) = x (ix5 b (0 : Fin 1) i j k) :=
  shapeCast_apply x _ _ _ (by
    rw [Shape.rowMajor_val_five, Shape.rowMajor_val_four]
    show (((b.val * 1 + 0) * 128 + i.val) * 128 + j.val) * 128 + k.val = ((b.val * 128 + i.val) * 128 + j.val) * 128 + k.val
    omega)

theorem in_index : ∀ t : Fin cfg0.N, win0_0.index t (0 : Fin 4) = t.val ∧ win0_0.index t (1 : Fin 4) = 0 ∧ win0_0.index t (2 : Fin 4) = 0
    ∧ win0_0.index t (3 : Fin 4) = 0 ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

theorem iblk_field (c : Dev nD) (t : Fin cfg0.N) (i j k : Fin 128) :
    (iblk m c 0 t : Vec Ideal S1x128x128x128 .f32) (ix4 (0 : Fin 1) i j k)
      = Cert.Stencil.at5 (m ((c : Thread nD τ).loc main_arg0)) ⟨t.val, lt_of_lt_of_eq t.isLt (show cfg0.N = 16 from N_0)⟩ i j k := by
  obtain ⟨e0, e1, e2, e3, -, -, -, -⟩ := in_index t
  unfold iblk
  rw [View.read_apply]
  show V m c main_v0 _ = _
  rw [V_field]
  unfold Cert.Stencil.at5
  refine (congrArg _ ?_).trans (dropChannel_apply _ ⟨t.val, lt_of_lt_of_eq t.isLt (show cfg0.N = 16 from N_0)⟩ i j k)
  funext a
  apply Fin.ext
  match a with
  | ⟨0, _⟩ => show win0_0.index t (0 : Fin 4) * 1 + 1 * 0 = t.val; rw [e0]; omega
  | ⟨1, _⟩ => show win0_0.index t (1 : Fin 4) * 128 + 1 * i.val = i.val; rw [e1]; omega
  | ⟨2, _⟩ => show win0_0.index t (2 : Fin 4) * 128 + 1 * j.val = j.val; rw [e2]; omega
  | ⟨3, _⟩ => show win0_0.index t (3 : Fin 4) * 128 + 1 * k.val = k.val; rw [e3]; omega

theorem iblk_data (c : Dev nD) (t : Fin cfg0.N) (i j k : Fin 128) :
    (iblk m c 1 t : Vec Ideal S1x128x128x128 .f32) (ix4 (0 : Fin 1) i j k)
      = Cert.Stencil.at5 (m ((c : Thread nD τ).loc main_arg1)) ⟨t.val, lt_of_lt_of_eq t.isLt (show cfg0.N = 16 from N_0)⟩ i j k := by
  obtain ⟨-, -, -, -, e0, e1, e2, e3⟩ := in_index t
  unfold iblk
  rw [View.read_apply]
  show V m c main_v1 _ = _
  rw [V_data]
  unfold Cert.Stencil.at5
  refine (congrArg _ ?_).trans (dropChannel_apply _ ⟨t.val, lt_of_lt_of_eq t.isLt (show cfg0.N = 16 from N_0)⟩ i j k)
  funext a
  apply Fin.ext
  match a with
  | ⟨0, _⟩ => show win0_1.index t (0 : Fin 4) * 1 + 1 * 0 = t.val; rw [e0]; omega
  | ⟨1, _⟩ => show win0_1.index t (1 : Fin 4) * 128 + 1 * i.val = i.val; rw [e1]; omega
  | ⟨2, _⟩ => show win0_1.index t (2 : Fin 4) * 128 + 1 * j.val = j.val; rw [e2]; omega
  | ⟨3, _⟩ => show win0_1.index t (3 : Fin 4) * 128 + 1 * k.val = k.val; rw [e3]; omega

/-- The batch a point handles. -/
def batchAt (t : Fin cfg0.N) : Fin 16 := ⟨t.val, lt_of_lt_of_eq t.isLt (show cfg0.N = 16 from N_0)⟩

/-- The total a point adds is the sum of squared residuals over its batch. -/
theorem pointTotal_eq (c : Dev nD) (t : Fin cfg0.N) :
    pointTotal m c t = Cert.Stencil.batchSum (m ((c : Thread nD τ).loc main_arg0)) (m ((c : Thread nD τ).loc main_arg1)) (batchAt t) := by
  have hx : blockAt (iblk m c 0 t : Vec Ideal S1x128x128x128 .f32) = Cert.Stencil.at5 (m ((c : Thread nD τ).loc main_arg0)) (batchAt t) :=
    funext fun i => funext fun j => funext fun k => iblk_field m c t i j k
  have hd : blockAt (iblk m c 1 t : Vec Ideal S1x128x128x128 .f32) = Cert.Stencil.at5 (m ((c : Thread nD τ).loc main_arg1)) (batchAt t) :=
    funext fun i => funext fun j => funext fun k => iblk_data m c t i j k
  unfold pointTotal blockTotal Cert.Stencil.batchSum
  refine Finset.sum_congr rfl fun q _ => Finset.sum_congr rfl fun r _ => ?_
  refine (running_apply (iblk m c 0 t : Vec Ideal S1x128x128x128 .f32) (iblk m c 1 t : Vec Ideal S1x128x128x128 .f32) q r).trans ?_
  rw [hx, hd]
  rfl

/-- The first half's block ends at the sum of the first eight batch sums. -/
theorem halfHeld_zero (c : Dev nD) :
    halfHeld m c 0 (by decide) = ∑ j : Fin 8, Cert.Stencil.batchSum (m ((c : Thread nD τ).loc main_arg0)) (m ((c : Thread nD τ).loc main_arg1)) (Cert.Stencil.batchOf 0 j) := by
  have hN : cfg0.N = 16 := N_0
  have e : halfHeld m c 0 (by decide) = (((((((0 + pointTotal m c ⟨0, by omega⟩) + pointTotal m c ⟨1, by omega⟩) + pointTotal m c ⟨2, by omega⟩)
      + pointTotal m c ⟨3, by omega⟩) + pointTotal m c ⟨4, by omega⟩) + pointTotal m c ⟨5, by omega⟩) + pointTotal m c ⟨6, by omega⟩)
      + pointTotal m c ⟨7, by omega⟩ := rfl
  rw [e, zero_add, Fin.sum_univ_eight]
  simp only [pointTotal_eq]
  rfl

/-- The second half's block ends at the sum of the last eight batch sums. -/
theorem halfHeld_one (c : Dev nD) :
    halfHeld m c 1 (by decide) = ∑ j : Fin 8, Cert.Stencil.batchSum (m ((c : Thread nD τ).loc main_arg0)) (m ((c : Thread nD τ).loc main_arg1)) (Cert.Stencil.batchOf 1 j) := by
  have hN : cfg0.N = 16 := N_0
  have e : halfHeld m c 1 (by decide) = (((((((0 + pointTotal m c ⟨8, by omega⟩) + pointTotal m c ⟨9, by omega⟩) + pointTotal m c ⟨10, by omega⟩)
      + pointTotal m c ⟨11, by omega⟩) + pointTotal m c ⟨12, by omega⟩) + pointTotal m c ⟨13, by omega⟩) + pointTotal m c ⟨14, by omega⟩)
      + pointTotal m c ⟨15, by omega⟩ := rfl
  rw [e, zero_add, Fin.sum_univ_eight]
  simp only [pointTotal_eq]
  rfl

/-- A [1, 1, 1] array reshaped to a scalar reads its one entry. -/
theorem scalar_of_unit (X : S1x1x1.Idx → EReal) (j : S_.Idx) :
    shapeCast S_ X shapeCasts_S1x1x1_S_ j = X (ix3 (0 : Fin 1) (0 : Fin 1) (0 : Fin 1)) :=
  shapeCast_apply X _ j _ (by
    have h1 : ((S_ : Shape).rowMajor j).val < 1 := ((S_ : Shape).rowMajor j).isLt
    rw [Shape.rowMajor_val_three]
    show (0 * 1 + 0) * 1 + 0 = _
    omega)

/-- What the operations after the launch leave in the result: the loss in its fused arrangement. -/
theorem tail_value (c : Dev nD) :
    (Pipeline.afterTail₀ cfgs (dats m) 0 (V0 m) [hostOps1] c main_v10 : S_.Idx → EReal)
      = fun _ => Cert.Stencil.fusedLoss (m ((c : Thread nD τ).loc main_arg0)) (m ((c : Thread nD τ).loc main_arg1)) := by
  unfold Pipeline.afterTail₀
  simp only [List.flatten_cons, List.flatten_nil, List.append_nil]
  show StableHlo.after hostOps1 _ (Proc.devRef .tc main_v10) = _
  after_results
  have hA : Pipeline.withArrays (cfgs 0).spec c (V0 m c) (fun w => (dats m 0 c).arrAt w (cfgs 0).N) (Proc.devRef .tc main_v2)
      = finalArray m c :=
    (Pipeline.withArrays_arr spec0 launch0.win.arr_inj c _ _ 2).trans (arrAt_out m c)
  rw [hA]
  funext j
  show Cert.Stencil.one * Ideal.div
      ((shapeCast S_ (extractStridedSlice S1x1x1 ![0, 0, 0] (finalArray m c : S2x8x128.Idx → EReal) slices_S2x8x128_S1x1x1_0_0_0) shapeCasts_S1x1x1_S_ j : EReal)
        + (shapeCast S_ (extractStridedSlice S1x1x1 ![1, 0, 0] (finalArray m c : S2x8x128.Idx → EReal) slices_S2x8x128_S1x1x1_1_0_0) shapeCasts_S1x1x1_S_ j : EReal))
      Cert.Stencil.count * Cert.Stencil.weight = _
  rw [scalar_of_unit, scalar_of_unit,
    slice3_apply 0 0 0 (finalArray m c : S2x8x128.Idx → EReal) slices_S2x8x128_S1x1x1_0_0_0 (0 : Fin 1) (0 : Fin 1) (0 : Fin 1) (by omega) (by omega) (by omega),
    slice3_apply 1 0 0 (finalArray m c : S2x8x128.Idx → EReal) slices_S2x8x128_S1x1x1_1_0_0 (0 : Fin 1) (0 : Fin 1) (0 : Fin 1) (by omega) (by omega) (by omega)]
  show Cert.Stencil.one * Ideal.div (halfHeld m c 0 (by decide) + halfHeld m c 1 (by decide)) Cert.Stencil.count * Cert.Stencil.weight = _
  rw [halfHeld_zero, halfHeld_one]
  rfl

/-- The run, read: the result at the loss in its fused arrangement, the two arguments unchanged. -/
theorem run : θ_run defs (onTc (τ := τ) (main (F := Ideal))) ⟨m, fun _ => 0, ρ⟩ fun r => ∀ c : Dev nD,
      r.2.mem ((c.tc : Thread nD τ).loc main_v10)
        = (fun _ => Cert.Stencil.fusedLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Fused

end
-- ==== Proof.LibScatterRead.lean ====
/-
  Reading the result of a scatter at one index.

  A scatter is a left fold over the update indices, in row-major order: the step for update index j replaces the element
  at the operand index j lands on (its start plus its window coordinate, axis by axis) by the combining function applied
  to that element and the update's, and does nothing when j lands outside the operand.  Three facts follow from the fold
  alone, for any dimension numbers, operand, scatter indices and update:

    * an operand index no update index lands on keeps the operand's value;
    * when the combining function returns the update, an operand index exactly one update index lands on holds that
      update's element;
    * update index j lands on operand index i exactly when, on every axis, i's coordinate is the start plus the window
      coordinate.

  From the third, an operand index differing from every landing on ONE axis is an index nothing lands on.
-/
import Idealize.ShloMosaic.PureOps.ShapeOps

namespace Cert.ScatterRead

open Idealize.ShloMosaic

variable {s si u : Shape} {α : Type} {w : Nat}

/-- One step of the fold a scatter is: update position n (row-major) overwrites the element it lands on. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- A scatter is the fold of its steps over the update positions in order. -/
theorem scatter_eq_foldl (d : ScatterDims s si u) (f : α → α → α) (x : s.Idx → α) (idx : IVec si w) (upd : u.Idx → α) :
    Host.scatter d f x idx upd = (List.finRange u.numel).foldl (step d f idx upd) x := rfl

/-- A step leaves every index other than the one it lands on as it was. -/
theorem step_of_ne (d : ScatterDims s si u) (f : α → α → α) (idx : IVec si w) (upd : u.Idx → α) (r : s.Idx → α)
    (n : Fin u.numel) (i : s.Idx) (h : d.resultIdx? (u.rowMajor.symm n) idx ≠ some i) :
    step d f idx upd r n i = r i := by
  unfold step
  cases hres : d.resultIdx? (u.rowMajor.symm n) idx with
  | none => rfl
  | some i0 =>
    have hne : i ≠ i0 := fun e => h (e ▸ hres)
    exact if_neg hne

/-- A step combines the element it lands on with the update's. -/
theorem step_of_eq (d : ScatterDims s si u) (f : α → α → α) (idx : IVec si w) (upd : u.Idx → α) (r : s.Idx → α)
    (n : Fin u.numel) (i : s.Idx) (h : d.resultIdx? (u.rowMajor.symm n) idx = some i) :
    step d f idx upd r n i = f (r i) (upd (u.rowMajor.symm n)) := by
  unfold step
  rw [h]
  exact if_pos rfl

/-- Folding steps none of which lands on i leaves the value at i. -/
theorem foldl_keep (d : ScatterDims s si u) (f : α → α → α) (idx : IVec si w) (upd : u.Idx → α)
    (l : List (Fin u.numel)) (x : s.Idx → α) (i : s.Idx)
    (h : ∀ n ∈ l, d.resultIdx? (u.rowMajor.symm n) idx ≠ some i) :
    l.foldl (step d f idx upd) x i = x i := by
  induction l generalizing x with
  | nil => rfl
  | cons n l ih =>
    rw [List.foldl_cons, ih _ (fun m hm => h m (List.mem_cons_of_mem _ hm)),
      step_of_ne d f idx upd x n i (h n List.mem_cons_self)]

/-- Folding overwriting steps over positions without repeats, exactly one of which lands on i, leaves that position's
    update at i. -/
theorem foldl_unique (d : ScatterDims s si u) (idx : IVec si w) (upd : u.Idx → α)
    (l : List (Fin u.numel)) (hl : l.Nodup) (x : s.Idx → α) (i : s.Idx) (n0 : Fin u.numel) (h0 : n0 ∈ l)
    (hland : d.resultIdx? (u.rowMajor.symm n0) idx = some i)
    (huniq : ∀ n ∈ l, d.resultIdx? (u.rowMajor.symm n) idx = some i → n = n0) :
    l.foldl (step d (fun _ b => b) idx upd) x i = upd (u.rowMajor.symm n0) := by
  induction l generalizing x with
  | nil => cases h0
  | cons n l ih =>
    rw [List.foldl_cons]
    rw [List.nodup_cons] at hl
    by_cases hn : n = n0
    · subst hn
      rw [foldl_keep d _ idx upd l _ i
        (fun m hm hm' => hl.1 ((huniq m (List.mem_cons_of_mem _ hm) hm') ▸ hm)),
        step_of_eq d _ idx upd x n i hland]
    · have h0' : n0 ∈ l := (List.mem_cons.1 h0).resolve_left (fun e => hn e.symm)
      exact ih hl.2 _ h0' (fun m hm => huniq m (List.mem_cons_of_mem _ hm))

/-- An operand index no update index lands on keeps the operand's value. -/
theorem scatter_apply_of_no_landing (d : ScatterDims s si u) (f : α → α → α) (x : s.Idx → α) (idx : IVec si w)
    (upd : u.Idx → α) (i : s.Idx) (h : ∀ j, d.resultIdx? j idx ≠ some i) :
    Host.scatter d f x idx upd i = x i :=
  foldl_keep d f idx upd _ x i (fun n _ => h _)

/-- When the combining function returns the update, an operand index that update index j0 lands on and no other does
    holds the update's element at j0. -/
theorem scatter_set_apply_of_unique (d : ScatterDims s si u) (x : s.Idx → α) (idx : IVec si w) (upd : u.Idx → α)
    (i : s.Idx) (j0 : u.Idx) (hland : d.resultIdx? j0 idx = some i)
    (huniq : ∀ j, d.resultIdx? j idx = some i → j = j0) :
    Host.scatter d (fun _ b => b) x idx upd i = upd j0 := by
  have key := foldl_unique d idx upd (List.finRange u.numel) (List.nodup_finRange _) x i (u.rowMajor j0)
    (List.mem_finRange _) (by rw [Equiv.symm_apply_apply]; exact hland)
    (fun n _ hn => by rw [← huniq _ hn, Equiv.apply_symm_apply])
  rw [Equiv.symm_apply_apply] at key
  exact key

/-- Update index j lands on operand index i exactly when, on every axis, i's coordinate is the start plus the window
    coordinate. -/
theorem resultIdx?_eq_some_iff (d : ScatterDims s si u) (idx : IVec si w) (j : u.Idx) (i : s.Idx) :
    d.resultIdx? j idx = some i ↔ ∀ a, d.start j idx a + (d.window j a : ℤ) = ((i a).val : ℤ) := by
  unfold ScatterDims.resultIdx?
  constructor
  · intro h a
    split at h
    · next hb =>
      have e := Option.some.inj h
      rw [← e]
      exact (Int.toNat_of_nonneg (hb a).1).symm
    · cases h
  · intro h
    have hb : ∀ a, 0 ≤ d.start j idx a + (d.window j a : ℤ) ∧ d.start j idx a + (d.window j a : ℤ) < s.size a :=
      fun a => by rw [h a]; exact ⟨Int.natCast_nonneg _, by exact_mod_cast (i a).isLt⟩
    rw [dif_pos hb]
    congr 1
    funext a
    apply Fin.ext
    show Int.toNat _ = (i a).val
    rw [h a]
    exact Int.toNat_natCast _

/-- An operand index whose coordinate on one axis differs from every landing's coordinate on that axis keeps the
    operand's value. -/
theorem scatter_apply_of_axis_ne (d : ScatterDims s si u) (f : α → α → α) (x : s.Idx → α) (idx : IVec si w)
    (upd : u.Idx → α) (i : s.Idx) (a : Fin s.rank)
    (h : ∀ j, d.start j idx a + (d.window j a : ℤ) ≠ ((i a).val : ℤ)) :
    Host.scatter d f x idx upd i = x i :=
  scatter_apply_of_no_landing d f x idx upd i
    (fun j hj => h j ((resultIdx?_eq_some_iff d idx j i).1 hj a))

end Cert.ScatterRead
-- ==== Proof.RefScatterDims.lean ====
/-
  The fifteen overwrites that assemble the full Laplacian array, read at a grid point strictly inside the cube.

  The array [16, 128, 128, 128] is built from zeros by fifteen scatters with one start index each, a vector of three
  words giving the start on the three grid axes: first the interior window [16, 126, 126, 126] at start (1, 1, 1), then
  six faces (updates [16, 126, 126], one grid axis inserted, its start 0 or 127), then eight corners (updates [16],
  all three grid axes inserted, every start 0 or 127).

  A face or a corner lands only on indices whose coordinate on an inserted axis is that axis' start, 0 or 127, so a
  point with all three grid coordinates in 1..126 keeps its value through all fourteen.  The interior window lands
  update index (b; p, q, r) on (b; p + 1, q + 1, r + 1) and nothing else there.
-/
import proofs.«112707_j27608049779003_2_alg».proof.Proof.Gen.ReferenceIdeal
import proofs.«112707_j27608049779003_2_alg».proof.Proof.LibScatterRead
import Idealize.ShloMosaic.Lib.ValueIdx

namespace Cert.RefScatter

open Cert.ReferenceIdeal Cert.ReferenceIdeal.Gen Idealize.ShloMosaic Idealize.ShloMosaic.ValueIdx

/-- The start index of a scatter: three words laid side by side. -/
abbrev startVec (c0 c1 c2 : BitVec 32) : IVec S3 32 :=
  concatenate S3 0 [⟨S1, broadcastInDim S1 ![] bcast_S_S1 (constantI S_ 32 c0)⟩,
    ⟨S1, broadcastInDim S1 ![] bcast_S_S1 (constantI S_ 32 c1)⟩,
    ⟨S1, broadcastInDim S1 ![] bcast_S_S1 (constantI S_ 32 c2)⟩] concatenates_S1_S1_S1_S3_d0

/-- The start index read at a position is the word laid there. -/
theorem startVec_apply (c0 c1 c2 : BitVec 32) (k : S3.Idx) : startVec c0 c1 c2 k = ![c0, c1, c2] (k 0) := by
  obtain ⟨k0, rfl⟩ : ∃ k0 : Fin 3, k = ix1 k0 := ⟨k 0, eq_ix1 k⟩
  fin_cases k0 <;> rfl

theorem toInt_one : (1#32 : BitVec 32).toInt = 1 := by decide

/-! ## The faces: one grid axis inserted -/

/-- The dimension numbers of a face across the first grid axis. -/
abbrev Dface1 := scatter_S16x128x128x128_S3_S16x126x126_012_1_123_0
/-- The dimension numbers of a face across the second grid axis. -/
abbrev Dface2 := scatter_S16x128x128x128_S3_S16x126x126_012_2_123_0
/-- The dimension numbers of a face across the third grid axis. -/
abbrev Dface3 := scatter_S16x128x128x128_S3_S16x126x126_012_3_123_0
/-- The dimension numbers of a corner. -/
abbrev Dcorner := scatter_S16x128x128x128_S3_S16_0_123_123_0
/-- The dimension numbers of the interior window. -/
abbrev Dinner := scatter_S16x128x128x128_S3_S16x126x126x126_0123_n_123_0

theorem face1_start (j : S16x126x126.Idx) (c0 c1 c2 : BitVec 32) :
    Dface1.start j (startVec c0 c1 c2) 1 = c0.toInt := by
  unfold ScatterDims.start
  rw [dif_pos (by decide), startVec_apply]
  rfl

theorem face1_window (j : S16x126x126.Idx) : Dface1.window j 1 = 0 := by
  unfold ScatterDims.window
  exact dif_neg (by decide)

theorem face2_start (j : S16x126x126.Idx) (c0 c1 c2 : BitVec 32) :
    Dface2.start j (startVec c0 c1 c2) 2 = c1.toInt := by
  unfold ScatterDims.start
  rw [dif_pos (by decide), startVec_apply]
  rfl

theorem face2_window (j : S16x126x126.Idx) : Dface2.window j 2 = 0 := by
  unfold ScatterDims.window
  exact dif_neg (by decide)

theorem face3_start (j : S16x126x126.Idx) (c0 c1 c2 : BitVec 32) :
    Dface3.start j (startVec c0 c1 c2) 3 = c2.toInt := by
  unfold ScatterDims.start
  rw [dif_pos (by decide), startVec_apply]
  rfl

theorem face3_window (j : S16x126x126.Idx) : Dface3.window j 3 = 0 := by
  unfold ScatterDims.window
  exact dif_neg (by decide)

theorem corner_start (j : S16.Idx) (c0 c1 c2 : BitVec 32) :
    Dcorner.start j (startVec c0 c1 c2) 1 = c0.toInt := by
  unfold ScatterDims.start
  rw [dif_pos (by decide), startVec_apply]
  rfl

theorem corner_window (j : S16.Idx) : Dcorner.window j 1 = 0 := by
  unfold ScatterDims.window
  exact dif_neg (by decide)

/-- A face across the first grid axis, at start 0 or 127 there, leaves a point whose first grid coordinate is in 1..126. -/
theorem face1_miss {α : Type} (c0 c1 c2 : BitVec 32) (hc : c0.toInt = 0 ∨ c0.toInt = 127)
    (x : S16x128x128x128.Idx → α) (upd : S16x126x126.Idx → α) (b : Fin 16) (i1 i2 i3 : Fin 128)
    (h : 0 < i1.val ∧ i1.val < 127) :
    Host.scatter Dface1 (fun _ v => v) x (startVec c0 c1 c2) upd (ix4 b i1 i2 i3) = x (ix4 b i1 i2 i3) := by
  refine ScatterRead.scatter_apply_of_axis_ne Dface1 _ x _ upd _ 1 (fun j => ?_)
  rw [face1_start, face1_window]
  show c0.toInt + ((0 : ℕ) : ℤ) ≠ ((i1.val : ℕ) : ℤ)
  rcases hc with e | e <;> rw [e] <;> omega

/-- A face across the second grid axis leaves a point whose second grid coordinate is in 1..126. -/
theorem face2_miss {α : Type} (c0 c1 c2 : BitVec 32) (hc : c1.toInt = 0 ∨ c1.toInt = 127)
    (x : S16x128x128x128.Idx → α) (upd : S16x126x126.Idx → α) (b : Fin 16) (i1 i2 i3 : Fin 128)
    (h : 0 < i2.val ∧ i2.val < 127) :
    Host.scatter Dface2 (fun _ v => v) x (startVec c0 c1 c2) upd (ix4 b i1 i2 i3) = x (ix4 b i1 i2 i3) := by
  refine ScatterRead.scatter_apply_of_axis_ne Dface2 _ x _ upd _ 2 (fun j => ?_)
  rw [face2_start, face2_window]
  show c1.toInt + ((0 : ℕ) : ℤ) ≠ ((i2.val : ℕ) : ℤ)
  rcases hc with e | e <;> rw [e] <;> omega

/-- A face across the third grid axis leaves a point whose third grid coordinate is in 1..126. -/
theorem face3_miss {α : Type} (c0 c1 c2 : BitVec 32) (hc : c2.toInt = 0 ∨ c2.toInt = 127)
    (x : S16x128x128x128.Idx → α) (upd : S16x126x126.Idx → α) (b : Fin 16) (i1 i2 i3 : Fin 128)
    (h : 0 < i3.val ∧ i3.val < 127) :
    Host.scatter Dface3 (fun _ v => v) x (startVec c0 c1 c2) upd (ix4 b i1 i2 i3) = x (ix4 b i1 i2 i3) := by
  refine ScatterRead.scatter_apply_of_axis_ne Dface3 _ x _ upd _ 3 (fun j => ?_)
  rw [face3_start, face3_window]
  show c2.toInt + ((0 : ℕ) : ℤ) ≠ ((i3.val : ℕ) : ℤ)
  rcases hc with e | e <;> rw [e] <;> omega

/-- A corner, whose start on the first grid axis is 0 or 127, leaves a point whose first grid coordinate is in 1..126. -/
theorem corner_miss {α : Type} (c0 c1 c2 : BitVec 32) (hc : c0.toInt = 0 ∨ c0.toInt = 127)
    (x : S16x128x128x128.Idx → α) (upd : S16.Idx → α) (b : Fin 16) (i1 i2 i3 : Fin 128)
    (h : 0 < i1.val ∧ i1.val < 127) :
    Host.scatter Dcorner (fun _ v => v) x (startVec c0 c1 c2) upd (ix4 b i1 i2 i3) = x (ix4 b i1 i2 i3) := by
  refine ScatterRead.scatter_apply_of_axis_ne Dcorner _ x _ upd _ 1 (fun j => ?_)
  rw [corner_start, corner_window]
  show c0.toInt + ((0 : ℕ) : ℤ) ≠ ((i1.val : ℕ) : ℤ)
  rcases hc with e | e <;> rw [e] <;> omega

/-! ## The interior window: no axis inserted -/

theorem inner_coord0 (j : S16x126x126x126.Idx) (c0 c1 c2 : BitVec 32) :
    Dinner.start j (startVec c0 c1 c2) 0 + (Dinner.window j 0 : ℤ) = ((j 0).val : ℤ) := by
  have hs : Dinner.start j (startVec c0 c1 c2) 0 = 0 := by
    unfold ScatterDims.start; exact dif_neg (by decide)
  have hw : Dinner.window j 0 = (j 0).val := by
    unfold ScatterDims.window; rw [dif_pos (by decide)]; rfl
  rw [hs, hw, zero_add]

theorem inner_coord1 (j : S16x126x126x126.Idx) (c0 c1 c2 : BitVec 32) :
    Dinner.start j (startVec c0 c1 c2) 1 + (Dinner.window j 1 : ℤ) = c0.toInt + ((j 1).val : ℤ) := by
  have hs : Dinner.start j (startVec c0 c1 c2) 1 = c0.toInt := by
    unfold ScatterDims.start; rw [dif_pos (by decide), startVec_apply]; rfl
  have hw : Dinner.window j 1 = (j 1).val := by
    unfold ScatterDims.window; rw [dif_pos (by decide)]; rfl
  rw [hs, hw]

theorem inner_coord2 (j : S16x126x126x126.Idx) (c0 c1 c2 : BitVec 32) :
    Dinner.start j (startVec c0 c1 c2) 2 + (Dinner.window j 2 : ℤ) = c1.toInt + ((j 2).val : ℤ) := by
  have hs : Dinner.start j (startVec c0 c1 c2) 2 = c1.toInt := by
    unfold ScatterDims.start; rw [dif_pos (by decide), startVec_apply]; rfl
  have hw : Dinner.window j 2 = (j 2).val := by
    unfold ScatterDims.window; rw [dif_pos (by decide)]; rfl
  rw [hs, hw]

theorem inner_coord3 (j : S16x126x126x126.Idx) (c0 c1 c2 : BitVec 32) :
    Dinner.start j (startVec c0 c1 c2) 3 + (Dinner.window j 3 : ℤ) = c2.toInt + ((j 3).val : ℤ) := by
  have hs : Dinner.start j (startVec c0 c1 c2) 3 = c2.toInt := by
    unfold ScatterDims.start; rw [dif_pos (by decide), startVec_apply]; rfl
  have hw : Dinner.window j 3 = (j 3).val := by
    unfold ScatterDims.window; rw [dif_pos (by decide)]; rfl
  rw [hs, hw]

/-- The interior window at start (1, 1, 1) puts update element (b; p, q, r) at (b; p + 1, q + 1, r + 1). -/
theorem inner_read {α : Type} (x : S16x128x128x128.Idx → α) (upd : S16x126x126x126.Idx → α) (b : Fin 16)
    (p q r : Fin 126) (i1 i2 i3 : Fin 128) (h1 : i1.val = p.val + 1) (h2 : i2.val = q.val + 1)
    (h3 : i3.val = r.val + 1) :
    Host.scatter Dinner (fun _ v => v) x (startVec 1#32 1#32 1#32) upd (ix4 b i1 i2 i3) = upd (ix4 b p q r) := by
  refine ScatterRead.scatter_set_apply_of_unique Dinner x _ upd _ (ix4 b p q r) ?_ ?_
  · rw [ScatterRead.resultIdx?_eq_some_iff]
    intro a
    fin_cases a
    · exact inner_coord0 _ _ _ _
    · refine (inner_coord1 _ _ _ _).trans ?_
      rw [toInt_one]
      show (1 : ℤ) + ((p.val : ℕ) : ℤ) = ((i1.val : ℕ) : ℤ)
      omega
    · refine (inner_coord2 _ _ _ _).trans ?_
      rw [toInt_one]
      show (1 : ℤ) + ((q.val : ℕ) : ℤ) = ((i2.val : ℕ) : ℤ)
      omega
    · refine (inner_coord3 _ _ _ _).trans ?_
      rw [toInt_one]
      show (1 : ℤ) + ((r.val : ℕ) : ℤ) = ((i3.val : ℕ) : ℤ)
      omega
  · intro j hj
    rw [ScatterRead.resultIdx?_eq_some_iff] at hj
    have e0 : ((j 0).val : ℤ) = ((b.val : ℕ) : ℤ) := (inner_coord0 j _ _ _).symm.trans (hj 0)
    have e1 : (1#32 : BitVec 32).toInt + ((j 1).val : ℤ) = ((i1.val : ℕ) : ℤ) :=
      (inner_coord1 j _ _ _).symm.trans (hj 1)
    have e2 : (1#32 : BitVec 32).toInt + ((j 2).val : ℤ) = ((i2.val : ℕ) : ℤ) :=
      (inner_coord2 j _ _ _).symm.trans (hj 2)
    have e3 : (1#32 : BitVec 32).toInt + ((j 3).val : ℤ) = ((i3.val : ℕ) : ℤ) :=
      (inner_coord3 j _ _ _).symm.trans (hj 3)
    rw [toInt_one] at e1 e2 e3
    have f0 : j 0 = b := Fin.ext (by omega)
    have f1 : j 1 = p := Fin.ext (by omega)
    have f2 : j 2 = q := Fin.ext (by omega)
    have f3 : j 3 = r := Fin.ext (by omega)
    have e := eq_ix4 j
    rw [f0, f1, f2, f3] at e
    exact e

end Cert.RefScatter
-- ==== Proof.RefInterior.lean ====
/-
  The reference's residual array at an interior point.

  The reference divides the field by one, builds the full Laplacian array [16, 128, 128, 128] from zeros by fifteen
  overwrites (the interior window, six faces, eight corners), cuts the interior [16, 126, 126, 126] back out and adds
  the interior of the data.  At interior point (b; p, q, r) the cut reads grid point (p + 1, q + 1, r + 1), which the
  faces and corners leave alone and the interior window fills with

    (n₊ + n₋ - 2 c) * s + (e₊ + e₋ - 2 c) * s + (u₊ + u₋ - 2 c) * s,

  each letter a field value divided by one: the per-axis arrangement of the specification.
-/
import proofs.«112707_j27608049779003_2_alg».proof.Proof.Gen.ReferenceIdeal.Run
import proofs.«112707_j27608049779003_2_alg».proof.Proof.Stencil
import proofs.«112707_j27608049779003_2_alg».proof.Proof.RefScatterDims
import Idealize.ShloMosaic.Lib.IdealHost
import Idealize.ShloMosaic.Lib.Pipeline.Value

noncomputable section

namespace Cert.RefInterior

open Cert.ReferenceIdeal Cert.ReferenceIdeal.Gen Cert.ReferenceIdeal.Value Idealize.ShloMosaic
  Idealize.ShloMosaic.ValueIdx Idealize.ShloMosaic.StableHlo Cert.RefScatter
open Cert.Stencil (lo mid hi over1 at5 two scale axisResidual)

/-! ## Coordinates -/

theorem lo_eq (p : Fin 126) : (lo p).val = 0 + p.val := by show p.val = 0 + p.val; omega
theorem mid_eq (p : Fin 126) : (mid p).val = 1 + p.val := by show p.val + 1 = 1 + p.val; omega
theorem hi_eq (p : Fin 126) : (hi p).val = 2 + p.val := by show p.val + 2 = 2 + p.val; omega

/-- The grid coordinate of an interior point lies strictly between the two faces. -/
theorem mid_inside (p : Fin 126) : 0 < (mid p).val ∧ (mid p).val < 127 :=
  ⟨Nat.succ_pos _, by show p.val + 1 < 127; omega⟩

/-- The interior cut at offsets (o₁, o₂, o₃) reads the grid point each coordinate of which is the offset plus the
    interior coordinate. -/
theorem slice4_at {α : Type} (o1 o2 o3 : ℕ) (X : S16x128x128x128.Idx → α)
    (h : S16x128x128x128.Slices ![0, o1, o2, o3] S16x126x126x126) (b : Fin 16) (p q r : Fin 126) (i j k : Fin 128)
    (e1 : i.val = o1 + p.val) (e2 : j.val = o2 + q.val) (e3 : k.val = o3 + r.val) :
    extractStridedSlice S16x126x126x126 ![0, o1, o2, o3] X h (ix4 b p q r) = X (ix4 b i j k) :=
  extractStridedSlice_apply _ X h _ _ (fun a => by
    fin_cases a
    · show b.val = 0 + b.val; omega
    · exact e1
    · exact e2
    · exact e3)

/-- Dropping the unit axis of a [16, 1, 128, 128, 128] array: (b; i, j, k) reads (b, 0; i, j, k). -/
theorem cast5_at {α : Type} (X : S16x1x128x128x128.Idx → α) (h : S16x1x128x128x128.ShapeCasts S16x128x128x128)
    (b : Fin 16) (i j k : Fin 128) :
    shapeCast S16x128x128x128 X h (ix4 b i j k) = X (ix5 b (0 : Fin 1) i j k) :=
  shapeCast_apply X h _ _ (by
    rw [Shape.rowMajor_val_five, Shape.rowMajor_val_four]
    show (((b.val * 1 + 0) * 128 + i.val) * 128 + j.val) * 128 + k.val
      = ((b.val * 128 + i.val) * 128 + j.val) * 128 + k.val
    omega)

variable (V0 : Valuation τ sig (Elt Ideal))

/-- The field divided by one, at a grid point. -/
theorem v2_at (b : Fin 16) (i j k : Fin 128) :
    res_main_v2 V0 (ix4 b i j k) = over1 (V0 (Proc.devRef .tc main_arg0)) b i j k := by
  unfold res_main_v2
  rw [hostDivf_apply, broadcastInDim_scalar_apply, constant_apply]
  exact congrArg (fun u : EReal => Ideal.div u (Ideal.ofBits .f32 0x3F800000#32)) (cast5_at _ _ b i j k)

/-- An interior cut of the field divided by one. -/
theorem v2_slice (o1 o2 o3 : ℕ) (h : S16x128x128x128.Slices ![0, o1, o2, o3] S16x126x126x126) (b : Fin 16)
    (p q r : Fin 126) (i j k : Fin 128) (e1 : i.val = o1 + p.val) (e2 : j.val = o2 + q.val)
    (e3 : k.val = o3 + r.val) :
    extractStridedSlice S16x126x126x126 ![0, o1, o2, o3] (res_main_v2 V0) h (ix4 b p q r)
      = over1 (V0 (Proc.devRef .tc main_arg0)) b i j k :=
  (slice4_at o1 o2 o3 _ h b p q r i j k e1 e2 e3).trans (v2_at V0 b i j k)

/-- The per-axis Laplacian at an interior point. -/
def axisLap (x : Cert.Stencil.Field.Idx → EReal) (b : Fin 16) (p q r : Fin 126) : EReal :=
  (((over1 x b (hi p) (mid q) (mid r) + over1 x b (lo p) (mid q) (mid r)) - two * over1 x b (mid p) (mid q) (mid r)) * scale
    + ((over1 x b (mid p) (hi q) (mid r) + over1 x b (mid p) (lo q) (mid r)) - two * over1 x b (mid p) (mid q) (mid r)) * scale)
    + ((over1 x b (mid p) (mid q) (hi r) + over1 x b (mid p) (mid q) (lo r)) - two * over1 x b (mid p) (mid q) (mid r)) * scale

theorem axisResidual_eq (x d : Cert.Stencil.Field.Idx → EReal) (b : Fin 16) (p q r : Fin 126) :
    axisResidual x d b p q r = axisLap x b p q r + at5 d b (mid p) (mid q) (mid r) := rfl

/-! ## Through the fifteen overwrites -/

/-- After the interior window and the first face: the Laplacian at the grid point of an interior point. -/
theorem v85_at (b : Fin 16) (p q r : Fin 126) :
    res_main_v85 V0 (ix4 b (mid p) (mid q) (mid r)) = axisLap (V0 (Proc.devRef .tc main_arg0)) b p q r := by
  unfold res_main_v85
  refine (face1_miss _ _ _ (by decide) _ _ b _ _ _ (mid_inside p)).trans ?_
  refine (inner_read _ _ b p q r _ _ _ rfl rfl rfl).trans ?_
  simp only [addf_apply, mulf_apply, subf_apply, broadcastInDim_scalar_apply, constant_apply]
  unfold res_main_v4
  rw [v2_slice V0 2 1 1 _ b p q r (hi p) (mid q) (mid r) (hi_eq p) (mid_eq q) (mid_eq r),
    v2_slice V0 0 1 1 _ b p q r (lo p) (mid q) (mid r) (lo_eq p) (mid_eq q) (mid_eq r),
    v2_slice V0 1 2 1 _ b p q r (mid p) (hi q) (mid r) (mid_eq p) (hi_eq q) (mid_eq r),
    v2_slice V0 1 0 1 _ b p q r (mid p) (lo q) (mid r) (mid_eq p) (lo_eq q) (mid_eq r),
    v2_slice V0 1 1 2 _ b p q r (mid p) (mid q) (hi r) (mid_eq p) (mid_eq q) (hi_eq r),
    v2_slice V0 1 1 0 _ b p q r (mid p) (mid q) (lo r) (mid_eq p) (mid_eq q) (lo_eq r),
    v2_slice V0 1 1 1 _ b p q r (mid p) (mid q) (mid r) (mid_eq p) (mid_eq q) (mid_eq r)]
  rfl

variable (b : Fin 16) (i1 i2 i3 : Fin 128)

theorem v185_inside (h1 : 0 < i1.val ∧ i1.val < 127) (h2 : 0 < i2.val ∧ i2.val < 127) :
    res_main_v185 V0 (ix4 b i1 i2 i3) = res_main_v85 V0 (ix4 b i1 i2 i3) := by
  unfold res_main_v185
  exact (face2_miss _ _ _ (by decide) _ _ b i1 i2 i3 h2).trans (face1_miss _ _ _ (by decide) _ _ b i1 i2 i3 h1)

theorem v283_inside (h2 : 0 < i2.val ∧ i2.val < 127) (h3 : 0 < i3.val ∧ i3.val < 127) :
    res_main_v283 V0 (ix4 b i1 i2 i3) = res_main_v185 V0 (ix4 b i1 i2 i3) := by
  unfold res_main_v283
  exact (face3_miss _ _ _ (by decide) _ _ b i1 i2 i3 h3).trans (face2_miss _ _ _ (by decide) _ _ b i1 i2 i3 h2)

theorem v395_inside (h1 : 0 < i1.val ∧ i1.val < 127) (h3 : 0 < i3.val ∧ i3.val < 127) :
    res_main_v395 V0 (ix4 b i1 i2 i3) = res_main_v283 V0 (ix4 b i1 i2 i3) := by
  unfold res_main_v395
  exact (corner_miss _ _ _ (by decide) _ _ b i1 i2 i3 h1).trans (face3_miss _ _ _ (by decide) _ _ b i1 i2 i3 h3)

theorem v523_inside (h1 : 0 < i1.val ∧ i1.val < 127) :
    res_main_v523 V0 (ix4 b i1 i2 i3) = res_main_v395 V0 (ix4 b i1 i2 i3) := by
  unfold res_main_v523
  exact (corner_miss _ _ _ (by decide) _ _ b i1 i2 i3 h1).trans (corner_miss _ _ _ (by decide) _ _ b i1 i2 i3 h1)

theorem v651_inside (h1 : 0 < i1.val ∧ i1.val < 127) :
    res_main_v651 V0 (ix4 b i1 i2 i3) = res_main_v523 V0 (ix4 b i1 i2 i3) := by
  unfold res_main_v651
  exact (corner_miss _ _ _ (by decide) _ _ b i1 i2 i3 h1).trans (corner_miss _ _ _ (by decide) _ _ b i1 i2 i3 h1)

theorem v779_inside (h1 : 0 < i1.val ∧ i1.val < 127) :
    res_main_v779 V0 (ix4 b i1 i2 i3) = res_main_v651 V0 (ix4 b i1 i2 i3) := by
  unfold res_main_v779
  exact (corner_miss _ _ _ (by decide) _ _ b i1 i2 i3 h1).trans (corner_miss _ _ _ (by decide) _ _ b i1 i2 i3 h1)

/-- The interior of the data, at an interior point. -/
theorem data_at (D : S16x1x128x128x128.Idx → EReal)
    (h : S16x1x128x128x128.Slices ![0, 0, 1, 1, 1] S16x1x126x126x126)
    (h' : S16x1x126x126x126.ShapeCasts S16x126x126x126) (p q r : Fin 126) :
    shapeCast S16x126x126x126 (extractStridedSlice S16x1x126x126x126 ![0, 0, 1, 1, 1] D h) h' (ix4 b p q r)
      = at5 D b (mid p) (mid q) (mid r) := by
  rw [shapeCast_apply _ _ (ix4 b p q r) (ix5 b (0 : Fin 1) p q r) (by
      rw [Shape.rowMajor_val_five, Shape.rowMajor_val_four]
      show (((b.val * 1 + 0) * 126 + p.val) * 126 + q.val) * 126 + r.val
        = ((b.val * 126 + p.val) * 126 + q.val) * 126 + r.val
      omega),
    extractStridedSlice_apply _ D h _ (ix5 b (0 : Fin 1) (mid p) (mid q) (mid r)) (fun a => by
      fin_cases a
      · show b.val = 0 + b.val; omega
      · rfl
      · exact mid_eq p
      · exact mid_eq q
      · exact mid_eq r)]
  rfl

/-- The reference's residual array at an interior point is the per-axis Laplacian plus the data. -/
theorem residual_at (p q r : Fin 126) :
    res_main_v847 V0 (ix4 b p q r)
      = axisResidual (V0 (Proc.devRef .tc main_arg0)) (V0 (Proc.devRef .tc main_arg1)) b p q r := by
  unfold res_main_v847
  rw [addf_apply, axisResidual_eq]
  refine congrArg₂ (fun u v : EReal => u + v) ?_ (data_at b _ _ _ p q r)
  refine (slice4_at 1 1 1 _ _ b p q r (mid p) (mid q) (mid r) (mid_eq p) (mid_eq q) (mid_eq r)).trans ?_
  refine (corner_miss _ _ _ (by decide) _ _ b _ _ _ (mid_inside p)).trans ?_
  rw [v779_inside V0 b _ _ _ (mid_inside p), v651_inside V0 b _ _ _ (mid_inside p),
    v523_inside V0 b _ _ _ (mid_inside p), v395_inside V0 b _ _ _ (mid_inside p) (mid_inside r),
    v283_inside V0 b _ _ _ (mid_inside q) (mid_inside r), v185_inside V0 b _ _ _ (mid_inside p) (mid_inside q)]
  exact v85_at V0 b p q r

end Cert.RefInterior
-- ==== Proof.RefLoss.lean ====
/-
  The reference's loss as a function of its two arguments.

  The reference squares its residual array, sums it over all four axes from the zero word, divides by the number of
  interior points, multiplies one by that quotient and the product by the weight.  With the residual at each interior
  point the per-axis Laplacian plus the data, that is the specification's per-axis total.
-/
import proofs.«112707_j27608049779003_2_alg».proof.Proof.Gen.ReferenceIdeal.Run
import proofs.«112707_j27608049779003_2_alg».proof.Proof.Stencil
import proofs.«112707_j27608049779003_2_alg».proof.Proof.RefInterior
import Idealize.ShloMosaic.Lib.IdealHost

noncomputable section

open scoped BigOperators

namespace Cert.RefLoss

open Cert.ReferenceIdeal Cert.ReferenceIdeal.Gen Cert.ReferenceIdeal.Value Idealize.ShloMosaic
  Idealize.ShloMosaic.ValueIdx Idealize.ShloMosaic.StableHlo

/-- The sum of the squared residual array over every interior point is the sum of the per-axis squared residuals. -/
theorem sum_sq (V0 : Valuation τ sig (Elt Ideal)) :
    (∑ i : S16x126x126x126.Idx, mulf (res_main_v847 V0) (res_main_v847 V0) i)
      = ∑ i : Cert.Stencil.Inner.Idx,
          Cert.Stencil.axisSq (V0 (Proc.devRef .tc main_arg0)) (V0 (Proc.devRef .tc main_arg1)) (i 0) (i 1) (i 2) (i 3) := by
  refine Finset.sum_congr rfl (fun i _ => ?_)
  rw [mulf_apply]
  have e : res_main_v847 V0 i
      = Cert.Stencil.axisResidual (V0 (Proc.devRef .tc main_arg0)) (V0 (Proc.devRef .tc main_arg1)) (i 0) (i 1) (i 2) (i 3) := by
    exact (congrArg (res_main_v847 V0) (eq_ix4 i)).trans (Cert.RefInterior.residual_at V0 (i 0) (i 1) (i 2) (i 3))
  rw [e]
  rfl

/-- The reference's result is the per-axis total of the specification. -/
theorem ref_loss (V0 : Valuation τ sig (Elt Ideal)) :
    (mulf (mulf (constant (F := Ideal) S_ .f32 0x3F800000#32)
        (Host.divf (Host.reduceAdd (mulf (res_main_v847 V0) (res_main_v847 V0)) (constant (F := Ideal) S_ .f32 0x00000000#32)
          reducesTo_S16x126x126x126_S_d0_1_2_3 h_S_) (constant (F := Ideal) S_ .f32 0x4BF42FC0#32)))
        (constant (F := Ideal) S_ .f32 0x3E4CCCCD#32)
      : (Proc.devRef .tc main_v852 : DevRef τ sig).ty.Contents (Elt Ideal))
      = fun _ => Cert.Stencil.axisLoss (V0 (Proc.devRef .tc main_arg0)) (V0 (Proc.devRef .tc main_arg1)) := by
  funext j
  rw [mulf_apply, mulf_apply, hostDivf_apply, hostReduceAdd_apply,
    Ideal.hostReduceAdd_total _ (fun b => b.elim0)]
  simp only [constant_apply, Ideal.ofBits_zero_f32]
  exact congrArg (fun t : EReal => Ideal.ofBits .f32 0x3F800000#32
    * Ideal.div (0 + t) (Ideal.ofBits .f32 0x4BF42FC0#32) * Ideal.ofBits .f32 0x3E4CCCCD#32) (sum_sq V0)

end Cert.RefLoss
-- ==== Proof.LossAlgebraPoint.lean ====
/-
  At one interior point the two arrangements of the squared residual agree when the values are real numbers.

  Write a₊ a₋, b₊ b₋, c₊ c₋ for the two neighbours along each axis, m for the centre, e for the data and s = 16384.
  The fused arrangement is (s (a₊ + a₋ + b₊ + b₋ + c₊ + c₋ - 6 m) + e)², the per-axis arrangement is
  ((a₊/1 + a₋/1 - 2 (m/1)) s + (b₊/1 + b₋/1 - 2 (m/1)) s + (c₊/1 + c₋/1 - 2 (m/1)) s + e)².  Over the real numbers the two
  residuals are the same polynomial.  (On the extended reals they differ, e.g. where a₊ = +∞ and b₊ = -∞ meet; hence
  the hypothesis.)
-/
import proofs.«112707_j27608049779003_2_alg».proof.Proof.Stencil

noncomputable section

namespace Cert.LossAlgebra

open Idealize.ShloMosaic Idealize.ShloMosaic.ValueIdx Cert.Stencil

/-! ## The literals as real numbers -/

/-- The word 0x46800000 denotes 2¹⁴. -/
theorem scale_eq : scale = ((16384 : ℝ) : EReal) := by
  simp [scale, Ideal.ofBits, Ideal.ieee, -EReal.coe_mul]; norm_num

/-- The word 0x40C00000 denotes 6. -/
theorem six_eq : six = ((6 : ℝ) : EReal) := by
  simp [six, Ideal.ofBits, Ideal.ieee, -EReal.coe_mul]; norm_num

/-- The word 0x40000000 denotes 2. -/
theorem two_eq : two = ((2 : ℝ) : EReal) := by
  simp [two, Ideal.ofBits, Ideal.ieee, -EReal.coe_mul]; norm_num

/-- The word 0x3F800000 denotes 1. -/
theorem one_eq : one = ((1 : ℝ) : EReal) := by
  simp [one, Ideal.ofBits, Ideal.ieee, -EReal.coe_mul]; norm_num

/-! ## The residual on real values -/

/-- The two arrangements of the residual are the same real polynomial in the eight values. -/
theorem residual_real (a₁ a₂ b₁ b₂ c₁ c₂ m e : ℝ) :
    scale * (((((((a₁ : EReal) + a₂) + b₁) + b₂) + c₁) + c₂) - six * m) + e
      = ((((Ideal.div a₁ one + Ideal.div a₂ one) - two * Ideal.div m one) * scale
          + ((Ideal.div b₁ one + Ideal.div b₂ one) - two * Ideal.div m one) * scale)
          + ((Ideal.div c₁ one + Ideal.div c₂ one) - two * Ideal.div m one) * scale) + e := by
  rw [scale_eq, six_eq, two_eq, one_eq]
  simp only [Ideal.div_coe (one_ne_zero : (1 : ℝ) ≠ 0), ← EReal.coe_mul, ← EReal.coe_add, ← EReal.coe_sub]
  exact congrArg _ (by ring)

/-! ## The squared residual at a point -/

/-- Where both arrays hold real numbers the fused and the per-axis squared residuals are equal. -/
theorem fusedSq_eq_axisSq (x d : Field.Idx → EReal) (hx : ∀ i, ∃ r : ℝ, x i = (r : EReal))
    (hd : ∀ i, ∃ r : ℝ, d i = (r : EReal)) (b : Fin 16) (p q r : Fin 126) :
    fusedSq x d b p q r = axisSq x d b p q r := by
  obtain ⟨a₁, h₁⟩ : ∃ t : ℝ, at5 x b (hi p) (mid q) (mid r) = t := hx _
  obtain ⟨a₂, h₂⟩ : ∃ t : ℝ, at5 x b (lo p) (mid q) (mid r) = t := hx _
  obtain ⟨b₁, h₃⟩ : ∃ t : ℝ, at5 x b (mid p) (hi q) (mid r) = t := hx _
  obtain ⟨b₂, h₄⟩ : ∃ t : ℝ, at5 x b (mid p) (lo q) (mid r) = t := hx _
  obtain ⟨c₁, h₅⟩ : ∃ t : ℝ, at5 x b (mid p) (mid q) (hi r) = t := hx _
  obtain ⟨c₂, h₆⟩ : ∃ t : ℝ, at5 x b (mid p) (mid q) (lo r) = t := hx _
  obtain ⟨m, h₇⟩ : ∃ t : ℝ, at5 x b (mid p) (mid q) (mid r) = t := hx _
  obtain ⟨e, h₈⟩ : ∃ t : ℝ, at5 d b (mid p) (mid q) (mid r) = t := hd _
  unfold fusedSq axisSq axisResidual over1
  rw [h₁, h₂, h₃, h₄, h₅, h₆, h₇, h₈, residual_real]

end Cert.LossAlgebra

end
-- ==== Proof.LossAlgebraSums.lean ====
/-
  The bookkeeping of the two totals: how a sum over all interior points of all batches is cut up.

  The per-axis total runs over the rank-4 index set [16, 126, 126, 126] at once.  The fused total adds the sixteen batches
  as two halves of eight; inside a batch it runs, for each (q, r), over the fourteen groups of nine planes.  All of this is
  re-indexing of finite sums in a commutative monoid (the extended reals are one: no finiteness is needed here):

    * a sum over a rank-4 index set is the fourfold sum over its coordinates;
    * the 126 planes are the 14 × 9 pairs (group, plane within the group), p = 9 c + p';
    * the 16 batches are the 2 × 8 pairs (half, batch within the half), b = 8 g + j;
    * the order of summation (q, r, c, p') may be turned into (c, p', q, r).
-/
import proofs.«112707_j27608049779003_2_alg».proof.Proof.Stencil

noncomputable section

open scoped BigOperators

namespace Cert.LossAlgebra

open Idealize.ShloMosaic Idealize.ShloMosaic.ValueIdx Cert.Stencil

variable {M : Type*} [AddCommMonoid M]

/-! ## A rank-4 index set is the product of its coordinate ranges -/

/-- A rank-4 index is the quadruple of its coordinates … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun t := ix4 t.1 t.2.1 t.2.2.1 t.2.2.2
  left_inv i := (eq_ix4 i).symm
  right_inv _ := rfl

/-- … so a sum over the index set is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ e : Fin n3, f (ix4 a b c e) := by
  rw [← Equiv.sum_comp (idxEquiv4 (n0 := n0) (n1 := n1) (n2 := n2) (n3 := n3)).symm f]
  simp only [Fintype.sum_prod_type]
  rfl

/-! ## Planes in groups of nine, batches in halves of eight -/

/-- Plane p = 9 c + p' is plane p' of group c: quotient and remainder by nine. -/
def planeEquiv : Fin 14 × Fin 9 ≃ Fin 126 where
  toFun t := plane t.1 t.2
  invFun p := (⟨p.val / 9, by omega⟩, ⟨p.val % 9, by omega⟩)
  left_inv t := by
    obtain ⟨c, p'⟩ := t
    refine Prod.ext (Fin.ext ?_) (Fin.ext ?_)
    · show (9 * c.val + p'.val) / 9 = c.val
      omega
    · show (9 * c.val + p'.val) % 9 = p'.val
      omega
  right_inv p := by
    refine Fin.ext ?_
    show 9 * (p.val / 9) + p.val % 9 = p.val
    omega

/-- A sum over the planes, taken group by group. -/
theorem sum_planes (h : Fin 126 → M) : ∑ p, h p = ∑ c : Fin 14, ∑ p' : Fin 9, h (plane c p') := by
  rw [← Equiv.sum_comp planeEquiv h, Fintype.sum_prod_type]
  rfl

/-- Batch b = 8 g + j is batch j of half g: quotient and remainder by eight. -/
def batchEquiv : Fin 2 × Fin 8 ≃ Fin 16 where
  toFun t := batchOf t.1 t.2
  invFun b := (⟨b.val / 8, by omega⟩, ⟨b.val % 8, by omega⟩)
  left_inv t := by
    obtain ⟨g, j⟩ := t
    refine Prod.ext (Fin.ext ?_) (Fin.ext ?_)
    · show (8 * g.val + j.val) / 8 = g.val
      omega
    · show (8 * g.val + j.val) % 8 = j.val
      omega
  right_inv b := by
    refine Fin.ext ?_
    show 8 * (b.val / 8) + b.val % 8 = b.val
    omega

/-- A sum over the batches, taken as the first half plus the second half. -/
theorem sum_batches (h : Fin 16 → M) :
    ∑ b, h b = ∑ j : Fin 8, h (batchOf 0 j) + ∑ j : Fin 8, h (batchOf 1 j) := by
  rw [← Equiv.sum_comp batchEquiv h, Fintype.sum_prod_type, Fin.sum_univ_two]
  rfl

/-! ## The order of summation -/

/-- Summation over (q, r, c, p') in that order is summation over (c, p', q, r). -/
theorem sum_turn {A B C D : Type*} [Fintype A] [Fintype B] [Fintype C] [Fintype D] (G : A → B → C → D → M) :
    ∑ q, ∑ r, ∑ c, ∑ p', G c p' q r = ∑ c, ∑ p', ∑ q, ∑ r, G c p' q r :=
  calc ∑ q, ∑ r, ∑ c, ∑ p', G c p' q r
      = ∑ q, ∑ c, ∑ r, ∑ p', G c p' q r := Finset.sum_congr rfl fun _ _ => Finset.sum_comm
    _ = ∑ c, ∑ q, ∑ r, ∑ p', G c p' q r := Finset.sum_comm
    _ = ∑ c, ∑ q, ∑ p', ∑ r, G c p' q r :=
        Finset.sum_congr rfl fun _ _ => Finset.sum_congr rfl fun _ _ => Finset.sum_comm
    _ = ∑ c, ∑ p', ∑ q, ∑ r, G c p' q r := Finset.sum_congr rfl fun _ _ => Finset.sum_comm

/-! ## One batch, and all of them -/

/-- One batch's sum in the order it is accumulated is the plain sum over the batch's interior points. -/
theorem batchSum_eq (x d : Field.Idx → EReal) (b : Fin 16) :
    batchSum x d b = ∑ p : Fin 126, ∑ q : Fin 126, ∑ r : Fin 126, fusedSq x d b p q r := by
  rw [sum_planes (fun p => ∑ q : Fin 126, ∑ r : Fin 126, fusedSq x d b p q r)]
  exact sum_turn (fun c p' q r => fusedSq x d b (plane c p') q r)

/-- The two halves' sums of batch sums, added, are the sum over every interior point of every batch. -/
theorem halves_eq (x d : Field.Idx → EReal) :
    (∑ j : Fin 8, batchSum x d (batchOf 0 j)) + (∑ j : Fin 8, batchSum x d (batchOf 1 j))
      = ∑ i : Inner.Idx, fusedSq x d (i 0) (i 1) (i 2) (i 3) := by
  rw [sum_idx4 (fun i : Inner.Idx => fusedSq x d (i 0) (i 1) (i 2) (i 3)),
    sum_batches (fun b => ∑ p : Fin 126, ∑ q : Fin 126, ∑ r : Fin 126, fusedSq x d b p q r)]
  simp only [batchSum_eq]

end Cert.LossAlgebra

end
-- ==== Proof.LossAlgebra.lean ====
/-
  The loss as the fused program forms it equals the loss as the per-axis program forms it, when both arrays hold real
  numbers.

  Both losses are (1 * (T / N)) * w for the same N and w, so only the totals T matter.  The fused total, two halves of
  eight batch sums, is the sum over every interior point of every batch of the fused squared residual (a re-indexing of
  finite sums); point by point the fused squared residual is the per-axis one (the real polynomial identity); and the
  per-axis total is zero plus that sum.
-/
import proofs.«112707_j27608049779003_2_alg».proof.Proof.Stencil
import proofs.«112707_j27608049779003_2_alg».proof.Proof.LossAlgebraPoint
import proofs.«112707_j27608049779003_2_alg».proof.Proof.LossAlgebraSums

noncomputable section

open scoped BigOperators

namespace Cert.LossAlgebra

open Idealize.ShloMosaic Cert.Stencil

/-- On real inputs the two losses are equal. -/
theorem fusedLoss_eq_axisLoss (x d : Cert.Stencil.Field.Idx → EReal) (hx : ∀ i, ∃ r : ℝ, x i = (r : EReal))
    (hd : ∀ i, ∃ r : ℝ, d i = (r : EReal)) :
    Cert.Stencil.fusedLoss x d = Cert.Stencil.axisLoss x d := by
  have total : (∑ j : Fin 8, batchSum x d (batchOf 0 j)) + (∑ j : Fin 8, batchSum x d (batchOf 1 j))
      = 0 + ∑ i : Inner.Idx, axisSq x d (i 0) (i 1) (i 2) (i 3) := by
    rw [halves_eq, zero_add]
    exact Finset.sum_congr rfl fun i _ => fusedSq_eq_axisSq x d hx hd (i 0) (i 1) (i 2) (i 3)
  unfold fusedLoss axisLoss
  rw [total]

end Cert.LossAlgebra

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.FiniteInputs.lean ====
/-
  The precondition "every input is finite", read back entry by entry.

  The precondition takes |x| and |d| entrywise, compares each with the float word of +∞, and joins all the comparison
  bits by "and": over every entry of each array, then over the two arrays.  Where the joined bit is 1, every comparison
  bit is 1, and an extended real whose absolute value is below +∞ is a real number.  So both arrays hold real numbers
  only.
-/
import proofs.«112707_j27608049779003_2_alg».proof.Pre_finite_inputs
import proofs.«112707_j27608049779003_2_alg».proof.Proof.Gen.Pre_finite_inputs
import proofs.«112707_j27608049779003_2_alg».proof.Proof.LibFiniteEntry
import Idealize.ShloMosaic.Lib.ReduceAll
import Idealize.ShloMosaic.Lib.ValueIdx

namespace Cert.FiniteInputs

open Idealize.ShloMosaic Idealize.ShloMosaic.ValueIdx

/-- The rank-0 shape has one index. -/
instance subsingleton_scalar_idx : Subsingleton Cert.Pre_finite_inputs.S_.Idx :=
  ⟨fun _ _ => funext fun a => a.elim0⟩

/-- Under the precondition every entry of both arrays is a real number. -/
theorem real_entries [Cert.Pre_finite_inputs.Facts] (x d : FVec Ideal Cert.Pre_finite_inputs.S16x1x128x128x128 .f32)
    (h : Cert.Pre_finite_inputs.fn (F := Ideal) x d = fun _ => 1#1) :
    (∀ i, ∃ r : ℝ, x i = (r : EReal)) ∧ (∀ i, ∃ r : ℝ, d i = (r : EReal)) := by
  -- the result's one entry is the "and" of the two arrays' bits
  have h0 := congrFun h ValueIdx.ix0
  dsimp only [Cert.Pre_finite_inputs.fn] at h0
  obtain ⟨hx, hd⟩ := IntOp.andi_eq_one.1 h0
  -- each array's bit is the "and" over all entries of |entry| < +∞
  exact ⟨fun i => Ideal.real_of_abs_lt_inf (x i) (Host.reduce_andi_all _ _ _ _ _ hx i),
    fun i => Ideal.real_of_abs_lt_inf (d i) (Host.reduce_andi_all _ _ _ _ _ hd i)⟩

end Cert.FiniteInputs
-- ==== Proof.lean ====
/-
  A mean-squared Laplacian residual, computed two ways.

  Over a field x and data d of shape [16, 1, 128, 128, 128], both programs return
      0.2 * (1 / (16 * 126^3)) * Σ over batches b and interior points (i, j, k) of (Δx + d)^2,
  with Δ the seven-point Laplacian at spacing 1/128 (so each second difference is scaled by 16384).

  The kernel walks the batches on a 2 x 8 grid.  At each point it takes one batch, walks its 126 interior planes nine
  at a time, forms 16384 * (six neighbours - 6 * centre) + d, squares, and sums; the sum of the batch is added to one
  [8, 128] output block per half of the batches, zeroed at the first batch of the half.  After the launch one entry of
  each block is read, the two are added, and the total is divided by the number of points and scaled.

  The reference builds the whole Laplacian array: the interior by three per-axis second differences
  (n₊ + n₋ - 2c) * 16384, then the six faces and eight corners by one-sided differences written over index 0 or 127 of
  some axis — none of which the loss reads, since it cuts the interior back out, adds d, squares, and takes the mean.

  On real numbers the two residuals agree by distributivity, and the two totals are the same numbers added in two
  orders.  On the extended reals distributivity can fail at the infinities, so the inputs' finiteness is used: it makes
  every entry a real number.  The kernel's side is read off its frame run; the reference's off its run; the law that
  joins them is proved over the reals and transported.  Nothing is rewritten by the idealisation, so the kernel and
  its idealisation are the same text and that conjunct is trivial.
-/
import proofs.«112707_j27608049779003_2_alg».proof.Defs
import proofs.«112707_j27608049779003_2_alg».proof.Proof.Gen.Kernel
import proofs.«112707_j27608049779003_2_alg».proof.Proof.Gen.Kernel.Skeleton
import proofs.«112707_j27608049779003_2_alg».proof.Proof.Gen.Kernel.Launch
import proofs.«112707_j27608049779003_2_alg».proof.Proof.Gen.Kernel.Points
import proofs.«112707_j27608049779003_2_alg».proof.Proof.Gen.Kernel.Frame
import proofs.«112707_j27608049779003_2_alg».proof.Proof.Gen.KernelIdeal
import proofs.«112707_j27608049779003_2_alg».proof.Proof.Gen.KernelIdeal.Skeleton
import proofs.«112707_j27608049779003_2_alg».proof.Proof.Gen.KernelIdeal.Launch
import proofs.«112707_j27608049779003_2_alg».proof.Proof.Gen.KernelIdeal.Points
import proofs.«112707_j27608049779003_2_alg».proof.Proof.Gen.KernelIdeal.Frame
import proofs.«112707_j27608049779003_2_alg».proof.Proof.Gen.ReferenceIdeal
import proofs.«112707_j27608049779003_2_alg».proof.Proof.Gen.ReferenceIdeal.Run
import proofs.«112707_j27608049779003_2_alg».proof.Proof.Gen.Pre_finite_inputs
import proofs.«112707_j27608049779003_2_alg».proof.Proof.KernelLoss
import proofs.«112707_j27608049779003_2_alg».proof.Proof.RefLoss
import proofs.«112707_j27608049779003_2_alg».proof.Proof.LossAlgebra
import proofs.«112707_j27608049779003_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- On finite inputs the kernel's loss (the fused arrangement, batch sums added half by half) and the reference's (the
    per-axis arrangement, summed over all interior points at once) are the same extended real. -/
theorem algebraic : Cert.algebraic_KernelIdeal_ReferenceIdeal := by
  intro m ρ m' ρ' hpre hagree
  refine ⟨fun c => fun _ => Cert.Stencil.fusedLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Fused.run m ρ, ?_⟩
  refine (θ_run Cert.ReferenceIdeal.defs _ _).mono (fun _ h c => ⟨(h c).1.trans ?_, (h c).2⟩)
    (Cert.ReferenceIdeal.Value.run (F := Ideal) m' ρ')
  rw [Cert.RefLoss.ref_loss]
  funext _
  show Cert.Stencil.axisLoss (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]
  have hr := Cert.FiniteInputs.real_entries _ _ (hpre c)
  exact (Cert.LossAlgebra.fusedLoss_eq_axisLoss _ _ hr.1 hr.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
